-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x8 : Shape := ⟨2, ![1, 8]⟩
abbrev S8 : Shape := ⟨1, ![8]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S1x8 : S_.BroadcastsInDim S1x8 (![] : Fin 0 → Fin S1x8.rank)
  reducesTo_S1x8_S_d0_1 : S1x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_arg12 : FVec F S1x8 .f32) (main_arg13 : FVec F S8 .f32) (main_v48 : IVec S_ 1) (main_v49 : FVec F S1x8 .f32) (main_v50 : FVec F S1x8 .f32) : IVec S_ 1 :=
  let main_v51 : IVec S1x8 1 := cmpf .olt main_v49 main_v50
  let main_c_19 : IVec S_ 1 := constantI S_ 1 1#1
  let main_v52 : IVec S_ 1 := (fun x v => Host.reduce IntOp.andi x v reducesTo_S1x8_S_d0_1 h_S_) main_v51 main_c_19
  let main_v53 : IVec S_ 1 := andi main_v48 main_v52
  let main_v54 : FVec F S1x8 .f32 := Host.absf main_arg12
  let main_cst_20 : FVec F S_ .f32 := constant S_ .f32 0x7F800000#32
  let main_v55 : FVec F S1x8 .f32 := broadcastInDim S1x8 ![] bcast_S_S1x8 main_cst_20
  let main_v56 : IVec S1x8 1 := cmpf .olt main_v54 main_v55
  let main_c_21 : IVec S_ 1 := constantI S_ 1 1#1
  let main_v57 : IVec S_ 1 := (fun x v => Host.reduce IntOp.andi x v reducesTo_S1x8_S_d0_1 h_S_) main_v56 main_c_21
  let main_v58 : IVec S_ 1 := andi main_v53 main_v57
  let main_v59 : FVec F S8 .f32 := Host.absf main_arg13
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  main_v63

def fn_part2 {F : FTy → Type} [FloatOps F] (main_arg8 : FVec F S128x1 .f32) (main_arg9 : FVec F S128x1 .f32) (main_arg10 : FVec F S1 .f32) (main_arg11 : FVec F S1x8 .f32) (main_arg12 : FVec F S1x8 .f32) (main_arg13 : FVec F S8 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1x8 .f32 := Host.absf main_arg11
  let main_cst_18 : FVec F S_ .f32 := constant S_ .f32 0x7F800000#32
  let main_v50 : FVec F S1x8 .f32 := broadcastInDim S1x8 ![] bcast_S_S1x8 main_cst_18
  fn_part3 (F := F) main_arg12 main_arg13 main_v48 main_v49 main_v50

def fn_part1 {F : FTy → Type} [FloatOps F] (main_arg5 : FVec F S128x128 .f32) (main_arg6 : FVec F S128x128 .f32) (main_arg7 : FVec F S128 .f32) (main_arg8 : FVec F S128x1 .f32) (main_arg9 : FVec F S128x1 .f32) (main_arg10 : FVec F S1 .f32) (main_arg11 : FVec F S1x8 .f32) (main_arg12 : FVec F S1x8 .f32) (main_arg13 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S64x128 .f32) (main_arg3 : FVec F S64x128 .f32) (main_arg4 : FVec F S128 .f32) (main_arg5 : FVec F S128x128 .f32) (main_arg6 : FVec F S128x128 .f32) (main_arg7 : FVec F S128 .f32) (main_arg8 : FVec F S128x1 .f32) (main_arg9 : FVec F S128x1 .f32) (main_arg10 : FVec F S1 .f32) (main_arg11 : FVec F S1x8 .f32) (main_arg12 : FVec F S1x8 .f32) (main_arg13 : FVec F S8 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x8 : Shape := ⟨2, ![1, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S4000x64 : Shape := ⟨2, ![4000, 64]⟩
abbrev S4000x128 : Shape := ⟨2, ![4000, 128]⟩
abbrev S1x128 : Shape := ⟨2, ![1, 128]⟩
abbrev S1600000x128 : Shape := ⟨2, ![1600000, 128]⟩
abbrev S4000x1 : Shape := ⟨2, ![4000, 1]⟩
abbrev S1x1 : Shape := ⟨2, ![1, 1]⟩
abbrev S100000x8 : Shape := ⟨2, ![100000, 8]⟩
abbrev S4000x8 : Shape := ⟨2, ![4000, 8]⟩
abbrev S4000 : Shape := ⟨1, ![4000]⟩

abbrev nBuf : Space → Nat
  | .hbm => 98
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S128x1, .f32⟩
  | .hbm, ⟨10, _⟩ => ⟨S1, .f32⟩
  | .hbm, ⟨11, _⟩ => ⟨S1x8, .f32⟩
  | .hbm, ⟨12, _⟩ => ⟨S1x8, .f32⟩
  | .hbm, ⟨13, _⟩ => ⟨S8, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S100000x1, .f32⟩
  | .hbm, ⟨44, _⟩ => ⟨S100000x64, .f32⟩
  | .hbm, ⟨45, _⟩ => ⟨S100000x64, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S100000x1, .f32⟩
  | .hbm, ⟨81, _⟩ => ⟨S100000, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x1, .f32⟩
  | .hbm, ⟨91, _⟩ => ⟨S_, .f32⟩
  | .hbm, ⟨92, _⟩ => ⟨S100000x1, .f32⟩
  | .hbm, ⟨93, _⟩ => ⟨S1600000x1, .i32⟩
  | .hbm, ⟨94, _⟩ => ⟨S100000x1, .f32⟩
  | .hbm, ⟨95, _⟩ => ⟨S100000x1, .f32⟩
  | .hbm, ⟨96, _⟩ => ⟨S100000x1, .f32⟩
  | .hbm, ⟨97, _⟩ => ⟨S100000x8, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x128, .f32⟩
  | .local _ .vmem, ⟨5, _⟩ => ⟨S64x128, .f32⟩
  | .local _ .vmem, ⟨6, _⟩ => ⟨S128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x1, .f32⟩
  | .local _ .vmem, ⟨23, _⟩ => ⟨S128x1, .f32⟩
  | .local _ .vmem, ⟨24, _⟩ => ⟨S1, .f32⟩
  | .local _ .vmem, ⟨25, _⟩ => ⟨S4000x1, .f32⟩
  | .local _ .vmem, ⟨26, _⟩ => ⟨S4000x1, .f32⟩
  | .local _ .vmem, ⟨27, _⟩ => ⟨S4000x1, .f32⟩
  | .local _ .vmem, ⟨28, _⟩ => ⟨S4000x1, .f32⟩
  | .local _ .vmem, ⟨29, _⟩ => ⟨S4000x1, .f32⟩
  | .local _ .vmem, ⟨30, _⟩ => ⟨S4000x1, .f32⟩
  | .local _ .vmem, ⟨31, _⟩ => ⟨S1x8, .f32⟩
  | .local _ .vmem, ⟨32, _⟩ => ⟨S1x8, .f32⟩
  | .local _ .vmem, ⟨33, _⟩ => ⟨S8, .f32⟩
  | .local _ .vmem, ⟨34, _⟩ => ⟨S4000x8, .f32⟩
  | .local _ .vmem, ⟨35, _⟩ => ⟨S4000x8, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_c_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_13 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x8 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S100000x1_S100000 : S100000x1.ShapeCasts S100000
  bcast_S_S100000x1 : S_.BroadcastsInDim S100000x1 (![] : Fin 0 → Fin S100000x1.rank)
  shapeCasts_S4000x1_S4000x1 : S4000x1.ShapeCasts S4000x1
  inb_S1x8_S1x8_0_0 : ∀ a, (![0, 0] : Fin 2 → Nat) a + S1x8.size a ≤ S1x8.size a
  h_S1x8 : 0 < S1x8.numel
  inb_S8_S8_0 : ∀ a, (![0] : Fin 1 → Nat) a + S8.size a ≤ S8.size a
  h_S8 : 0 < S8.numel
  shapeCasts_S8_S1x8 : S8.ShapeCasts S1x8
  broadcasts_S1x8_S4000x8 : S1x8.Broadcasts S4000x8
  reduces_S4000x8_S4000 : S4000x8.Reduces [1] S4000
  shapeCasts_S4000_S4000x1 : S4000.ShapeCasts S4000x1
  broadcasts_S4000x1_S4000x8 : S4000x1.Broadcasts S4000x8
  inb_S4000x8_S4000x8_0_0 : ∀ a, (![0, 0] : Fin 2 → Nat) a + S4000x8.size a ≤ S4000x8.size a
  h_S4000x8 : 0 < S4000x8.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x128_S4000x128_1_0_0_1_n_n_wf : DotDims.WF S4000x64 S64x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S4000x1_S1x8_S4000x8_1_0_0_1_n_n_wf : DotDims.WF S4000x1 S1x8 S4000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S128x1.size a
  hwx2_2 : ∀ i : grid2.Coords, EltTy.bits .f32 = 32 ∨ (Rect.block (s := S128x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x1.size a ≤ S100000x1.size a
  hwx2_5 : ∀ i : grid2.Coords, EltTy.bits .f32 = 32 ∨ (Rect.block (s := S100000x1) S4000x1.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x1.size a ≤ S100000x1.size a
  hwx3_0 : ∀ i : grid3.Coords, EltTy.bits .f32 = 32 ∨ (Rect.block (s := S100000x1) S4000x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x8.size a ≤ S1x8.size a
  hwx3_2 : ∀ i : grid3.Coords, EltTy.bits .f32 = 32 ∨ (Rect.block (s := S1x8) S1x8.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x8.size a ≤ S1x8.size a
  hwx3_3 : ∀ i : grid3.Coords, EltTy.bits .f32 = 32 ∨ (Rect.block (s := S1x8) S1x8.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S8.size a ≤ S8.size a
  hwx3_4 : ∀ i : grid3.Coords, EltTy.bits .f32 = 32 ∨ (Rect.block (s := S8) S8.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x8.size a ≤ S100000x8.size a
  hwx3_5 : ∀ i : grid3.Coords, EltTy.bits .f32 = 32 ∨ (Rect.block (s := S100000x8) S4000x8.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S4000x1_S1x8_S4000x8_1_0_0_1_n_n : DotDims S4000x1 S1x8 S4000x8 where
  lhsContracting := [1]
  rhsContracting := [0]
  lhsNonContracting := [0]
  rhsNonContracting := [1]
  lhsBatch := []
  rhsBatch := []
  wf := dot_S4000x1_S1x8_S4000x8_1_0_0_1_n_n_wf

abbrev win0_0 : Pipeline.Window sig grid0 :=
  Pipeline.Window.ofSpec (Memref.whole main_v24) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S4000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S4000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S1x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S1x8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S8.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S4000x8.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x8 : Shape := ⟨2, ![1, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x1 : Shape := ⟨2, ![1, 1]⟩
abbrev S100000x8 : Shape := ⟨2, ![100000, 8]⟩

abbrev nBuf : Space → Nat
  | .hbm => 163
  | .vmem => 0
  | .smem => 0
  | _ => 0

abbrev hbmTy0_0 (i : Nat) : BufTy := match i % 128 with
  | 0 => ⟨S100000x64, .f32⟩
  | 1 => ⟨S2x1600000, .i32⟩
  | 2 => ⟨S64x128, .f32⟩
  | 3 => ⟨S64x128, .f32⟩
  | 4 => ⟨S128, .f32⟩
  | 5 => ⟨S128x128, .f32⟩
  | 6 => ⟨S128x128, .f32⟩
  | 7 => ⟨S128, .f32⟩
  | 8 => ⟨S128x1, .f32⟩
  | 9 => ⟨S128x1, .f32⟩
  | 10 => ⟨S1, .f32⟩
  | 11 => ⟨S1x8, .f32⟩
  | 12 => ⟨S1x8, .f32⟩
  | 13 => ⟨S8, .f32⟩
  | 14 => ⟨S1x1600000, .i32⟩
  | 15 => ⟨S1600000, .i32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S_, .f32⟩
  | 28 => ⟨S100000x64, .f32⟩
  | 29 => ⟨S1600000x1, .i32⟩
  | 30 => ⟨S100000x64, .f32⟩
  | 31 => ⟨S_, .f32⟩
  | 32 => ⟨S1600000, .f32⟩
  | 33 => ⟨S_, .f32⟩
  | 34 => ⟨S100000, .f32⟩
  | 35 => ⟨S1600000x1, .i32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x64, .f32⟩
  | 42 => ⟨S100000x64, .f32⟩
  | 43 => ⟨S100000x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S_, .f32⟩
  | 66 => ⟨S1600000, .f32⟩
  | 67 => ⟨S_, .f32⟩
  | 68 => ⟨S100000, .f32⟩
  | 69 => ⟨S1600000x1, .i32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S_, .f32⟩
  | 96 => ⟨S100000x128, .f32⟩
  | 97 => ⟨S1600000x1, .i32⟩
  | 98 => ⟨S100000x128, .f32⟩
  | 99 => ⟨S_, .f32⟩
  | 100 => ⟨S1600000, .f32⟩
  | 101 => ⟨S_, .f32⟩
  | 102 => ⟨S100000, .f32⟩
  | 103 => ⟨S1600000x1, .i32⟩
  | 104 => ⟨S100000, .f32⟩
  | 105 => ⟨S_, .f32⟩
  | 106 => ⟨S100000, .f32⟩
  | 107 => ⟨S100000, .f32⟩
  | 108 => ⟨S100000x1, .f32⟩
  | 109 => ⟨S100000x128, .f32⟩
  | 110 => ⟨S100000x128, .f32⟩
  | 111 => ⟨S100000x1, .f32⟩
  | 112 => ⟨S100000x1, .f32⟩
  | 113 => ⟨S100000x1, .f32⟩
  | 114 => ⟨S1x1, .f32⟩
  | 115 => ⟨S100000x1, .f32⟩
  | 116 => ⟨S100000x1, .f32⟩
  | 117 => ⟨S100000, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x1, .f32⟩
  | 127 => ⟨S_, .f32⟩
  | _ => ⟨S100000x64, .f32⟩

abbrev hbmTy0_1 (i : Nat) : BufTy := match i % 128 with
  | 0 => ⟨S100000x1, .f32⟩
  | 1 => ⟨S1600000x1, .i32⟩
  | 2 => ⟨S100000x1, .f32⟩
  | 3 => ⟨S_, .f32⟩
  | 4 => ⟨S1600000, .f32⟩
  | 5 => ⟨S_, .f32⟩
  | 6 => ⟨S100000, .f32⟩
  | 7 => ⟨S1600000x1, .i32⟩
  | 8 => ⟨S100000, .f32⟩
  | 9 => ⟨S_, .f32⟩
  | 10 => ⟨S100000, .f32⟩
  | 11 => ⟨S100000, .f32⟩
  | 12 => ⟨S100000x1, .f32⟩
  | 13 => ⟨S100000x1, .f32⟩
  | 14 => ⟨S100000x8, .f32⟩
  | 15 => ⟨S100000x8, .f32⟩
  | 16 => ⟨S100000x8, .f32⟩
  | 17 => ⟨S1x8, .f32⟩
  | 18 => ⟨S100000x8, .f32⟩
  | 19 => ⟨S100000x8, .f32⟩
  | 20 => ⟨S_, .f32⟩
  | 21 => ⟨S100000, .f32⟩
  | 22 => ⟨S_, .f32⟩
  | 23 => ⟨S100000, .f32⟩
  | 24 => ⟨S100000, .f32⟩
  | 25 => ⟨S100000x1, .f32⟩
  | 26 => ⟨S100000x8, .f32⟩
  | 27 => ⟨S100000x8, .f32⟩
  | 28 => ⟨S100000x8, .f32⟩
  | 29 => ⟨S_, .f32⟩
  | 30 => ⟨S100000, .f32⟩
  | 31 => ⟨S100000x1, .f32⟩
  | 32 => ⟨S100000x1, .f32⟩
  | 33 => ⟨S100000x8, .f32⟩
  | 34 => ⟨S100000x8, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call1_cst : Ref sig .tc := ⟨.hbm, 83, rfl⟩
abbrev main_call1_v0 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_16 : Ref sig .tc := ⟨.hbm, 118, rfl⟩
abbrev main_v82 : Ref sig .tc := ⟨.hbm, 119, rfl⟩
abbrev main_v83 : Ref sig .tc := ⟨.hbm, 120, rfl⟩
abbrev main_c_17 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_18 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_19 : Ref sig .tc := ⟨.hbm, 131, rfl⟩
abbrev main_v92 : Ref sig .tc := ⟨.hbm, 132, rfl⟩
abbrev main_cst_20 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_21 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_call2_cst : Ref sig .tc := ⟨.hbm, 148, rfl⟩
abbrev main_call2_v0 : Ref sig .tc := ⟨.hbm, 149, rfl⟩
abbrev main_call2_cst_0 : Ref sig .tc := ⟨.hbm, 150, rfl⟩
abbrev main_call2_v1 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_call2_v5 : Ref sig .tc := ⟨.hbm, 155, rfl⟩
abbrev main_call2_v6 : Ref sig .tc := ⟨.hbm, 156, rfl⟩
abbrev main_call2_cst_1 : Ref sig .tc := ⟨.hbm, 157, rfl⟩
abbrev main_call2_v7 : Ref sig .tc := ⟨.hbm, 158, rfl⟩
abbrev main_call2_v8 : Ref sig .tc := ⟨.hbm, 159, rfl⟩
abbrev main_call2_v9 : Ref sig .tc := ⟨.hbm, 160, rfl⟩
abbrev main_call2_v10 : Ref sig .tc := ⟨.hbm, 161, rfl⟩
abbrev main_v106 : Ref sig .tc := ⟨.hbm, 162, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  bcast_S_S100000x1 : S_.BroadcastsInDim S100000x1 (![] : Fin 0 → Fin S100000x1.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000x1_S100000x8_0_1 : S100000x1.BroadcastsInDim S100000x8 (![0, 1] : Fin 2 → Fin S100000x8.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S100000x1_S1x8_S100000x8_1_0_0_1_n_n_wf : DotDims.WF S100000x1 S1x8 S100000x8 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x1_S1x8_S100000x8_1_0_0_1_n_n : DotDims S100000x1 S1x8 S100000x8 where
  lhsContracting := [1]
  rhsContracting := [0]
  lhsNonContracting := [0]
  rhsNonContracting := [1]
  lhsBatch := []
  rhsBatch := []
  wf := dot_S100000x1_S1x8_S100000x8_1_0_0_1_n_n_wf

class Facts : Prop extends Facts₀ where

variable [Facts]
-- ==== Proof.KernelRun.lean ====
/-
  The idealized kernel's run with its two results named.

  @main is four regions among four stretches of host operations. Its run, cut at the eight segment boundaries, leaves
  every unscoped buffer at the last boundary's contents: the fold of the host stretches (each operation applied to what
  the buffers held) and of the regions (each region's output array at what its write-backs leave). Read at the two result
  buffers and at the fourteen argument buffers, that is: the results at the fold's value, the arguments as launched.
-/
import proofs.«169581_j36447092474036_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last boundary's
    contents and the argument arrays as launched. -/
theorem run : θ_run defs (onTc (τ := τ) (main (F := F))) ⟨m, fun _ => 0, ρ⟩ (fun r => ∀ c : Dev nD,
      r.2.mem ((c.tc : Thread nD τ).loc main_v67) = W8 m ρ c (Proc.devRef .tc main_v67)
      ∧ r.2.mem ((c.tc : Thread nD τ).loc main_v54) = W8 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v67 (by decide)),
       h c _ (mem_uc main_v54 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.Named

end
-- ==== Proof.LibReciprocalScale.lean ====
/-
  A product with a reciprocal against a quotient, on the extended reals.

  At exact arithmetic a quotient a / d by d ≠ 0 is a · d⁻¹, and 1 / d is d⁻¹, so a · (1 / d) = a / d for EVERY extended
  real a, the infinities included: no finiteness is needed, only d ≠ 0. A maximum with the value of the f32 word
  0x3F800000 (the real 1) is at least 1, hence never 0: a degree clamped below at 1 can always be divided by.
-/
import Idealize.ShloMosaic.PureOps.Ideal.Laws

noncomputable section

namespace LibReciprocalScale

open Idealize.ShloMosaic

/-- The f32 word 0x3F800000 denotes the real 1. -/
theorem ofBits_one_f32 : Ideal.ofBits .f32 0x3F800000#32 = 1 := by
  simp [Ideal.ofBits, Ideal.ieee, -EReal.coe_mul]; norm_num

/-- A maximum with the word 0x3F800000's value is not 0. -/
theorem max_one_ne_zero (x : EReal) : max x (Ideal.ofBits .f32 0x3F800000#32) ≠ 0 := by
  rw [ofBits_one_f32]
  exact ne_of_gt (lt_of_lt_of_le zero_lt_one (le_max_right x 1))

/-- Off zero, the product with the reciprocal is the quotient, on every extended real. -/
theorem mul_one_div (a d : EReal) (hd : d ≠ 0) : a * Ideal.div 1 d = Ideal.div a d := by
  unfold Ideal.div
  rw [if_neg hd, if_neg hd, one_mul]

end LibReciprocalScale

end
-- ==== Proof.LibMeanScale.lean ====
/-
  Averaging by a reciprocal against averaging by a quotient, at exact arithmetic.

  A neighbourhood sum is turned into an average either by multiplying each row with the reciprocal 1 / max(count, 1) of the
  row's clamped count, or by dividing each row by max(count, 1). Both spread the per-row number over the row's entries by
  the same broadcasts, so at an entry both read the same row's count; and off zero the product with a reciprocal is the
  quotient on every extended real. The clamped count is at least 1, hence never zero. No finiteness is used.
-/
import Idealize.ShloMosaic.Lib.ValueIdx
import Idealize.ShloMosaic.PureOps.Ideal.Laws
import proofs.«169581_j36447092474036_1_alg».proof.Proof.LibReciprocalScale

noncomputable section

namespace LibMeanScale

open Idealize.ShloMosaic Idealize.ShloMosaic.ValueIdx

/-- The pointwise law: a · (1 / max(x, 1)) = a / max(x, 1), where `o` is the value of the word of 1. -/
theorem mul_recip_max (a x o : EReal) (ho : o = Ideal.ofBits .f32 0x3F800000#32) :
    a * Ideal.div o (max x o) = Ideal.div a (max x o) := by
  subst ho
  have h1 : Ideal.ofBits .f32 0x3F800000#32 = 1 := LibReciprocalScale.ofBits_one_f32
  have hne : max x (Ideal.ofBits .f32 0x3F800000#32) ≠ 0 := LibReciprocalScale.max_one_ne_zero x
  rw [show Ideal.div (Ideal.ofBits .f32 0x3F800000#32) (max x (Ideal.ofBits .f32 0x3F800000#32))
      = Ideal.div 1 (max x (Ideal.ofBits .f32 0x3F800000#32)) from by rw [h1]]
  exact LibReciprocalScale.mul_one_div a _ hne

/-- Rows scaled by the reciprocal of the clamped count, the per-row number spread by two broadcasts
    ([N] → [N, 1] → [N, D]): the rows divided by the clamped count spread the same way. -/
theorem scale_two {s1 s2 s3 : Shape} (A : FVec Ideal s3 .f32) (one cnt : FVec Ideal s1 .f32)
    (d1 : Fin s1.rank → Fin s2.rank) (h1 : s1.BroadcastsInDim s2 d1) (d2 : Fin s2.rank → Fin s3.rank) (h2 : s2.BroadcastsInDim s3 d2)
    (hone : ∀ i, one i = Ideal.ofBits .f32 0x3F800000#32) :
    mulf A (broadcastInDim s3 d2 h2 (broadcastInDim s2 d1 h1 (Host.divf one (maximumf cnt one))))
      = Host.divf A (broadcastInDim s3 d2 h2 (broadcastInDim s2 d1 h1 (maximumf cnt one))) := by
  funext j
  unfold mulf Host.divf broadcastInDim maximumf
  exact mul_recip_max _ _ _ (hone _)

/-- The same with one broadcast ([N] → [N, 1]), for a layer of a single feature. -/
theorem scale_one {s1 s2 : Shape} (A : FVec Ideal s2 .f32) (one cnt : FVec Ideal s1 .f32)
    (d1 : Fin s1.rank → Fin s2.rank) (h1 : s1.BroadcastsInDim s2 d1)
    (hone : ∀ i, one i = Ideal.ofBits .f32 0x3F800000#32) :
    mulf A (broadcastInDim s2 d1 h1 (Host.divf one (maximumf cnt one)))
      = Host.divf A (broadcastInDim s2 d1 h1 (maximumf cnt one)) := by
  funext j
  unfold mulf Host.divf broadcastInDim maximumf
  exact mul_recip_max _ _ _ (hone _)

end LibMeanScale

end
-- ==== Proof.KernelWalk.lean ====
/-
  The idealized kernel's host stretches, read from the contents they start from.

  Between its four regions the kernel's @main forms, for each layer, the averaged neighbourhood array: the rows of the
  previous features gathered by source node, segment-summed by destination node, and multiplied by the broadcast reciprocal
  1 / max(in-degree, 1), the reciprocal computed once. The reference divides the same segment sum by the broadcast
  max(in-degree, 1). Off zero a product with a reciprocal is the quotient, and a count clamped below at 1 is not zero: so
  each stretch's result IS the reference's stage, whatever the previous features are. The index vectors and the reciprocal
  are written once, in the first stretch, and no later stretch writes them.
-/
import proofs.«169581_j36447092474036_1_alg».proof.Proof.Gen.KernelIdeal.Frame
import proofs.«169581_j36447092474036_1_alg».proof.Proof.RefRead
import proofs.«169581_j36447092474036_1_alg».proof.Proof.LibMeanScale

noncomputable section

namespace Cert.KernelIdeal.Walk

open Cert.KernelIdeal Cert.KernelIdeal.Gen
open Idealize.ShloMosaic Idealize.ShloMosaic.TcCoe Idealize.SL.Sem Idealize.ShloMosaic.StableHlo

/-- No operation of the named list writes the buffer at hand: each operation writes its one result buffer, another one. -/
macro "not_written" ops:ident : tactic =>
  `(tactic| (refine List.forall_iff_forall_mem.mp ?_
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

variable (V : Valuation τ sig (Elt Ideal))

/-! ## Buffers a stretch does not write -/

theorem keepH0_arg0 : StableHlo.after hostOps0 V (Proc.devRef .tc main_arg0) = V (Proc.devRef .tc main_arg0) :=
  StableHlo.after_of_forall_not_mem (b := Proc.devRef .tc main_arg0) _ _ (by not_written hostOps0)
theorem keepH0_arg2 : StableHlo.after hostOps0 V (Proc.devRef .tc main_arg2) = V (Proc.devRef .tc main_arg2) :=
  StableHlo.after_of_forall_not_mem (b := Proc.devRef .tc main_arg2) _ _ (by not_written hostOps0)
theorem keepH0_arg3 : StableHlo.after hostOps0 V (Proc.devRef .tc main_arg3) = V (Proc.devRef .tc main_arg3) :=
  StableHlo.after_of_forall_not_mem (b := Proc.devRef .tc main_arg3) _ _ (by not_written hostOps0)
theorem keepH0_arg4 : StableHlo.after hostOps0 V (Proc.devRef .tc main_arg4) = V (Proc.devRef .tc main_arg4) :=
  StableHlo.after_of_forall_not_mem (b := Proc.devRef .tc main_arg4) _ _ (by not_written hostOps0)
theorem keepH0_arg5 : StableHlo.after hostOps0 V (Proc.devRef .tc main_arg5) = V (Proc.devRef .tc main_arg5) :=
  StableHlo.after_of_forall_not_mem (b := Proc.devRef .tc main_arg5) _ _ (by not_written hostOps0)
theorem keepH0_arg6 : StableHlo.after hostOps0 V (Proc.devRef .tc main_arg6) = V (Proc.devRef .tc main_arg6) :=
  StableHlo.after_of_forall_not_mem (b := Proc.devRef .tc main_arg6) _ _ (by not_written hostOps0)
theorem keepH0_arg7 : StableHlo.after hostOps0 V (Proc.devRef .tc main_arg7) = V (Proc.devRef .tc main_arg7) :=
  StableHlo.after_of_forall_not_mem (b := Proc.devRef .tc main_arg7) _ _ (by not_written hostOps0)
theorem keepH0_arg8 : StableHlo.after hostOps0 V (Proc.devRef .tc main_arg8) = V (Proc.devRef .tc main_arg8) :=
  StableHlo.after_of_forall_not_mem (b := Proc.devRef .tc main_arg8) _ _ (by not_written hostOps0)
theorem keepH0_arg9 : StableHlo.after hostOps0 V (Proc.devRef .tc main_arg9) = V (Proc.devRef .tc main_arg9) :=
  StableHlo.after_of_forall_not_mem (b := Proc.devRef .tc main_arg9) _ _ (by not_written hostOps0)
theorem keepH0_arg10 : StableHlo.after hostOps0 V (Proc.devRef .tc main_arg10) = V (Proc.devRef .tc main_arg10) :=
  StableHlo.after_of_forall_not_mem (b := Proc.devRef .tc main_arg10) _ _ (by not_written hostOps0)
theorem keepH0_arg11 : StableHlo.after hostOps0 V (Proc.devRef .tc main_arg11) = V (Proc.devRef .tc main_arg11) :=
  StableHlo.after_of_forall_not_mem (b := Proc.devRef .tc main_arg11) _ _ (by not_written hostOps0)
theorem keepH0_arg12 : StableHlo.after hostOps0 V (Proc.devRef .tc main_arg12) = V (Proc.devRef .tc main_arg12) :=
  StableHlo.after_of_forall_not_mem (b := Proc.devRef .tc main_arg12) _ _ (by not_written hostOps0)
theorem keepH0_arg13 : StableHlo.after hostOps0 V (Proc.devRef .tc main_arg13) = V (Proc.devRef .tc main_arg13) :=
  StableHlo.after_of_forall_not_mem (b := Proc.devRef .tc main_arg13) _ _ (by not_written hostOps0)
theorem keepH1_v1 : StableHlo.after hostOps1 V (Proc.devRef .tc main_v1) = V (Proc.devRef .tc main_v1) :=
  StableHlo.after_of_forall_not_mem (b := Proc.devRef .tc main_v1) _ _ (by not_written hostOps1)
theorem keepH1_v3 : StableHlo.after hostOps1 V (Proc.devRef .tc main_v3) = V (Proc.devRef .tc main_v3) :=
  StableHlo.after_of_forall_not_mem (b := Proc.devRef .tc main_v3) _ _ (by not_written hostOps1)
theorem keepH1_v11 : StableHlo.after hostOps1 V (Proc.devRef .tc main_v11) = V (Proc.devRef .tc main_v11) :=
  StableHlo.after_of_forall_not_mem (b := Proc.devRef .tc main_v11) _ _ (by not_written hostOps1)
theorem keepH1_v25 : StableHlo.after hostOps1 V (Proc.devRef .tc main_v25) = V (Proc.devRef .tc main_v25) :=
  StableHlo.after_of_forall_not_mem (b := Proc.devRef .tc main_v25) _ _ (by not_written hostOps1)
theorem keepH1_arg5 : StableHlo.after hostOps1 V (Proc.devRef .tc main_arg5) = V (Proc.devRef .tc main_arg5) :=
  StableHlo.after_of_forall_not_mem (b := Proc.devRef .tc main_arg5) _ _ (by not_written hostOps1)
theorem keepH1_arg6 : StableHlo.after hostOps1 V (Proc.devRef .tc main_arg6) = V (Proc.devRef .tc main_arg6) :=
  StableHlo.after_of_forall_not_mem (b := Proc.devRef .tc main_arg6) _ _ (by not_written hostOps1)
theorem keepH1_arg7 : StableHlo.after hostOps1 V (Proc.devRef .tc main_arg7) = V (Proc.devRef .tc main_arg7) :=
  StableHlo.after_of_forall_not_mem (b := Proc.devRef .tc main_arg7) _ _ (by not_written hostOps1)
theorem keepH1_arg8 : StableHlo.after hostOps1 V (Proc.devRef .tc main_arg8) = V (Proc.devRef .tc main_arg8) :=
  StableHlo.after_of_forall_not_mem (b := Proc.devRef .tc main_arg8) _ _ (by not_written hostOps1)
theorem keepH1_arg9 : StableHlo.after hostOps1 V (Proc.devRef .tc main_arg9) = V (Proc.devRef .tc main_arg9) :=
  StableHlo.after_of_forall_not_mem (b := Proc.devRef .tc main_arg9) _ _ (by not_written hostOps1)
theorem keepH1_arg10 : StableHlo.after hostOps1 V (Proc.devRef .tc main_arg10) = V (Proc.devRef .tc main_arg10) :=
  StableHlo.after_of_forall_not_mem (b := Proc.devRef .tc main_arg10) _ _ (by not_written hostOps1)
theorem keepH1_arg11 : StableHlo.after hostOps1 V (Proc.devRef .tc main_arg11) = V (Proc.devRef .tc main_arg11) :=
  StableHlo.after_of_forall_not_mem (b := Proc.devRef .tc main_arg11) _ _ (by not_written hostOps1)
theorem keepH1_arg12 : StableHlo.after hostOps1 V (Proc.devRef .tc main_arg12) = V (Proc.devRef .tc main_arg12) :=
  StableHlo.after_of_forall_not_mem (b := Proc.devRef .tc main_arg12) _ _ (by not_written hostOps1)
theorem keepH1_arg13 : StableHlo.after hostOps1 V (Proc.devRef .tc main_arg13) = V (Proc.devRef .tc main_arg13) :=
  StableHlo.after_of_forall_not_mem (b := Proc.devRef .tc main_arg13) _ _ (by not_written hostOps1)
theorem keepH2_v1 : StableHlo.after hostOps2 V (Proc.devRef .tc main_v1) = V (Proc.devRef .tc main_v1) :=
  StableHlo.after_of_forall_not_mem (b := Proc.devRef .tc main_v1) _ _ (by not_written hostOps2)
theorem keepH2_v3 : StableHlo.after hostOps2 V (Proc.devRef .tc main_v3) = V (Proc.devRef .tc main_v3) :=
  StableHlo.after_of_forall_not_mem (b := Proc.devRef .tc main_v3) _ _ (by not_written hostOps2)
theorem keepH2_v11 : StableHlo.after hostOps2 V (Proc.devRef .tc main_v11) = V (Proc.devRef .tc main_v11) :=
  StableHlo.after_of_forall_not_mem (b := Proc.devRef .tc main_v11) _ _ (by not_written hostOps2)
theorem keepH2_v39 : StableHlo.after hostOps2 V (Proc.devRef .tc main_v39) = V (Proc.devRef .tc main_v39) :=
  StableHlo.after_of_forall_not_mem (b := Proc.devRef .tc main_v39) _ _ (by not_written hostOps2)
theorem keepH2_arg8 : StableHlo.after hostOps2 V (Proc.devRef .tc main_arg8) = V (Proc.devRef .tc main_arg8) :=
  StableHlo.after_of_forall_not_mem (b := Proc.devRef .tc main_arg8) _ _ (by not_written hostOps2)
theorem keepH2_arg9 : StableHlo.after hostOps2 V (Proc.devRef .tc main_arg9) = V (Proc.devRef .tc main_arg9) :=
  StableHlo.after_of_forall_not_mem (b := Proc.devRef .tc main_arg9) _ _ (by not_written hostOps2)
theorem keepH2_arg10 : StableHlo.after hostOps2 V (Proc.devRef .tc main_arg10) = V (Proc.devRef .tc main_arg10) :=
  StableHlo.after_of_forall_not_mem (b := Proc.devRef .tc main_arg10) _ _ (by not_written hostOps2)
theorem keepH2_arg11 : StableHlo.after hostOps2 V (Proc.devRef .tc main_arg11) = V (Proc.devRef .tc main_arg11) :=
  StableHlo.after_of_forall_not_mem (b := Proc.devRef .tc main_arg11) _ _ (by not_written hostOps2)
theorem keepH2_arg12 : StableHlo.after hostOps2 V (Proc.devRef .tc main_arg12) = V (Proc.devRef .tc main_arg12) :=
  StableHlo.after_of_forall_not_mem (b := Proc.devRef .tc main_arg12) _ _ (by not_written hostOps2)
theorem keepH2_arg13 : StableHlo.after hostOps2 V (Proc.devRef .tc main_arg13) = V (Proc.devRef .tc main_arg13) :=
  StableHlo.after_of_forall_not_mem (b := Proc.devRef .tc main_arg13) _ _ (by not_written hostOps2)
theorem keepH3_v53 : StableHlo.after hostOps3 V (Proc.devRef .tc main_v53) = V (Proc.devRef .tc main_v53) :=
  StableHlo.after_of_forall_not_mem (b := Proc.devRef .tc main_v53) _ _ (by not_written hostOps3)
theorem keepH3_arg11 : StableHlo.after hostOps3 V (Proc.devRef .tc main_arg11) = V (Proc.devRef .tc main_arg11) :=
  StableHlo.after_of_forall_not_mem (b := Proc.devRef .tc main_arg11) _ _ (by not_written hostOps3)
theorem keepH3_arg12 : StableHlo.after hostOps3 V (Proc.devRef .tc main_arg12) = V (Proc.devRef .tc main_arg12) :=
  StableHlo.after_of_forall_not_mem (b := Proc.devRef .tc main_arg12) _ _ (by not_written hostOps3)
theorem keepH3_arg13 : StableHlo.after hostOps3 V (Proc.devRef .tc main_arg13) = V (Proc.devRef .tc main_arg13) :=
  StableHlo.after_of_forall_not_mem (b := Proc.devRef .tc main_arg13) _ _ (by not_written hostOps3)

/-! ## Each stretch read from the contents it starts from -/

section Reads

variable (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x1, .f32⟩ : BufTy).Contents (Elt Ideal)) (x9 : (⟨S128x1, .f32⟩ : BufTy).Contents (Elt Ideal)) (x10 : (⟨S1, .f32⟩ : BufTy).Contents (Elt Ideal)) (x11 : (⟨S1x8, .f32⟩ : BufTy).Contents (Elt Ideal)) (x12 : (⟨S1x8, .f32⟩ : BufTy).Contents (Elt Ideal)) (x13 : (⟨S8, .f32⟩ : BufTy).Contents (Elt Ideal))

set_option maxHeartbeats 2000000 in
theorem readH0_v1 (h1 : V (Proc.devRef .tc main_arg1) = x1) : StableHlo.after hostOps0 V (Proc.devRef .tc main_v1) = Cert.ReferenceIdeal.RefRead.val_main_v1 (F := Ideal) x1 := by
  after_results_simp
  rw [h1]
  rfl

set_option maxHeartbeats 2000000 in
theorem readH0_v3 (h1 : V (Proc.devRef .tc main_arg1) = x1) : StableHlo.after hostOps0 V (Proc.devRef .tc main_v3) = Cert.ReferenceIdeal.RefRead.val_main_v3 (F := Ideal) x1 := by
  after_results_simp
  rw [h1]
  rfl

set_option maxHeartbeats 2000000 in
/-- The reciprocal of the clamped in-degree, written once. -/
theorem readH0_v11 (h1 : V (Proc.devRef .tc main_arg1) = x1) : StableHlo.after hostOps0 V (Proc.devRef .tc main_v11) = (Host.divf (F := Ideal) (s := S100000) (φ := .f32) (Cert.ReferenceIdeal.RefRead.val_main_v18 (F := Ideal)) (maximumf (F := Ideal) (s := S100000) (φ := .f32) (Cert.ReferenceIdeal.RefRead.val_main_v17 (F := Ideal) x1) (Cert.ReferenceIdeal.RefRead.val_main_v18 (F := Ideal)))) := by
  after_results_simp
  rw [h1]
  rfl

set_option maxHeartbeats 4000000 in
/-- The first layer's averaged neighbourhood is the reference's. -/
theorem readH0_v24 (h0 : V (Proc.devRef .tc main_arg0) = x0) (h1 : V (Proc.devRef .tc main_arg1) = x1) :
    StableHlo.after hostOps0 V (Proc.devRef .tc main_v24) = Cert.ReferenceIdeal.RefRead.val_main_v22 (F := Ideal) x0 x1 := by
  after_results_simp
  rw [h0, h1]
  refine (LibMeanScale.scale_two _ _ _ _ _ _ _ (fun _ => rfl)).trans ?_
  rfl

set_option maxHeartbeats 4000000 in
/-- The averaged neighbourhood this stretch forms — the segment sum of the gathered rows times the broadcast
    reciprocal of the clamped in-degree — is the reference's: the same segment sum divided by the broadcast clamped in-degree. -/
theorem readH1_v38 (hf : V (Proc.devRef .tc main_v25) = Cert.ReferenceIdeal.RefRead.val_main_v29 (F := Ideal) x0 x1 x2 x3 x4) (h1 : V (Proc.devRef .tc main_v1) = Cert.ReferenceIdeal.RefRead.val_main_v1 (F := Ideal) x1) (h3 : V (Proc.devRef .tc main_v3) = Cert.ReferenceIdeal.RefRead.val_main_v3 (F := Ideal) x1)
    (h11 : V (Proc.devRef .tc main_v11) = (Host.divf (F := Ideal) (s := S100000) (φ := .f32) (Cert.ReferenceIdeal.RefRead.val_main_v18 (F := Ideal)) (maximumf (F := Ideal) (s := S100000) (φ := .f32) (Cert.ReferenceIdeal.RefRead.val_main_v17 (F := Ideal) x1) (Cert.ReferenceIdeal.RefRead.val_main_v18 (F := Ideal))))) :
    StableHlo.after hostOps1 V (Proc.devRef .tc main_v38) = Cert.ReferenceIdeal.RefRead.val_main_v48 (F := Ideal) x0 x1 x2 x3 x4 := by
  after_results_simp
  rw [hf, h1, h3, h11]
  refine (LibMeanScale.scale_two _ _ _ _ _ _ _ (fun _ => rfl)).trans ?_
  rfl

set_option maxHeartbeats 4000000 in
/-- The averaged neighbourhood this stretch forms — the segment sum of the gathered rows times the broadcast
    reciprocal of the clamped in-degree — is the reference's: the same segment sum divided by the broadcast clamped in-degree. -/
theorem readH2_v52 (hf : V (Proc.devRef .tc main_v39) = Cert.ReferenceIdeal.RefRead.val_main_v55 (F := Ideal) x0 x1 x2 x3 x4 x5 x6 x7) (h1 : V (Proc.devRef .tc main_v1) = Cert.ReferenceIdeal.RefRead.val_main_v1 (F := Ideal) x1) (h3 : V (Proc.devRef .tc main_v3) = Cert.ReferenceIdeal.RefRead.val_main_v3 (F := Ideal) x1)
    (h11 : V (Proc.devRef .tc main_v11) = (Host.divf (F := Ideal) (s := S100000) (φ := .f32) (Cert.ReferenceIdeal.RefRead.val_main_v18 (F := Ideal)) (maximumf (F := Ideal) (s := S100000) (φ := .f32) (Cert.ReferenceIdeal.RefRead.val_main_v17 (F := Ideal) x1) (Cert.ReferenceIdeal.RefRead.val_main_v18 (F := Ideal))))) :
    StableHlo.after hostOps2 V (Proc.devRef .tc main_v52) = Cert.ReferenceIdeal.RefRead.val_main_v74 (F := Ideal) x0 x1 x2 x3 x4 x5 x6 x7 := by
  after_results_simp
  rw [hf, h1, h3, h11]
  refine (LibMeanScale.scale_two _ _ _ _ _ _ _ (fun _ => rfl)).trans ?_
  rfl

set_option maxHeartbeats 4000000 in
/-- The averaged neighbourhood (one feature) this stretch forms — the segment sum of the gathered rows times the broadcast
    reciprocal of the clamped in-degree — is the reference's: the same segment sum divided by the broadcast clamped in-degree. -/
theorem readH3_v66 (hf : V (Proc.devRef .tc main_v53) = Cert.ReferenceIdeal.RefRead.val_main_v80 (F := Ideal) x0 x1 x2 x3 x4 x5 x6 x7 x8 x9 x10) (h1 : V (Proc.devRef .tc main_v1) = Cert.ReferenceIdeal.RefRead.val_main_v1 (F := Ideal) x1) (h3 : V (Proc.devRef .tc main_v3) = Cert.ReferenceIdeal.RefRead.val_main_v3 (F := Ideal) x1)
    (h11 : V (Proc.devRef .tc main_v11) = (Host.divf (F := Ideal) (s := S100000) (φ := .f32) (Cert.ReferenceIdeal.RefRead.val_main_v18 (F := Ideal)) (maximumf (F := Ideal) (s := S100000) (φ := .f32) (Cert.ReferenceIdeal.RefRead.val_main_v17 (F := Ideal) x1) (Cert.ReferenceIdeal.RefRead.val_main_v18 (F := Ideal))))) :
    StableHlo.after hostOps3 V (Proc.devRef .tc main_v66) = Cert.ReferenceIdeal.RefRead.val_main_v99 (F := Ideal) x0 x1 x2 x3 x4 x5 x6 x7 x8 x9 x10 := by
  after_results_simp
  rw [hf, h1, h3, h11]
  refine (LibMeanScale.scale_one _ _ _ _ _ (fun _ => rfl)).trans ?_
  rfl

set_option maxHeartbeats 2000000 in
/-- The second result: the third layer's one-feature array laid out as a vector. -/
theorem readH3_v54 (hf : V (Proc.devRef .tc main_v53) = Cert.ReferenceIdeal.RefRead.val_main_v80 (F := Ideal) x0 x1 x2 x3 x4 x5 x6 x7 x8 x9 x10) : StableHlo.after hostOps3 V (Proc.devRef .tc main_v54) = Cert.ReferenceIdeal.RefRead.val_main_v81 (F := Ideal) x0 x1 x2 x3 x4 x5 x6 x7 x8 x9 x10 := by
  after_results_simp
  rw [hf]
  rfl

end Reads

end Cert.KernelIdeal.Walk

end
-- ==== Proof.SageSpec.lean ====
/-
  One GraphSAGE layer, entry by entry, on the extended reals.

  For a node p and an output feature q the layer's affine part is
      lin p q = Σ_k mean[p,k] · Wl[k,q]  +  Σ_k feat[p,k] · Wr[k,q]  +  b[q],
  where mean is the neighbourhood average of the node features and feat the node's own features. The first two layers
  clip it below at zero, the third leaves it, and the fourth takes the log-softmax of each node's row of eight values:
      logSoftmax r q = (r q − M) − log Σ_l exp (r l − M),   M the maximum of the row (folded from −∞'s word).
  Sums of extended reals are commutative and associative, which is all that a different tiling of the rows uses.
-/
import Idealize.ShloMosaic.Lib.ValueIdx
import Idealize.ShloMosaic.PureOps.Ideal.Laws

noncomputable section

namespace SageSpec

open Idealize.ShloMosaic Idealize.ShloMosaic.ValueIdx

/-- The affine part of a layer at node `p`, output feature `q`. -/
def lin {N K D : ℕ} (mean feat : FVec Ideal ⟨2, ![N, K]⟩ .f32) (Wl Wr : FVec Ideal ⟨2, ![K, D]⟩ .f32)
    (b : FVec Ideal ⟨1, ![D]⟩ .f32) (p : Fin N) (q : Fin D) : EReal :=
  (∑ k : Fin K, mean (ix2 p k) * Wl (ix2 k q) + ∑ k : Fin K, feat (ix2 p k) * Wr (ix2 k q)) + b (ix1 q)

/-- Clipping below at the value of the zero word. -/
def relu (x : EReal) : EReal := max x (Ideal.ofBits .f32 0x00000000#32)

/-- The maximum of a row, folded from the value of −∞'s word. -/
def rowMax {D : ℕ} (r : Fin D → EReal) : EReal :=
  (Finset.univ : Finset (Fin D)).fold max (Ideal.ofBits .f32 0xFF800000#32) r

/-- The log-softmax of a row at position `q`. -/
def logSoftmax {D : ℕ} (r : Fin D → EReal) (q : Fin D) : EReal :=
  (r q - rowMax r) - Ideal.log (∑ l : Fin D, Ideal.exp (r l - rowMax r))

/-- The whole-array forms: a layer's result as one function of its five arrays. -/
def layerRelu {N K D : ℕ} (mean feat : FVec Ideal ⟨2, ![N, K]⟩ .f32) (Wl Wr : FVec Ideal ⟨2, ![K, D]⟩ .f32)
    (b : FVec Ideal ⟨1, ![D]⟩ .f32) : FVec Ideal ⟨2, ![N, D]⟩ .f32 :=
  fun j => relu (lin mean feat Wl Wr b (j 0) (j 1))

def layerLin {N K D : ℕ} (mean feat : FVec Ideal ⟨2, ![N, K]⟩ .f32) (Wl Wr : FVec Ideal ⟨2, ![K, D]⟩ .f32)
    (b : FVec Ideal ⟨1, ![D]⟩ .f32) : FVec Ideal ⟨2, ![N, D]⟩ .f32 :=
  fun j => lin mean feat Wl Wr b (j 0) (j 1)

def layerLogSoftmax {N K D : ℕ} (mean feat : FVec Ideal ⟨2, ![N, K]⟩ .f32) (Wl Wr : FVec Ideal ⟨2, ![K, D]⟩ .f32)
    (b : FVec Ideal ⟨1, ![D]⟩ .f32) : FVec Ideal ⟨2, ![N, D]⟩ .f32 :=
  fun j => logSoftmax (fun l => lin mean feat Wl Wr b (j 0) l) (j 1)

/-- The whole-array forms at an entry (p, q). -/
theorem layerRelu_apply {N K D : ℕ} (mean feat : FVec Ideal ⟨2, ![N, K]⟩ .f32) (Wl Wr : FVec Ideal ⟨2, ![K, D]⟩ .f32)
    (b : FVec Ideal ⟨1, ![D]⟩ .f32) (p : Fin N) (q : Fin D) :
    layerRelu mean feat Wl Wr b (ix2 p q) = relu (lin mean feat Wl Wr b p q) := rfl

theorem layerLin_apply {N K D : ℕ} (mean feat : FVec Ideal ⟨2, ![N, K]⟩ .f32) (Wl Wr : FVec Ideal ⟨2, ![K, D]⟩ .f32)
    (b : FVec Ideal ⟨1, ![D]⟩ .f32) (p : Fin N) (q : Fin D) :
    layerLin mean feat Wl Wr b (ix2 p q) = lin mean feat Wl Wr b p q := rfl

theorem layerLogSoftmax_apply {N K D : ℕ} (mean feat : FVec Ideal ⟨2, ![N, K]⟩ .f32) (Wl Wr : FVec Ideal ⟨2, ![K, D]⟩ .f32)
    (b : FVec Ideal ⟨1, ![D]⟩ .f32) (p : Fin N) (q : Fin D) :
    layerLogSoftmax mean feat Wl Wr b (ix2 p q)
      = (lin mean feat Wl Wr b p q - rowMax (fun l => lin mean feat Wl Wr b p l))
        - Ideal.log (∑ l : Fin D, Ideal.exp (lin mean feat Wl Wr b p l - rowMax (fun l' => lin mean feat Wl Wr b p l'))) := rfl

end SageSpec

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.KernelBody0.lean ====
/-
  The first layer's block of 4000 nodes, entry by entry.

  The body rounds its four matrix operands to bf16 (the identity on exact values), forms the two products
  mean·Wl and feat·Wr into zero accumulators, adds them, adds the bias row broadcast down the 4000 rows and clips
  below at zero. At entry (p, q) that is relu (Σ_k mean[p,k]·Wl[k,q] + Σ_k feat[p,k]·Wr[k,q] + b[q]).
-/
import proofs.«169581_j36447092474036_1_alg».proof.Proof.Gen.KernelIdeal.Skeleton
import proofs.«169581_j36447092474036_1_alg».proof.Proof.SageSpec
import proofs.«169581_j36447092474036_1_alg».proof.Proof.LibMatmulIdx
import proofs.«169581_j36447092474036_1_alg».proof.Proof.LibRowOps
import Idealize.ShloMosaic.Lib.ValueIdx
import Idealize.ShloMosaic.Lib.Pipeline.Value
import Idealize.ShloMosaic.PureOps.Ideal.Laws

noncomputable section

namespace Cert.KernelIdeal.Body0

open Cert.KernelIdeal Cert.KernelIdeal.Gen Idealize.ShloMosaic Idealize.ShloMosaic.ValueIdx

/-! ### The contraction record of the [4000,64]·[64,128] product: which operand coordinate each result and contracted coordinate is -/

theorem mm_l0 (i : S4000x128.Idx) (q : dot_S4000x64_S64x128_S4000x128_1_0_0_1_n_n.contr.Idx) : (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem mm_l1 (i : S4000x128.Idx) (q : dot_S4000x64_S64x128_S4000x128_1_0_0_1_n_n.contr.Idx) : (dot_S4000x64_S64x128_S4000x128_1_0_0_1_n_n.lhsIdx i q 1).val = (q ⟨0, by decide⟩).val :=
  dot_S4000x64_S64x128_S4000x128_1_0_0_1_n_n.lhsIdx_val_of_single rfl i q
theorem mm_r0 (i : S4000x128.Idx) (q : dot_S4000x64_S64x128_S4000x128_1_0_0_1_n_n.contr.Idx) : (dot_S4000x64_S64x128_S4000x128_1_0_0_1_n_n.rhsIdx i q 0).val = (q ⟨0, by decide⟩).val :=
  dot_S4000x64_S64x128_S4000x128_1_0_0_1_n_n.rhsIdx_val_of_single rfl i q
theorem mm_r1 (i : S4000x128.Idx) (q : dot_S4000x64_S64x128_S4000x128_1_0_0_1_n_n.contr.Idx) : (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The product into the zero accumulator at entry (p, q): Σ_k l[p,k] · r[k,q]. -/
theorem mm_apply {φ₁ φ₂ : FTy} (l : FVec Ideal S4000x64 φ₁) (r : FVec Ideal S64x128 φ₂) (p : Fin 4000) (q : Fin 128) :
    matmul dot_S4000x64_S64x128_S4000x128_1_0_0_1_n_n none l r (constant S4000x128 .f32 0x00000000#32) (ix2 p q) = ∑ k : Fin 64, l (ix2 p k) * r (ix2 k q) :=
  LibMatmulIdx.matmul2_apply (M := 4000) (K := 64) (N := 128) dot_S4000x64_S64x128_S4000x128_1_0_0_1_n_n rfl rfl mm_l0 mm_l1 mm_r0 mm_r1 none l r (ix2 p q)

/-- The block's stored value at (p, q) is the clipped affine form of the block's rows. -/
theorem pay_apply (x0 x1 : Vec Ideal S4000x64 .f32) (x2 x3 : Vec Ideal S64x128 .f32) (x4 : Vec Ideal S128 .f32)
    (p : Fin 4000) (q : Fin 128) :
    k0_pay1 (F := Ideal) x0 x1 x2 x3 x4 (ix2 p q) = SageSpec.relu (SageSpec.lin (N := 4000) (K := 64) (D := 128) x0 x1 x2 x3 x4 p q) := by
  unfold k0_pay1 SageSpec.relu SageSpec.lin
  rw [maximumf_apply, addf_apply, addf_apply, broadcast_apply, mm_apply, mm_apply,
    LibRowOps.broadcastTo_row_apply, LibRowOps.shapeCast_row_apply, shapeCast_self]
  rfl

end Cert.KernelIdeal.Body0

end
-- ==== Proof.Region0.lean ====
/-
  The first layer's region, from blocks to the array.

  The region runs over 25 points; point t loads rows 4000·t … 4000·t + 3999 of the averaged-neighbour array and of the
  node features, the two weight matrices and the bias whole, and writes back the same rows of the output. Entry (p, q)
  of what it writes is the clipped affine form of node 4000·t + p, so the write-backs are the blocks of ONE function of
  the five arrays; the 25 blocks cover all 100000 rows, so after the region the output array IS that function.
-/
import proofs.«169581_j36447092474036_1_alg».proof.Proof.Gen.KernelIdeal.Frame
import proofs.«169581_j36447092474036_1_alg».proof.Proof.KernelBody0
import proofs.«169581_j36447092474036_1_alg».proof.Proof.SageSpec
import Idealize.ShloMosaic.Lib.Pipeline.Value
import Idealize.ShloMosaic.Lib.ValueIdx

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided once over the 25 grid points: the two row-tiled inputs and the output sit at
    block row `t`, column block 0; the two weight matrices and the bias are whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem N_eq : cfg0.N = 25 := by decide

/-- The node that row `p` of block `t` is. -/
def row (t : Fin cfg0.N) (p : Fin 4000) : Fin 100000 :=
  ⟨t.val * 4000 + p.val, by have h : t.val < 25 := Nat.lt_of_lt_of_eq t.isLt N_eq; have := p.isLt; omega⟩

/-! ## Each window's block at a point, read where it sits in its array -/

theorem blk0 (c : Dev nD) (t : Fin cfg0.N) (p : Fin 4000) (k : Fin 64) :
    iblk0 V c 0 t (ix2 p k) = V c main_v24 (ix2 (row t p) k) := by
  show V c main_v24 (((cfg0.win 0).blk t).view.emb (ix2 p k)) = _
  refine congrArg (V c main_v24) ?_
  obtain ⟨e0, e1, -⟩ := idx_facts t
  funext a; apply Fin.ext
  match a with
  | ⟨0, _⟩ => show win0_0.index t (0 : Fin 2) * 4000 + 1 * p.val = t.val * 4000 + p.val; omega
  | ⟨1, _⟩ => show win0_0.index t (1 : Fin 2) * 64 + 1 * k.val = k.val; omega

theorem blk1 (c : Dev nD) (t : Fin cfg0.N) (p : Fin 4000) (k : Fin 64) :
    iblk0 V c 1 t (ix2 p k) = V c main_arg0 (ix2 (row t p) k) := by
  show V c main_arg0 (((cfg0.win 1).blk t).view.emb (ix2 p k)) = _
  refine congrArg (V c main_arg0) ?_
  obtain ⟨-, -, e0, e1, -⟩ := idx_facts t
  funext a; apply Fin.ext
  match a with
  | ⟨0, _⟩ => show win0_1.index t (0 : Fin 2) * 4000 + 1 * p.val = t.val * 4000 + p.val; omega
  | ⟨1, _⟩ => show win0_1.index t (1 : Fin 2) * 64 + 1 * k.val = k.val; omega

theorem blk2 (c : Dev nD) (t : Fin cfg0.N) (k : Fin 64) (q : Fin 128) :
    iblk0 V c 2 t (ix2 k q) = V c main_arg2 (ix2 k q) := by
  show V c main_arg2 (((cfg0.win 2).blk t).view.emb (ix2 k q)) = _
  refine congrArg (V c main_arg2) ?_
  obtain ⟨-, -, -, -, e0, e1, -⟩ := idx_facts t
  funext a; apply Fin.ext
  match a with
  | ⟨0, _⟩ => show win0_2.index t (0 : Fin 2) * 64 + 1 * k.val = k.val; omega
  | ⟨1, _⟩ => show win0_2.index t (1 : Fin 2) * 128 + 1 * q.val = q.val; omega

theorem blk3 (c : Dev nD) (t : Fin cfg0.N) (k : Fin 64) (q : Fin 128) :
    iblk0 V c 3 t (ix2 k q) = V c main_arg3 (ix2 k q) := by
  show V c main_arg3 (((cfg0.win 3).blk t).view.emb (ix2 k q)) = _
  refine congrArg (V c main_arg3) ?_
  obtain ⟨-, -, -, -, -, -, e0, e1, -⟩ := idx_facts t
  funext a; apply Fin.ext
  match a with
  | ⟨0, _⟩ => show win0_3.index t (0 : Fin 2) * 64 + 1 * k.val = k.val; omega
  | ⟨1, _⟩ => show win0_3.index t (1 : Fin 2) * 128 + 1 * q.val = q.val; omega

theorem blk4 (c : Dev nD) (t : Fin cfg0.N) (q : Fin 128) :
    iblk0 V c 4 t (ix1 q) = V c main_arg4 (ix1 q) := by
  show V c main_arg4 (((cfg0.win 4).blk t).view.emb (ix1 q)) = _
  refine congrArg (V c main_arg4) ?_
  obtain ⟨-, -, -, -, -, -, -, -, e0, -⟩ := idx_facts t
  funext a; apply Fin.ext
  match a with
  | ⟨0, _⟩ => show win0_4.index t (0 : Fin 1) * 128 + 1 * q.val = q.val; omega

/-- Where entry (p, q) of the output block at point `t` sits in the output array. -/
theorem emb5 (t : Fin cfg0.N) (p : Fin 4000) (q : Fin 128) :
    ((cfg0.win 5).blk t).view.emb (ix2 p q) = ix2 (row t p) q := by
  obtain ⟨-, -, -, -, -, -, -, -, -, e0, e1⟩ := idx_facts t
  funext a; apply Fin.ext
  match a with
  | ⟨0, _⟩ => show win0_5.index t (0 : Fin 2) * 4000 + 1 * p.val = t.val * 4000 + p.val; omega
  | ⟨1, _⟩ => show win0_5.index t (1 : Fin 2) * 128 + 1 * q.val = q.val; omega

/-! ## What a point writes back, the cover, and the array after the region -/

/-- The layer as one function of the five arrays the region finds. -/
abbrev G (c : Dev nD) : FVec Ideal ⟨2, ![100000, 128]⟩ .f32 :=
  SageSpec.layerRelu (N := 100000) (K := 64) (D := 128) (V c main_v24) (V c main_arg0) (V c main_arg2) (V c main_arg3) (V c main_arg4)

/-- What point `t` writes back is block `t` of the layer's whole-array function: its rows are nodes 4000·t … 4000·t + 3999,
    and each entry's two sums run over the same features of the same node. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S4000x64) hz2, View.ld_unit_zero (S := S64x128) hz2, View.ld_unit_zero (S := S128) hz1]
  funext y
  obtain ⟨p, q, rfl⟩ : ∃ (p : Fin 4000) (q : Fin 128), y = ix2 p q := ⟨y 0, y 1, eq_ix2 y⟩
  show k0_pay1 (iblk0 V c 0 t) (iblk0 V c 1 t) (iblk0 V c 2 t) (iblk0 V c 3 t) (iblk0 V c 4 t) (ix2 p q)
    = G V c (((cfg0.win 5).blk t).view.emb (ix2 p q))
  rw [emb5 t p q]
  refine (Body0.pay_apply (iblk0 V c 0 t) (iblk0 V c 1 t) (iblk0 V c 2 t) (iblk0 V c 3 t) (iblk0 V c 4 t) p q).trans ?_
  show _ = SageSpec.relu (SageSpec.lin (N := 100000) (K := 64) (D := 128) (V c main_v24) (V c main_arg0) (V c main_arg2) (V c main_arg3) (V c main_arg4) (row t p) q)
  unfold SageSpec.lin
  simp only [blk0 V c t, blk1 V c t, blk2 V c t, blk3 V c t, blk4 V c t]

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v25).slice (win0_5.rect t)).set ↔ _
  rw [View.set_slice_whole, Rect.mem_set_unit]
  exact Iff.rfl

/-- Every node's row is in some point's block: node n is in block n / 4000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 4000 < cfg0.N := by rw [N_eq]; omega
  refine ⟨⟨(i 0).val / 4000, ht⟩, flush0_5 _, ?_⟩
  rw [mem_blk]
  obtain ⟨-, -, -, -, -, -, -, -, -, e0, e1⟩ := idx_facts ⟨(i 0).val / 4000, ht⟩
  intro a
  match a with
  | ⟨0, _⟩ =>
    show win0_5.index ⟨(i 0).val / 4000, ht⟩ (0 : Fin 2) * 4000 ≤ (i 0).val ∧ (i 0).val < win0_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_5.index ⟨(i 0).val / 4000, ht⟩ (1 : Fin 2) * 128 ≤ (i 1).val ∧ (i 1).val < win0_5.index ⟨(i 0).val / 4000, ht⟩ (1 : Fin 2) * 128 + 128
    rw [e1]; omega

/-- THE ARRAY after the region: the layer's whole-array function of the five arrays the region finds. -/
theorem final (c : Dev nD) : (dat0 V c).arrAt 5 cfg0.N = G V c :=
  (dat0 V c).arrAt_eq_of_cover 5 (G V c) (fun t _ => flushed_eq V c t) cover

end Cert.KernelIdeal.Region0

end
-- ==== Proof.KernelBody1.lean ====
/-
  The second layer's block of 4000 nodes, entry by entry.

  The body rounds its four matrix operands to bf16 (the identity on exact values), forms the two products
  mean·Wl and feat·Wr into zero accumulators, adds them, adds the bias row broadcast down the 4000 rows and clips
  below at zero. At entry (p, q) that is relu (Σ_k mean[p,k]·Wl[k,q] + Σ_k feat[p,k]·Wr[k,q] + b[q]), k over 128.
-/
import proofs.«169581_j36447092474036_1_alg».proof.Proof.Gen.KernelIdeal.Skeleton
import proofs.«169581_j36447092474036_1_alg».proof.Proof.SageSpec
import proofs.«169581_j36447092474036_1_alg».proof.Proof.LibMatmulIdx
import proofs.«169581_j36447092474036_1_alg».proof.Proof.LibRowOps
import Idealize.ShloMosaic.Lib.ValueIdx
import Idealize.ShloMosaic.Lib.Pipeline.Value
import Idealize.ShloMosaic.PureOps.Ideal.Laws

noncomputable section

namespace Cert.KernelIdeal.Body1

open Cert.KernelIdeal Cert.KernelIdeal.Gen Idealize.ShloMosaic Idealize.ShloMosaic.ValueIdx

/-! ### The contraction record of the [4000,128]·[128,128] product: which operand coordinate each result and contracted coordinate is -/

theorem mm_l0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem mm_l1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem mm_r0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem mm_r1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product into the zero accumulator at entry (p, q): Σ_k l[p,k] · r[k,q]. -/
theorem mm_apply {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q) = ∑ k : Fin 128, l (ix2 p k) * r (ix2 k q) :=
  LibMatmulIdx.matmul2_apply (M := 4000) (K := 128) (N := 128) dot_S4000x128_S128x128_S4000x128_1_0_0_1_n_n rfl rfl mm_l0 mm_l1 mm_r0 mm_r1 none l r (ix2 p q)

/-- The block's stored value at (p, q) is the clipped affine form of the block's rows. -/
theorem pay_apply (x0 x1 : Vec Ideal S4000x128 .f32) (x2 x3 : Vec Ideal S128x128 .f32) (x4 : Vec Ideal S128 .f32)
    (p : Fin 4000) (q : Fin 128) :
    k1_pay1 (F := Ideal) x0 x1 x2 x3 x4 (ix2 p q) = SageSpec.relu (SageSpec.lin (N := 4000) (K := 128) (D := 128) x0 x1 x2 x3 x4 p q) := by
  unfold k1_pay1 SageSpec.relu SageSpec.lin
  rw [maximumf_apply, addf_apply, addf_apply, broadcast_apply, mm_apply, mm_apply,
    LibRowOps.broadcastTo_row_apply, LibRowOps.shapeCast_row_apply]
  simp only [shapeCast_self]
  rfl

end Cert.KernelIdeal.Body1

end
-- ==== Proof.Region1.lean ====
/-
  The second layer's region, from blocks to the array.

  The region runs over 25 points; point t loads rows 4000·t … 4000·t + 3999 of the averaged-neighbour array and of the
  previous layer's node features, the two weight matrices and the bias whole, and writes back the same rows of the
  output. Entry (p, q) of what it writes is the clipped affine form of node 4000·t + p. So the write-backs are the blocks of ONE function of the five arrays; the 25 blocks cover all 100000
  rows, so after the region the output array IS that function.
-/
import proofs.«169581_j36447092474036_1_alg».proof.Proof.Gen.KernelIdeal.Frame
import proofs.«169581_j36447092474036_1_alg».proof.Proof.KernelBody1
import proofs.«169581_j36447092474036_1_alg».proof.Proof.SageSpec
import Idealize.ShloMosaic.Lib.Pipeline.Value
import Idealize.ShloMosaic.Lib.ValueIdx

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided once over the 25 grid points: the two row-tiled inputs and the output sit at
    block row `t`, column block 0; the two weight matrices and the bias are whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem N_eq : cfg1.N = 25 := by decide

/-- The node that row `p` of block `t` is. -/
def row (t : Fin cfg1.N) (p : Fin 4000) : Fin 100000 :=
  ⟨t.val * 4000 + p.val, by have h : t.val < 25 := Nat.lt_of_lt_of_eq t.isLt N_eq; have := p.isLt; omega⟩

/-! ## Each window's block at a point, read where it sits in its array -/

theorem blk0 (c : Dev nD) (t : Fin cfg1.N) (p : Fin 4000) (k : Fin 128) :
    iblk1 V c 0 t (ix2 p k) = V c main_v38 (ix2 (row t p) k) := by
  show V c main_v38 (((cfg1.win 0).blk t).view.emb (ix2 p k)) = _
  refine congrArg (V c main_v38) ?_
  obtain ⟨e0, e1, -⟩ := idx_facts t
  funext a; apply Fin.ext
  match a with
  | ⟨0, _⟩ => show win1_0.index t (0 : Fin 2) * 4000 + 1 * p.val = t.val * 4000 + p.val; omega
  | ⟨1, _⟩ => show win1_0.index t (1 : Fin 2) * 128 + 1 * k.val = k.val; omega

theorem blk1 (c : Dev nD) (t : Fin cfg1.N) (p : Fin 4000) (k : Fin 128) :
    iblk1 V c 1 t (ix2 p k) = V c main_v25 (ix2 (row t p) k) := by
  show V c main_v25 (((cfg1.win 1).blk t).view.emb (ix2 p k)) = _
  refine congrArg (V c main_v25) ?_
  obtain ⟨-, -, e0, e1, -⟩ := idx_facts t
  funext a; apply Fin.ext
  match a with
  | ⟨0, _⟩ => show win1_1.index t (0 : Fin 2) * 4000 + 1 * p.val = t.val * 4000 + p.val; omega
  | ⟨1, _⟩ => show win1_1.index t (1 : Fin 2) * 128 + 1 * k.val = k.val; omega

theorem blk2 (c : Dev nD) (t : Fin cfg1.N) (k : Fin 128) (q : Fin 128) :
    iblk1 V c 2 t (ix2 k q) = V c main_arg5 (ix2 k q) := by
  show V c main_arg5 (((cfg1.win 2).blk t).view.emb (ix2 k q)) = _
  refine congrArg (V c main_arg5) ?_
  obtain ⟨-, -, -, -, e0, e1, -⟩ := idx_facts t
  funext a; apply Fin.ext
  match a with
  | ⟨0, _⟩ => show win1_2.index t (0 : Fin 2) * 128 + 1 * k.val = k.val; omega
  | ⟨1, _⟩ => show win1_2.index t (1 : Fin 2) * 128 + 1 * q.val = q.val; omega

theorem blk3 (c : Dev nD) (t : Fin cfg1.N) (k : Fin 128) (q : Fin 128) :
    iblk1 V c 3 t (ix2 k q) = V c main_arg6 (ix2 k q) := by
  show V c main_arg6 (((cfg1.win 3).blk t).view.emb (ix2 k q)) = _
  refine congrArg (V c main_arg6) ?_
  obtain ⟨-, -, -, -, -, -, e0, e1, -⟩ := idx_facts t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

theorem blk4 (c : Dev nD) (t : Fin cfg1.N) (q : Fin 128) :
    iblk1 V c 4 t (ix1 q) = V c main_arg7 (ix1 q) := by
  show V c main_arg7 (((cfg1.win 4).blk t).view.emb (ix1 q)) = _
  refine congrArg (V c main_arg7) ?_
  obtain ⟨-, -, -, -, -, -, -, -, e0, -⟩ := idx_facts t
  funext a; apply Fin.ext
  match a with
  | ⟨0, _⟩ => show win1_4.index t (0 : Fin 1) * 128 + 1 * q.val = q.val; omega

/-- Where entry (p, q) of the output block at point `t` sits in the output array. -/
theorem emb5 (t : Fin cfg1.N) (p : Fin 4000) (q : Fin 128) :
    ((cfg1.win 5).blk t).view.emb (ix2 p q) = ix2 (row t p) q := by
  obtain ⟨-, -, -, -, -, -, -, -, -, e0, e1⟩ := idx_facts t
  funext a; apply Fin.ext
  match a with
  | ⟨0, _⟩ => show win1_5.index t (0 : Fin 2) * 4000 + 1 * p.val = t.val * 4000 + p.val; omega
  | ⟨1, _⟩ => show win1_5.index t (1 : Fin 2) * 128 + 1 * q.val = q.val; omega

/-! ## What a point writes back, the cover, and the array after the region -/

/-- The layer as one function of the five arrays the region finds. -/
abbrev G (c : Dev nD) : FVec Ideal ⟨2, ![100000, 128]⟩ .f32 :=
  SageSpec.layerRelu (N := 100000) (K := 128) (D := 128) (V c main_v38) (V c main_v25) (V c main_arg5) (V c main_arg6) (V c main_arg7)

/-- What point `t` writes back is block `t` of the layer's whole-array function: its rows are nodes 4000·t … 4000·t + 3999,
    and each entry's two sums run over the same features of the same node. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S4000x128) hz2, View.ld_unit_zero (S := S128x128) hz2, View.ld_unit_zero (S := S128) hz1]
  funext y
  obtain ⟨p, q, rfl⟩ : ∃ (p : Fin 4000) (q : Fin 128), y = ix2 p q := ⟨y 0, y 1, eq_ix2 y⟩
  show k1_pay1 (iblk1 V c 0 t) (iblk1 V c 1 t) (iblk1 V c 2 t) (iblk1 V c 3 t) (iblk1 V c 4 t) (ix2 p q)
    = G V c (((cfg1.win 5).blk t).view.emb (ix2 p q))
  rw [emb5 t p q]
  refine (Body1.pay_apply (iblk1 V c 0 t) (iblk1 V c 1 t) (iblk1 V c 2 t) (iblk1 V c 3 t) (iblk1 V c 4 t) p q).trans ?_
  show _ = SageSpec.relu (SageSpec.lin (N := 100000) (K := 128) (D := 128) (V c main_v38) (V c main_v25) (V c main_arg5) (V c main_arg6) (V c main_arg7) (row t p) q)
  unfold SageSpec.lin
  simp only [blk0 V c t, blk1 V c t, blk2 V c t, blk3 V c t, blk4 V c t]

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v39).slice (win1_5.rect t)).set ↔ _
  rw [View.set_slice_whole, Rect.mem_set_unit]
  exact Iff.rfl

/-- Every node's row is in some point's block: node n is in block n / 4000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 4000 < cfg1.N := by rw [N_eq]; omega
  refine ⟨⟨(i 0).val / 4000, ht⟩, flush1_5 _, ?_⟩
  rw [mem_blk]
  obtain ⟨-, -, -, -, -, -, -, -, -, e0, e1⟩ := idx_facts ⟨(i 0).val / 4000, ht⟩
  intro a
  match a with
  | ⟨0, _⟩ =>
    show win1_5.index ⟨(i 0).val / 4000, ht⟩ (0 : Fin 2) * 4000 ≤ (i 0).val ∧ (i 0).val < win1_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_5.index ⟨(i 0).val / 4000, ht⟩ (1 : Fin 2) * 128 ≤ (i 1).val ∧ (i 1).val < win1_5.index ⟨(i 0).val / 4000, ht⟩ (1 : Fin 2) * 128 + 128
    rw [e1]; omega

/-- THE ARRAY after the region: the layer's whole-array function of the five arrays the region finds. -/
theorem final (c : Dev nD) : (dat1 V c).arrAt 5 cfg1.N = G V c :=
  (dat1 V c).arrAt_eq_of_cover 5 (G V c) (fun t _ => flushed_eq V c t) cover

end Cert.KernelIdeal.Region1

end
-- ==== Proof.KernelBody2.lean ====
/-
  The third layer's block of 4000 nodes, entry by entry.

  The body rounds its four matrix operands to bf16 (the identity on exact values), forms the two products
  mean·Wl and feat·Wr (128 features into one) into zero accumulators, adds them and adds the one bias value
  broadcast down the 4000 rows. At entry (p, q) that is Σ_k mean[p,k]·Wl[k,q] + Σ_k feat[p,k]·Wr[k,q] + b[q].
-/
import proofs.«169581_j36447092474036_1_alg».proof.Proof.Gen.KernelIdeal.Skeleton
import proofs.«169581_j36447092474036_1_alg».proof.Proof.SageSpec
import proofs.«169581_j36447092474036_1_alg».proof.Proof.LibMatmulIdx
import proofs.«169581_j36447092474036_1_alg».proof.Proof.LibRowOps
import Idealize.ShloMosaic.Lib.ValueIdx
import Idealize.ShloMosaic.Lib.Pipeline.Value
import Idealize.ShloMosaic.PureOps.Ideal.Laws

noncomputable section

namespace Cert.KernelIdeal.Body2

open Cert.KernelIdeal Cert.KernelIdeal.Gen Idealize.ShloMosaic Idealize.ShloMosaic.ValueIdx

/-! ### The contraction record of the [4000,128]·[128,1] product: which operand coordinate each result and contracted coordinate is -/

theorem mm_l0 (i : S4000x1.Idx) (q : dot_S4000x128_S128x1_S4000x1_1_0_0_1_n_n.contr.Idx) : (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem mm_l1 (i : S4000x1.Idx) (q : dot_S4000x128_S128x1_S4000x1_1_0_0_1_n_n.contr.Idx) : (dot_S4000x128_S128x1_S4000x1_1_0_0_1_n_n.lhsIdx i q 1).val = (q ⟨0, by decide⟩).val :=
  dot_S4000x128_S128x1_S4000x1_1_0_0_1_n_n.lhsIdx_val_of_single rfl i q
theorem mm_r0 (i : S4000x1.Idx) (q : dot_S4000x128_S128x1_S4000x1_1_0_0_1_n_n.contr.Idx) : (dot_S4000x128_S128x1_S4000x1_1_0_0_1_n_n.rhsIdx i q 0).val = (q ⟨0, by decide⟩).val :=
  dot_S4000x128_S128x1_S4000x1_1_0_0_1_n_n.rhsIdx_val_of_single rfl i q
theorem mm_r1 (i : S4000x1.Idx) (q : dot_S4000x128_S128x1_S4000x1_1_0_0_1_n_n.contr.Idx) : (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- The product into the zero accumulator at entry (p, q): Σ_k l[p,k] · r[k,q]. -/
theorem mm_apply {φ₁ φ₂ : FTy} (l : FVec Ideal S4000x128 φ₁) (r : FVec Ideal S128x1 φ₂) (p : Fin 4000) (q : Fin 1) :
    matmul dot_S4000x128_S128x1_S4000x1_1_0_0_1_n_n none l r (constant S4000x1 .f32 0x00000000#32) (ix2 p q) = ∑ k : Fin 128, l (ix2 p k) * r (ix2 k q) :=
  LibMatmulIdx.matmul2_apply (M := 4000) (K := 128) (N := 1) dot_S4000x128_S128x1_S4000x1_1_0_0_1_n_n rfl rfl mm_l0 mm_l1 mm_r0 mm_r1 none l r (ix2 p q)

/-- The block's stored value at (p, q) is the affine form of the block's rows. -/
theorem pay_apply (x0 x1 : Vec Ideal S4000x128 .f32) (x2 x3 : Vec Ideal S128x1 .f32) (x4 : Vec Ideal S1 .f32)
    (p : Fin 4000) (q : Fin 1) :
    k2_pay1 (F := Ideal) x0 x1 x2 x3 x4 (ix2 p q) = SageSpec.lin (N := 4000) (K := 128) (D := 1) x0 x1 x2 x3 x4 p q := by
  unfold k2_pay1 SageSpec.lin
  rw [addf_apply, addf_apply, mm_apply, mm_apply,
    LibRowOps.broadcastTo_row_apply, LibRowOps.shapeCast_row_apply]
  simp only [shapeCast_self]
  rfl

end Cert.KernelIdeal.Body2

end
-- ==== Proof.Region2.lean ====
/-
  The third layer's region, from blocks to the array.

  The region runs over 25 points; point t loads rows 4000·t … 4000·t + 3999 of the averaged-neighbour array and of the
  previous layer's node features, the two weight matrices and the bias whole, and writes back the same rows of the
  output. Entry (p, q) of what it writes is the affine form of node 4000·t + p (one output feature). So the write-backs are the blocks of ONE function of the five arrays; the 25 blocks cover all 100000
  rows, so after the region the output array IS that function.
-/
import proofs.«169581_j36447092474036_1_alg».proof.Proof.Gen.KernelIdeal.Frame
import proofs.«169581_j36447092474036_1_alg».proof.Proof.KernelBody2
import proofs.«169581_j36447092474036_1_alg».proof.Proof.SageSpec
import Idealize.ShloMosaic.Lib.Pipeline.Value
import Idealize.ShloMosaic.Lib.ValueIdx

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided once over the 25 grid points: the two row-tiled inputs and the output sit at
    block row `t`, column block 0; the two weight matrices and the bias are whole. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

theorem N_eq : cfg2.N = 25 := by decide

/-- The node that row `p` of block `t` is. -/
def row (t : Fin cfg2.N) (p : Fin 4000) : Fin 100000 :=
  ⟨t.val * 4000 + p.val, by have h : t.val < 25 := Nat.lt_of_lt_of_eq t.isLt N_eq; have := p.isLt; omega⟩

/-! ## Each window's block at a point, read where it sits in its array -/

theorem blk0 (c : Dev nD) (t : Fin cfg2.N) (p : Fin 4000) (k : Fin 128) :
    iblk2 V c 0 t (ix2 p k) = V c main_v52 (ix2 (row t p) k) := by
  show V c main_v52 (((cfg2.win 0).blk t).view.emb (ix2 p k)) = _
  refine congrArg (V c main_v52) ?_
  obtain ⟨e0, e1, -⟩ := idx_facts t
  funext a; apply Fin.ext
  match a with
  | ⟨0, _⟩ => show win2_0.index t (0 : Fin 2) * 4000 + 1 * p.val = t.val * 4000 + p.val; omega
  | ⟨1, _⟩ => show win2_0.index t (1 : Fin 2) * 128 + 1 * k.val = k.val; omega

theorem blk1 (c : Dev nD) (t : Fin cfg2.N) (p : Fin 4000) (k : Fin 128) :
    iblk2 V c 1 t (ix2 p k) = V c main_v39 (ix2 (row t p) k) := by
  show V c main_v39 (((cfg2.win 1).blk t).view.emb (ix2 p k)) = _
  refine congrArg (V c main_v39) ?_
  obtain ⟨-, -, e0, e1, -⟩ := idx_facts t
  funext a; apply Fin.ext
  match a with
  | ⟨0, _⟩ => show win2_1.index t (0 : Fin 2) * 4000 + 1 * p.val = t.val * 4000 + p.val; omega
  | ⟨1, _⟩ => show win2_1.index t (1 : Fin 2) * 128 + 1 * k.val = k.val; omega

theorem blk2 (c : Dev nD) (t : Fin cfg2.N) (k : Fin 128) (q : Fin 1) :
    iblk2 V c 2 t (ix2 k q) = V c main_arg8 (ix2 k q) := by
  show V c main_arg8 (((cfg2.win 2).blk t).view.emb (ix2 k q)) = _
  refine congrArg (V c main_arg8) ?_
  obtain ⟨-, -, -, -, e0, e1, -⟩ := idx_facts t
  funext a; apply Fin.ext
  match a with
  | ⟨0, _⟩ => show win2_2.index t (0 : Fin 2) * 128 + 1 * k.val = k.val; omega
  | ⟨1, _⟩ => show win2_2.index t (1 : Fin 2) * 1 + 1 * q.val = q.val; omega

theorem blk3 (c : Dev nD) (t : Fin cfg2.N) (k : Fin 128) (q : Fin 1) :
    iblk2 V c 3 t (ix2 k q) = V c main_arg9 (ix2 k q) := by
  show V c main_arg9 (((cfg2.win 3).blk t).view.emb (ix2 k q)) = _
  refine congrArg (V c main_arg9) ?_
  obtain ⟨-, -, -, -, -, -, e0, e1, -⟩ := idx_facts t
  funext a; apply Fin.ext
  match a with
  | ⟨0, _⟩ => show win2_3.index t (0 : Fin 2) * 128 + 1 * k.val = k.val; omega
  | ⟨1, _⟩ => show win2_3.index t (1 : Fin 2) * 1 + 1 * q.val = q.val; omega

theorem blk4 (c : Dev nD) (t : Fin cfg2.N) (q : Fin 1) :
    iblk2 V c 4 t (ix1 q) = V c main_arg10 (ix1 q) := by
  show V c main_arg10 (((cfg2.win 4).blk t).view.emb (ix1 q)) = _
  refine congrArg (V c main_arg10) ?_
  obtain ⟨-, -, -, -, -, -, -, -, e0, -⟩ := idx_facts t
  funext a; apply Fin.ext
  match a with
  | ⟨0, _⟩ => show win2_4.index t (0 : Fin 1) * 1 + 1 * q.val = q.val; omega

/-- Where entry (p, q) of the output block at point `t` sits in the output array. -/
theorem emb5 (t : Fin cfg2.N) (p : Fin 4000) (q : Fin 1) :
    ((cfg2.win 5).blk t).view.emb (ix2 p q) = ix2 (row t p) q := by
  obtain ⟨-, -, -, -, -, -, -, -, -, e0, e1⟩ := idx_facts t
  funext a; apply Fin.ext
  match a with
  | ⟨0, _⟩ => show win2_5.index t (0 : Fin 2) * 4000 + 1 * p.val = t.val * 4000 + p.val; omega
  | ⟨1, _⟩ => show win2_5.index t (1 : Fin 2) * 1 + 1 * q.val = q.val; omega

/-! ## What a point writes back, the cover, and the array after the region -/

/-- The layer as one function of the five arrays the region finds. -/
abbrev G (c : Dev nD) : FVec Ideal ⟨2, ![100000, 1]⟩ .f32 :=
  SageSpec.layerLin (N := 100000) (K := 128) (D := 1) (V c main_v52) (V c main_v39) (V c main_arg8) (V c main_arg9) (V c main_arg10)

/-- What point `t` writes back is block `t` of the layer's whole-array function: its rows are nodes 4000·t … 4000·t + 3999,
    and each entry's two sums run over the same features of the same node. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz2]
  simp only [View.ld_unit_zero (S := S4000x128) hz2, View.ld_unit_zero (S := S128x1) hz2, View.ld_unit_zero (S := S1) hz1]
  funext y
  obtain ⟨p, q, rfl⟩ : ∃ (p : Fin 4000) (q : Fin 1), y = ix2 p q := ⟨y 0, y 1, eq_ix2 y⟩
  show k2_pay1 (iblk2 V c 0 t) (iblk2 V c 1 t) (iblk2 V c 2 t) (iblk2 V c 3 t) (iblk2 V c 4 t) (ix2 p q)
    = G V c (((cfg2.win 5).blk t).view.emb (ix2 p q))
  rw [emb5 t p q]
  refine (Body2.pay_apply (iblk2 V c 0 t) (iblk2 V c 1 t) (iblk2 V c 2 t) (iblk2 V c 3 t) (iblk2 V c 4 t) p q).trans ?_
  show _ = SageSpec.lin (N := 100000) (K := 128) (D := 1) (V c main_v52) (V c main_v39) (V c main_arg8) (V c main_arg9) (V c main_arg10) (row t p) q
  unfold SageSpec.lin
  simp only [blk0 V c t, blk1 V c t, blk2 V c t, blk3 V c t, blk4 V c t]

/-- An index of the output array is in point `t`'s block iff each coordinate is in the block's range on its axis. -/
theorem mem_blk (t : Fin cfg2.N) (i : S100000x1.Idx) :
    i ∈ ((cfg2.win 5).blk t).view.set ↔ ∀ a : Fin 2, win2_5.index t a * S4000x1.size a ≤ (i a).val ∧ (i a).val < win2_5.index t a * S4000x1.size a + S4000x1.size a := by
  show i ∈ ((View.whole main_v53).slice (win2_5.rect t)).set ↔ _
  rw [View.set_slice_whole, Rect.mem_set_unit]
  exact Iff.rfl

/-- Every node's row is in some point's block: node n is in block n / 4000. -/
theorem cover (i : S100000x1.Idx) : ∃ t : Fin cfg2.N, (cfg2.win 5).flush t = true ∧ i ∈ ((cfg2.win 5).blk t).view.set := by
  have hi0 : (i 0).val < 100000 := (i 0).isLt
  have hi1 : (i 1).val < 1 := (i 1).isLt
  have ht : (i 0).val / 4000 < cfg2.N := by rw [N_eq]; omega
  refine ⟨⟨(i 0).val / 4000, ht⟩, flush2_5 _, ?_⟩
  rw [mem_blk]
  obtain ⟨-, -, -, -, -, -, -, -, -, e0, e1⟩ := idx_facts ⟨(i 0).val / 4000, ht⟩
  intro a
  match a with
  | ⟨0, _⟩ =>
    show win2_5.index ⟨(i 0).val / 4000, ht⟩ (0 : Fin 2) * 4000 ≤ (i 0).val ∧ (i 0).val < win2_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win2_5.index ⟨(i 0).val / 4000, ht⟩ (1 : Fin 2) * 1 ≤ (i 1).val ∧ (i 1).val < win2_5.index ⟨(i 0).val / 4000, ht⟩ (1 : Fin 2) * 1 + 1
    rw [e1]; omega

/-- THE ARRAY after the region: the layer's whole-array function of the five arrays the region finds. -/
theorem final (c : Dev nD) : (dat2 V c).arrAt 5 cfg2.N = G V c :=
  (dat2 V c).arrAt_eq_of_cover 5 (G V c) (fun t _ => flushed_eq V c t) cover

end Cert.KernelIdeal.Region2

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«169581_j36447092474036_1_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.LibLogSoftmax.lean ====
/-
  The two halves of a log-softmax along the rows of a matrix, read at an entry, at exact arithmetic.

  Shifting: the maximum over axis 1 of an [A, B] matrix, kept as an [A, 1] column, broadcast back over the B columns and
  subtracted, reads at (p, l) the entry minus the fold of max over row p from the initial word's value.
  Normalising: for any [A, B] matrix s, the sum over axis 1 of exp s, kept as a column, its logarithm broadcast back and
  subtracted from s, reads at (p, q) the entry s[p,q] minus log Σ_l exp s[p,l].
-/
import Idealize.ShloMosaic.Lib.ValueIdx
import Idealize.ShloMosaic.Lib.Pipeline.Value
import Idealize.ShloMosaic.PureOps.Ideal.Laws
import proofs.«169581_j36447092474036_1_alg».proof.Proof.LibKeepdims
import proofs.«169581_j36447092474036_1_alg».proof.Proof.LibColumnOps

noncomputable section

namespace LibLogSoftmax

open Idealize.ShloMosaic Idealize.ShloMosaic.ValueIdx

/-- A matrix minus its row maximum (kept as a column and broadcast back), at (p, l). -/
theorem sub_rowmax_apply {A B : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, B]⟩) (hφ : FKind.Formats .f32)
    (hacc : (0xFF800000#32 : BitVec 32) = FKind.maximumf.neutral .f32 hφ) (p : Fin A) (l : Fin B) :
    subf y (broadcastTo ⟨2, ![A, B]⟩ (shapeCast ⟨2, ![A, 1]⟩ (multiReduction .maximumf [1] ⟨1, ![A]⟩ y 0xFF800000#32 hred hφ hacc) hcast) hb) (ix2 p l)
      = y (ix2 p l) - (Finset.univ : Finset (Fin B)).fold max (Ideal.ofBits .f32 0xFF800000#32) (fun k => y (ix2 p k)) := by
  rw [subf_apply, LibColumnOps.broadcastTo_col_apply, LibKeepdims.shapeCast_col_apply, LibColumnOps.max_axis1_apply]

/-- A matrix minus the logarithm of its row sums of exponentials (kept as a column and broadcast back), at (p, q). -/
theorem sub_logsumexp_apply {A B : ℕ} (s : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, B]⟩) (hφ : FKind.Formats .f32)
    (hacc : (0x00000000#32 : BitVec 32) = FKind.add.neutral .f32 hφ) (p : Fin A) (q : Fin B) :
    subf s (broadcastTo ⟨2, ![A, B]⟩ (log (shapeCast ⟨2, ![A, 1]⟩ (multiReduction .add [1] ⟨1, ![A]⟩ (exp s) 0x00000000#32 hred hφ hacc) hcast)) hb) (ix2 p q)
      = s (ix2 p q) - Ideal.log (∑ l : Fin B, Ideal.exp (s (ix2 p l))) := by
  rw [subf_apply, LibColumnOps.broadcastTo_col_apply]
  show s (ix2 p q) - Ideal.log (shapeCast ⟨2, ![A, 1]⟩ (multiReduction .add [1] ⟨1, ![A]⟩ (exp s) 0x00000000#32 hred hφ hacc) hcast (ix2 p (0 : Fin 1))) = _
  rw [LibKeepdims.shapeCast_col_apply, LibKeepdims.sum_axis1_apply]
  rfl

end LibLogSoftmax

end
-- ==== Proof.KernelBody3.lean ====
/-
  The fourth layer's block of 4000 nodes, entry by entry.

  The body forms the affine part a[p,l] = mean[p,0]·Wl[0,l] + feat[p,0]·Wr[0,l] + b[l] (one input feature, eight outputs),
  then the log-softmax of each row: the row's maximum M is subtracted, and then the logarithm of the row's sum of
  exponentials of the shifted values. At entry (p, q): (a[p,q] − M) − log Σ_l exp (a[p,l] − M).
-/
import proofs.«169581_j36447092474036_1_alg».proof.Proof.Gen.KernelIdeal.Skeleton
import proofs.«169581_j36447092474036_1_alg».proof.Proof.SageSpec
import proofs.«169581_j36447092474036_1_alg».proof.Proof.LibMatmulIdx
import proofs.«169581_j36447092474036_1_alg».proof.Proof.LibRowOps
import proofs.«169581_j36447092474036_1_alg».proof.Proof.LibColumnOps
import proofs.«169581_j36447092474036_1_alg».proof.Proof.LibLogSoftmax
import Idealize.ShloMosaic.Lib.ValueIdx
import Idealize.ShloMosaic.Lib.Pipeline.Value
import Idealize.ShloMosaic.PureOps.Ideal.Laws

noncomputable section

namespace Cert.KernelIdeal.Body3

open Cert.KernelIdeal Cert.KernelIdeal.Gen Idealize.ShloMosaic Idealize.ShloMosaic.ValueIdx

/-! ### The contraction record of the [4000,1]·[1,8] product: which operand coordinate each result and contracted coordinate is -/

theorem mm_l0 (i : S4000x8.Idx) (q : dot_S4000x1_S1x8_S4000x8_1_0_0_1_n_n.contr.Idx) : (dot_S4000x1_S1x8_S4000x8_1_0_0_1_n_n.lhsIdx i q 0).val = (i 0).val := by
  unfold DotDims.lhsIdx
  rw [dif_neg (show ¬(0 : Fin S4000x1.rank) ∈ dot_S4000x1_S1x8_S4000x8_1_0_0_1_n_n.lhsBatch by decide), dif_pos (show (0 : Fin S4000x1.rank) ∈ dot_S4000x1_S1x8_S4000x8_1_0_0_1_n_n.lhsNonContracting by decide)]
  rfl
theorem mm_l1 (i : S4000x8.Idx) (q : dot_S4000x1_S1x8_S4000x8_1_0_0_1_n_n.contr.Idx) : (dot_S4000x1_S1x8_S4000x8_1_0_0_1_n_n.lhsIdx i q 1).val = (q ⟨0, by decide⟩).val :=
  dot_S4000x1_S1x8_S4000x8_1_0_0_1_n_n.lhsIdx_val_of_single rfl i q
theorem mm_r0 (i : S4000x8.Idx) (q : dot_S4000x1_S1x8_S4000x8_1_0_0_1_n_n.contr.Idx) : (dot_S4000x1_S1x8_S4000x8_1_0_0_1_n_n.rhsIdx i q 0).val = (q ⟨0, by decide⟩).val :=
  dot_S4000x1_S1x8_S4000x8_1_0_0_1_n_n.rhsIdx_val_of_single rfl i q
theorem mm_r1 (i : S4000x8.Idx) (q : dot_S4000x1_S1x8_S4000x8_1_0_0_1_n_n.contr.Idx) : (dot_S4000x1_S1x8_S4000x8_1_0_0_1_n_n.rhsIdx i q 1).val = (i 1).val := by
  unfold DotDims.rhsIdx
  rw [dif_neg (show ¬(1 : Fin S1x8.rank) ∈ dot_S4000x1_S1x8_S4000x8_1_0_0_1_n_n.rhsBatch by decide), dif_pos (show (1 : Fin S1x8.rank) ∈ dot_S4000x1_S1x8_S4000x8_1_0_0_1_n_n.rhsNonContracting by decide)]
  rfl

/-- The product into the zero accumulator at entry (p, q): Σ_k l[p,k] · r[k,q]. -/
theorem mm_apply {φ₁ φ₂ : FTy} (l : FVec Ideal S4000x1 φ₁) (r : FVec Ideal S1x8 φ₂) (p : Fin 4000) (q : Fin 8) :
    matmul dot_S4000x1_S1x8_S4000x8_1_0_0_1_n_n none l r (constant S4000x8 .f32 0x00000000#32) (ix2 p q) = ∑ k : Fin 1, l (ix2 p k) * r (ix2 k q) :=
  LibMatmulIdx.matmul2_apply (M := 4000) (K := 1) (N := 8) dot_S4000x1_S1x8_S4000x8_1_0_0_1_n_n rfl rfl mm_l0 mm_l1 mm_r0 mm_r1 none l r (ix2 p q)

/-- The affine part of the block, as the body forms it. -/
def aff (x0 x1 : Vec Ideal S4000x1 .f32) (x2 x3 : Vec Ideal S1x8 .f32) (x4 : Vec Ideal S8 .f32) : FVec Ideal S4000x8 .f32 :=
  addf (addf
      (matmul dot_S4000x1_S1x8_S4000x8_1_0_0_1_n_n none (truncf .bf16 (shapeCast S4000x1 x0 shapeCasts_S4000x1_S4000x1) bitsLt_bf16_f32) (truncf .bf16 x2 bitsLt_bf16_f32) (constant S4000x8 .f32 0x00000000#32))
      (matmul dot_S4000x1_S1x8_S4000x8_1_0_0_1_n_n none (truncf .bf16 (shapeCast S4000x1 x1 shapeCasts_S4000x1_S4000x1) bitsLt_bf16_f32) (truncf .bf16 x3 bitsLt_bf16_f32) (constant S4000x8 .f32 0x00000000#32)))
    (broadcastTo S4000x8 (shapeCast S1x8 x4 shapeCasts_S8_S1x8) broadcasts_S1x8_S4000x8)

theorem aff_apply (x0 x1 : Vec Ideal S4000x1 .f32) (x2 x3 : Vec Ideal S1x8 .f32) (x4 : Vec Ideal S8 .f32) (p : Fin 4000) (l : Fin 8) :
    aff x0 x1 x2 x3 x4 (ix2 p l) = SageSpec.lin (N := 4000) (K := 1) (D := 8) x0 x1 x2 x3 x4 p l := by
  unfold aff SageSpec.lin
  rw [addf_apply, addf_apply, mm_apply, mm_apply,
    LibRowOps.broadcastTo_row_apply, LibRowOps.shapeCast_row_apply]
  simp only [shapeCast_self]
  rfl

/-- The block's stored value at (p, q) is the log-softmax of row p of the affine part, at q. -/
theorem pay_apply (x0 x1 : Vec Ideal S4000x1 .f32) (x2 x3 : Vec Ideal S1x8 .f32) (x4 : Vec Ideal S8 .f32)
    (p : Fin 4000) (q : Fin 8) :
    k3_pay1 (F := Ideal) x0 x1 x2 x3 x4 (ix2 p q)
      = SageSpec.logSoftmax (fun l => SageSpec.lin (N := 4000) (K := 1) (D := 8) x0 x1 x2 x3 x4 p l) q := by
  have e : k3_pay1 (F := Ideal) x0 x1 x2 x3 x4
      = subf (subf (aff x0 x1 x2 x3 x4) (broadcastTo S4000x8 (shapeCast S4000x1 (multiReduction .maximumf [1] S4000 (aff x0 x1 x2 x3 x4) 0xFF800000#32 reduces_S4000x8_S4000 (.inl rfl) rfl) shapeCasts_S4000_S4000x1) broadcasts_S4000x1_S4000x8))
          (broadcastTo S4000x8 (log (shapeCast S4000x1 (multiReduction .add [1] S4000 (exp (subf (aff x0 x1 x2 x3 x4) (broadcastTo S4000x8 (shapeCast S4000x1 (multiReduction .maximumf [1] S4000 (aff x0 x1 x2 x3 x4) 0xFF800000#32 reduces_S4000x8_S4000 (.inl rfl) rfl) shapeCasts_S4000_S4000x1) broadcasts_S4000x1_S4000x8))) 0x00000000#32 reduces_S4000x8_S4000 (.inl rfl) rfl) shapeCasts_S4000_S4000x1)) broadcasts_S4000x1_S4000x8) := rfl
  rw [e]
  refine (LibLogSoftmax.sub_logsumexp_apply (A := 4000) (B := 8) _ reduces_S4000x8_S4000 shapeCasts_S4000_S4000x1 broadcasts_S4000x1_S4000x8 (.inl rfl) rfl p q).trans ?_
  unfold SageSpec.logSoftmax SageSpec.rowMax
  simp only [LibLogSoftmax.sub_rowmax_apply (A := 4000) (B := 8) (aff x0 x1 x2 x3 x4) reduces_S4000x8_S4000 shapeCasts_S4000_S4000x1 broadcasts_S4000x1_S4000x8 (.inl rfl) rfl, aff_apply]

end Cert.KernelIdeal.Body3

end
-- ==== Proof.Region3.lean ====
/-
  The fourth layer's region, from blocks to the array.

  The region runs over 25 points; point t loads rows 4000·t … 4000·t + 3999 of the averaged-neighbour array and of the
  previous layer's node features, the two weight matrices and the bias whole, and writes back the same rows of the
  output. Entry (p, q) of what it writes is the log-softmax, at q, of the eight affine values of node 4000·t + p. So the write-backs are the blocks of ONE function of the five arrays; the 25 blocks cover all 100000
  rows, so after the region the output array IS that function.
-/
import proofs.«169581_j36447092474036_1_alg».proof.Proof.Gen.KernelIdeal.Frame
import proofs.«169581_j36447092474036_1_alg».proof.Proof.KernelBody3
import proofs.«169581_j36447092474036_1_alg».proof.Proof.SageSpec
import Idealize.ShloMosaic.Lib.Pipeline.Value
import Idealize.ShloMosaic.Lib.ValueIdx

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided once over the 25 grid points: the two row-tiled inputs and the output sit at
    block row `t`, column block 0; the two weight matrices and the bias are whole. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

theorem N_eq : cfg3.N = 25 := by decide

/-- The node that row `p` of block `t` is. -/
def row (t : Fin cfg3.N) (p : Fin 4000) : Fin 100000 :=
  ⟨t.val * 4000 + p.val, by have h : t.val < 25 := Nat.lt_of_lt_of_eq t.isLt N_eq; have := p.isLt; omega⟩

/-! ## Each window's block at a point, read where it sits in its array -/

theorem blk0 (c : Dev nD) (t : Fin cfg3.N) (p : Fin 4000) (k : Fin 1) :
    iblk3 V c 0 t (ix2 p k) = V c main_v66 (ix2 (row t p) k) := by
  show V c main_v66 (((cfg3.win 0).blk t).view.emb (ix2 p k)) = _
  refine congrArg (V c main_v66) ?_
  obtain ⟨e0, e1, -⟩ := idx_facts t
  funext a; apply Fin.ext
  match a with
  | ⟨0, _⟩ => show win3_0.index t (0 : Fin 2) * 4000 + 1 * p.val = t.val * 4000 + p.val; omega
  | ⟨1, _⟩ => show win3_0.index t (1 : Fin 2) * 1 + 1 * k.val = k.val; omega

theorem blk1 (c : Dev nD) (t : Fin cfg3.N) (p : Fin 4000) (k : Fin 1) :
    iblk3 V c 1 t (ix2 p k) = V c main_v53 (ix2 (row t p) k) := by
  show V c main_v53 (((cfg3.win 1).blk t).view.emb (ix2 p k)) = _
  refine congrArg (V c main_v53) ?_
  obtain ⟨-, -, e0, e1, -⟩ := idx_facts t
  funext a; apply Fin.ext
  match a with
  | ⟨0, _⟩ => show win3_1.index t (0 : Fin 2) * 4000 + 1 * p.val = t.val * 4000 + p.val; omega
  | ⟨1, _⟩ => show win3_1.index t (1 : Fin 2) * 1 + 1 * k.val = k.val; omega

theorem blk2 (c : Dev nD) (t : Fin cfg3.N) (k : Fin 1) (q : Fin 8) :
    iblk3 V c 2 t (ix2 k q) = V c main_arg11 (ix2 k q) := by
  show V c main_arg11 (((cfg3.win 2).blk t).view.emb (ix2 k q)) = _
  refine congrArg (V c main_arg11) ?_
  obtain ⟨-, -, -, -, e0, e1, -⟩ := idx_facts t
  funext a; apply Fin.ext
  match a with
  | ⟨0, _⟩ => show win3_2.index t (0 : Fin 2) * 1 + 1 * k.val = k.val; omega
  | ⟨1, _⟩ => show win3_2.index t (1 : Fin 2) * 8 + 1 * q.val = q.val; omega

theorem blk3 (c : Dev nD) (t : Fin cfg3.N) (k : Fin 1) (q : Fin 8) :
    iblk3 V c 3 t (ix2 k q) = V c main_arg12 (ix2 k q) := by
  show V c main_arg12 (((cfg3.win 3).blk t).view.emb (ix2 k q)) = _
  refine congrArg (V c main_arg12) ?_
  obtain ⟨-, -, -, -, -, -, e0, e1, -⟩ := idx_facts t
  funext a; apply Fin.ext
  match a with
  | ⟨0, _⟩ => show win3_3.index t (0 : Fin 2) * 1 + 1 * k.val = k.val; omega
  | ⟨1, _⟩ => show win3_3.index t (1 : Fin 2) * 8 + 1 * q.val = q.val; omega

theorem blk4 (c : Dev nD) (t : Fin cfg3.N) (q : Fin 8) :
    iblk3 V c 4 t (ix1 q) = V c main_arg13 (ix1 q) := by
  show V c main_arg13 (((cfg3.win 4).blk t).view.emb (ix1 q)) = _
  refine congrArg (V c main_arg13) ?_
  obtain ⟨-, -, -, -, -, -, -, -, e0, -⟩ := idx_facts t
  funext a; apply Fin.ext
  match a with
  | ⟨0, _⟩ => show win3_4.index t (0 : Fin 1) * 8 + 1 * q.val = q.val; omega

/-- Where entry (p, q) of the output block at point `t` sits in the output array. -/
theorem emb5 (t : Fin cfg3.N) (p : Fin 4000) (q : Fin 8) :
    ((cfg3.win 5).blk t).view.emb (ix2 p q) = ix2 (row t p) q := by
  obtain ⟨-, -, -, -, -, -, -, -, -, e0, e1⟩ := idx_facts t
  funext a; apply Fin.ext
  match a with
  | ⟨0, _⟩ => show win3_5.index t (0 : Fin 2) * 4000 + 1 * p.val = t.val * 4000 + p.val; omega
  | ⟨1, _⟩ => show win3_5.index t (1 : Fin 2) * 8 + 1 * q.val = q.val; omega

/-! ## What a point writes back, the cover, and the array after the region -/

/-- The layer as one function of the five arrays the region finds. -/
abbrev G (c : Dev nD) : FVec Ideal ⟨2, ![100000, 8]⟩ .f32 :=
  SageSpec.layerLogSoftmax (N := 100000) (K := 1) (D := 8) (V c main_v66) (V c main_v53) (V c main_arg11) (V c main_arg12) (V c main_arg13)

/-- What point `t` writes back is block `t` of the layer's whole-array function: its rows are nodes 4000·t … 4000·t + 3999,
    and each entry's two sums run over the same features of the same node. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz2]
  simp only [View.ld_unit_zero (S := S4000x1) hz2, View.ld_unit_zero (S := S1x8) hz2, View.ld_unit_zero (S := S8) hz1]
  funext y
  obtain ⟨p, q, rfl⟩ : ∃ (p : Fin 4000) (q : Fin 8), y = ix2 p q := ⟨y 0, y 1, eq_ix2 y⟩
  show k3_pay1 (iblk3 V c 0 t) (iblk3 V c 1 t) (iblk3 V c 2 t) (iblk3 V c 3 t) (iblk3 V c 4 t) (ix2 p q)
    = G V c (((cfg3.win 5).blk t).view.emb (ix2 p q))
  rw [emb5 t p q]
  refine (Body3.pay_apply (iblk3 V c 0 t) (iblk3 V c 1 t) (iblk3 V c 2 t) (iblk3 V c 3 t) (iblk3 V c 4 t) p q).trans ?_
  show _ = SageSpec.logSoftmax (fun l => SageSpec.lin (N := 100000) (K := 1) (D := 8) (V c main_v66) (V c main_v53) (V c main_arg11) (V c main_arg12) (V c main_arg13) (row t p) l) q
  unfold SageSpec.lin
  simp only [blk0 V c t, blk1 V c t, blk2 V c t, blk3 V c t, blk4 V c t]

/-- An index of the output array is in point `t`'s block iff each coordinate is in the block's range on its axis. -/
theorem mem_blk (t : Fin cfg3.N) (i : S100000x8.Idx) :
    i ∈ ((cfg3.win 5).blk t).view.set ↔ ∀ a : Fin 2, win3_5.index t a * S4000x8.size a ≤ (i a).val ∧ (i a).val < win3_5.index t a * S4000x8.size a + S4000x8.size a := by
  show i ∈ ((View.whole main_v67).slice (win3_5.rect t)).set ↔ _
  rw [View.set_slice_whole, Rect.mem_set_unit]
  exact Iff.rfl

/-- Every node's row is in some point's block: node n is in block n / 4000. -/
theorem cover (i : S100000x8.Idx) : ∃ t : Fin cfg3.N, (cfg3.win 5).flush t = true ∧ i ∈ ((cfg3.win 5).blk t).view.set := by
  have hi0 : (i 0).val < 100000 := (i 0).isLt
  have hi1 : (i 1).val < 8 := (i 1).isLt
  have ht : (i 0).val / 4000 < cfg3.N := by rw [N_eq]; omega
  refine ⟨⟨(i 0).val / 4000, ht⟩, flush3_5 _, ?_⟩
  rw [mem_blk]
  obtain ⟨-, -, -, -, -, -, -, -, -, e0, e1⟩ := idx_facts ⟨(i 0).val / 4000, ht⟩
  intro a
  match a with
  | ⟨0, _⟩ =>
    show win3_5.index ⟨(i 0).val / 4000, ht⟩ (0 : Fin 2) * 4000 ≤ (i 0).val ∧ (i 0).val < win3_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win3_5.index ⟨(i 0).val / 4000, ht⟩ (1 : Fin 2) * 8 ≤ (i 1).val ∧ (i 1).val < win3_5.index ⟨(i 0).val / 4000, ht⟩ (1 : Fin 2) * 8 + 8
    rw [e1]; omega

/-- THE ARRAY after the region: the layer's whole-array function of the five arrays the region finds. -/
theorem final (c : Dev nD) : (dat3 V c).arrAt 5 cfg3.N = G V c :=
  (dat3 V c).arrAt_eq_of_cover 5 (G V c) (fun t _ => flushed_eq V c t) cover

end Cert.KernelIdeal.Region3

end
-- ==== Proof.LibHostRowMax.lean ====
/-
  The host's maximum over axis 1 of a matrix, read at a row, at exact arithmetic.

  A one-operand reduction of an [A, B] matrix over axis 1 with the maximum as its body is, at row r, the fold of max over
  the row's B entries from the initial value's element: the operation is commutative and associative, so the order in
  which the host visits the entries does not matter. And a maximum of that initial value with the fold is the fold again,
  since a fold of max from b is at least b.
-/
import Idealize.ShloMosaic.Lib.ValueIdx
import Idealize.ShloMosaic.PureOps.Reduce
import Idealize.ShloMosaic.PureOps.Ideal.Laws

noncomputable section

namespace LibHostRowMax

open Idealize.ShloMosaic Idealize.ShloMosaic.ValueIdx

/-- The host's max-reduction over axis 1 of an [A, B] matrix at row r: the fold of max over the row from the initial element. -/
theorem reduce_max_axis1_apply {A B : ℕ} {u : Shape} (x : FVec Ideal ⟨2, ![A, B]⟩ .f32) (init : u.Idx → EReal)
    (h' : Shape.ReducesTo ⟨2, ![A, B]⟩ [1] ⟨1, ![A]⟩) (hu : 0 < u.numel) (r : Fin A) :
    Host.reduce (FloatOps.maximumf (F := Ideal) (φ := .f32)) x init h' hu (ix1 r)
      = (Finset.univ : Finset (Fin B)).fold max (init (Shape.Idx.first hu)) (fun k => x (ix2 r k)) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  have h : Shape.Reduces ⟨2, ![A, B]⟩ [1] ⟨1, ![A]⟩ := ⟨h'.1, Nat.one_pos, h'.2⟩
  refine (Host.reduce_eq_fold_single (FloatOps.maximumf (F := Ideal) (φ := .f32)) x init h' h hu (ix1 r)).trans ?_
  refine congrArg (fun g => Finset.fold max (init (Shape.Idx.first hu)) g (Finset.univ : Finset (Fin B))) (funext fun k => congrArg x ?_)
  funext d
  match d with
  | ⟨0, _⟩ => exact Fin.ext rfl
  | ⟨1, _⟩ => exact Fin.ext rfl

/-- A maximum of the starting value with a fold of max from it is the fold. -/
theorem max_fold_max {B : ℕ} (b : EReal) (f : Fin B → EReal) :
    max b ((Finset.univ : Finset (Fin B)).fold max b f) = (Finset.univ : Finset (Fin B)).fold max b f :=
  max_eq_right ((Finset.le_fold_max b).2 (Or.inl le_rfl))

end LibHostRowMax

end
-- ==== Proof.RefLayers.lean ====
/-
  The reference's four layers, each as the layer function of its averaged-neighbour array, its input features, its two
  weight matrices and its bias.

  The reference forms each layer with two whole matrix products over all 100000 nodes, adds the bias broadcast down the
  rows, and applies the layer's activation. Read at an entry (p, q), a product is the sum over the contracted feature k,
  the bias is b[q]: the same affine form, entry by entry, as a row tile of 4000 nodes computes for its own rows.
-/
import proofs.«169581_j36447092474036_1_alg».proof.Proof.RefRead
import proofs.«169581_j36447092474036_1_alg».proof.Proof.SageSpec
import proofs.«169581_j36447092474036_1_alg».proof.Proof.LibHostRowMax
import Idealize.ShloMosaic.Lib.ValueIdx
import Idealize.ShloMosaic.PureOps.Ideal.Laws

noncomputable section

namespace Cert.ReferenceIdeal.Layers

open Cert.ReferenceIdeal Cert.ReferenceIdeal.Gen Cert.ReferenceIdeal.RefRead Idealize.ShloMosaic Idealize.ShloMosaic.ValueIdx

/-- The first layer of the reference: two whole products, the bias row and the clip, entry by entry. -/
theorem layer1 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S64x128, .f32⟩ : BufTy).Contents (Elt Ideal)) (x4 : (⟨S128, .f32⟩ : BufTy).Contents (Elt Ideal)) :
    val_main_v29 (F := Ideal) x0 x1 x2 x3 x4 = SageSpec.layerRelu (N := 100000) (K := 64) (D := 128) (val_main_v22 (F := Ideal) x0 x1) x0 x2 x3 x4 := by
  funext j
  obtain ⟨p, q, rfl⟩ : ∃ (p : Fin 100000) (q : Fin 128), j = ix2 p q := ⟨j 0, j 1, eq_ix2 j⟩
  rw [val_main_v29_apply, val_main_v28_apply, val_main_v25_apply, val_main_v23_apply, val_main_v24_apply, val_main_v27_apply, val_main_v26_apply, val_main_call0_v0_apply, val_main_call0_cst_apply]
  have el1 : ∀ k : Fin 64, lidx_main_v23 (ix2 p q) k = ix2 p k := fun k => funext fun a => Fin.ext (by match a with | ⟨0, _⟩ => rfl | ⟨1, _⟩ => rfl)
  have er1 : ∀ k : Fin 64, ridx_main_v23 (ix2 p q) k = ix2 k q := fun k => funext fun a => Fin.ext (by match a with | ⟨0, _⟩ => rfl | ⟨1, _⟩ => rfl)
  have el2 : ∀ k : Fin 64, lidx_main_v24 (ix2 p q) k = ix2 p k := fun k => funext fun a => Fin.ext (by match a with | ⟨0, _⟩ => rfl | ⟨1, _⟩ => rfl)
  have er2 : ∀ k : Fin 64, ridx_main_v24 (ix2 p q) k = ix2 k q := fun k => funext fun a => Fin.ext (by match a with | ⟨0, _⟩ => rfl | ⟨1, _⟩ => rfl)
  have eb : idx_main_v26 (idx_main_v27 (ix2 p q)) = ix1 q := funext fun a => Fin.ext (by match a with | ⟨0, _⟩ => first | rfl | (show (0 : ℕ) = q.val; have := q.isLt; omega))
  simp only [el1, er1, el2, er2, eb]
  rfl

/-- The second layer of the reference, over the first layer's result. -/
theorem layer2 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) :
    val_main_v55 (F := Ideal) x0 x1 x2 x3 x4 x5 x6 x7 = SageSpec.layerRelu (N := 100000) (K := 128) (D := 128) (val_main_v48 (F := Ideal) x0 x1 x2 x3 x4) (val_main_v29 (F := Ideal) x0 x1 x2 x3 x4) x5 x6 x7 := by
  funext j
  obtain ⟨p, q, rfl⟩ : ∃ (p : Fin 100000) (q : Fin 128), j = ix2 p q := ⟨j 0, j 1, eq_ix2 j⟩
  rw [val_main_v55_apply, val_main_v54_apply, val_main_v51_apply, val_main_v49_apply, val_main_v50_apply, val_main_v53_apply, val_main_v52_apply, val_main_call1_v0_apply, val_main_call1_cst_apply]
  have el1 : ∀ k : Fin 128, lidx_main_v49 (ix2 p q) k = ix2 p k := fun k => funext fun a => Fin.ext (by match a with | ⟨0, _⟩ => rfl | ⟨1, _⟩ => rfl)
  have er1 : ∀ k : Fin 128, ridx_main_v49 (ix2 p q) k = ix2 k q := fun k => funext fun a => Fin.ext (by match a with | ⟨0, _⟩ => rfl | ⟨1, _⟩ => rfl)
  have el2 : ∀ k : Fin 128, lidx_main_v50 (ix2 p q) k = ix2 p k := fun k => funext fun a => Fin.ext (by match a with | ⟨0, _⟩ => rfl | ⟨1, _⟩ => rfl)
  have er2 : ∀ k : Fin 128, ridx_main_v50 (ix2 p q) k = ix2 k q := fun k => funext fun a => Fin.ext (by match a with | ⟨0, _⟩ => rfl | ⟨1, _⟩ => rfl)
  have eb : idx_main_v52 (idx_main_v53 (ix2 p q)) = ix1 q := funext fun a => Fin.ext (by match a with | ⟨0, _⟩ => first | rfl | (show (0 : ℕ) = q.val; have := q.isLt; omega))
  simp only [el1, er1, el2, er2, eb]
  rfl

/-- The third layer of the reference (no activation), over the second layer's result. -/
theorem layer3 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x1, .f32⟩ : BufTy).Contents (Elt Ideal)) (x9 : (⟨S128x1, .f32⟩ : BufTy).Contents (Elt Ideal)) (x10 : (⟨S1, .f32⟩ : BufTy).Contents (Elt Ideal)) :
    val_main_v80 (F := Ideal) x0 x1 x2 x3 x4 x5 x6 x7 x8 x9 x10 = SageSpec.layerLin (N := 100000) (K := 128) (D := 1) (val_main_v74 (F := Ideal) x0 x1 x2 x3 x4 x5 x6 x7) (val_main_v55 (F := Ideal) x0 x1 x2 x3 x4 x5 x6 x7) x8 x9 x10 := by
  funext j
  obtain ⟨p, q, rfl⟩ : ∃ (p : Fin 100000) (q : Fin 1), j = ix2 p q := ⟨j 0, j 1, eq_ix2 j⟩
  rw [val_main_v80_apply, val_main_v77_apply, val_main_v75_apply, val_main_v76_apply, val_main_v79_apply, val_main_v78_apply]
  have el1 : ∀ k : Fin 128, lidx_main_v75 (ix2 p q) k = ix2 p k := fun k => funext fun a => Fin.ext (by match a with | ⟨0, _⟩ => rfl | ⟨1, _⟩ => rfl)
  have er1 : ∀ k : Fin 128, ridx_main_v75 (ix2 p q) k = ix2 k q := fun k => funext fun a => Fin.ext (by match a with | ⟨0, _⟩ => rfl | ⟨1, _⟩ => rfl)
  have el2 : ∀ k : Fin 128, lidx_main_v76 (ix2 p q) k = ix2 p k := fun k => funext fun a => Fin.ext (by match a with | ⟨0, _⟩ => rfl | ⟨1, _⟩ => rfl)
  have er2 : ∀ k : Fin 128, ridx_main_v76 (ix2 p q) k = ix2 k q := fun k => funext fun a => Fin.ext (by match a with | ⟨0, _⟩ => rfl | ⟨1, _⟩ => rfl)
  have eb : idx_main_v78 (idx_main_v79 (ix2 p q)) = ix1 q := funext fun a => Fin.ext (by match a with | ⟨0, _⟩ => first | rfl | (show (0 : ℕ) = q.val; have := q.isLt; omega))
  simp only [el1, er1, el2, er2, eb]
  rfl

/-! ## The fourth layer: the affine part, the row maximum, and the log-softmax -/

/-- The affine part of the fourth layer at (p, l). -/
theorem aff4 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x1, .f32⟩ : BufTy).Contents (Elt Ideal)) (x9 : (⟨S128x1, .f32⟩ : BufTy).Contents (Elt Ideal)) (x10 : (⟨S1, .f32⟩ : BufTy).Contents (Elt Ideal)) (x11 : (⟨S1x8, .f32⟩ : BufTy).Contents (Elt Ideal)) (x12 : (⟨S1x8, .f32⟩ : BufTy).Contents (Elt Ideal)) (x13 : (⟨S8, .f32⟩ : BufTy).Contents (Elt Ideal)) (p : Fin 100000) (l : Fin 8) :
    val_main_v105 (F := Ideal) x0 x1 x2 x3 x4 x5 x6 x7 x8 x9 x10 x11 x12 x13 (ix2 p l)
      = SageSpec.lin (N := 100000) (K := 1) (D := 8) (val_main_v99 (F := Ideal) x0 x1 x2 x3 x4 x5 x6 x7 x8 x9 x10) (val_main_v80 (F := Ideal) x0 x1 x2 x3 x4 x5 x6 x7 x8 x9 x10) x11 x12 x13 p l := by
  rw [val_main_v105_apply, val_main_v102_apply, val_main_v100_apply, val_main_v101_apply, val_main_v104_apply, val_main_v103_apply]
  have el1 : ∀ k : Fin 1, lidx_main_v100 (ix2 p l) k = ix2 p k := fun k => funext fun a => Fin.ext (by match a with | ⟨0, _⟩ => rfl | ⟨1, _⟩ => rfl)
  have er1 : ∀ k : Fin 1, ridx_main_v100 (ix2 p l) k = ix2 k l := fun k => funext fun a => Fin.ext (by match a with | ⟨0, _⟩ => rfl | ⟨1, _⟩ => rfl)
  have el2 : ∀ k : Fin 1, lidx_main_v101 (ix2 p l) k = ix2 p k := fun k => funext fun a => Fin.ext (by match a with | ⟨0, _⟩ => rfl | ⟨1, _⟩ => rfl)
  have er2 : ∀ k : Fin 1, ridx_main_v101 (ix2 p l) k = ix2 k l := fun k => funext fun a => Fin.ext (by match a with | ⟨0, _⟩ => rfl | ⟨1, _⟩ => rfl)
  have eb : idx_main_v103 (idx_main_v104 (ix2 p l)) = ix1 l := funext fun a => Fin.ext (by match a with | ⟨0, _⟩ => rfl)
  simp only [el1, er1, el2, er2, eb]
  rfl

/-- The reference's shift at node p: the maximum of −∞'s value and the row's maximum folded from −∞'s value is that fold. -/
theorem rowmax4 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x1, .f32⟩ : BufTy).Contents (Elt Ideal)) (x9 : (⟨S128x1, .f32⟩ : BufTy).Contents (Elt Ideal)) (x10 : (⟨S1, .f32⟩ : BufTy).Contents (Elt Ideal)) (x11 : (⟨S1x8, .f32⟩ : BufTy).Contents (Elt Ideal)) (x12 : (⟨S1x8, .f32⟩ : BufTy).Contents (Elt Ideal)) (x13 : (⟨S8, .f32⟩ : BufTy).Contents (Elt Ideal)) (p : Fin 100000) :
    val_main_call2_v2 (F := Ideal) x0 x1 x2 x3 x4 x5 x6 x7 x8 x9 x10 x11 x12 x13 (ix1 p) = SageSpec.rowMax (fun l : Fin 8 => val_main_v105 (F := Ideal) x0 x1 x2 x3 x4 x5 x6 x7 x8 x9 x10 x11 x12 x13 (ix2 p l)) := by
  rw [val_main_call2_v2_apply, val_main_call2_v1_apply, val_main_call2_cst_0_apply]
  have hred := LibHostRowMax.reduce_max_axis1_apply (A := 100000) (B := 8) (val_main_v105 (F := Ideal) x0 x1 x2 x3 x4 x5 x6 x7 x8 x9 x10 x11 x12 x13)
    (val_main_call2_cst (F := Ideal)) reducesTo_S100000x8_S100000_d1 h_S_ p
  have hfold : val_main_call2_v0 (F := Ideal) x0 x1 x2 x3 x4 x5 x6 x7 x8 x9 x10 x11 x12 x13 (ix1 p)
      = (Finset.univ : Finset (Fin 8)).fold max (Ideal.ofBits .f32 0xFF800000#32) (fun l : Fin 8 => val_main_v105 (F := Ideal) x0 x1 x2 x3 x4 x5 x6 x7 x8 x9 x10 x11 x12 x13 (ix2 p l)) := hred
  rw [hfold]
  exact LibHostRowMax.max_fold_max _ _

/-- The shifted values of the reference at (p, l): the affine part minus the row's maximum. -/
theorem shifted4 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x1, .f32⟩ : BufTy).Contents (Elt Ideal)) (x9 : (⟨S128x1, .f32⟩ : BufTy).Contents (Elt Ideal)) (x10 : (⟨S1, .f32⟩ : BufTy).Contents (Elt Ideal)) (x11 : (⟨S1x8, .f32⟩ : BufTy).Contents (Elt Ideal)) (x12 : (⟨S1x8, .f32⟩ : BufTy).Contents (Elt Ideal)) (x13 : (⟨S8, .f32⟩ : BufTy).Contents (Elt Ideal)) (p : Fin 100000) (l : Fin 8) :
    val_main_call2_v5 (F := Ideal) x0 x1 x2 x3 x4 x5 x6 x7 x8 x9 x10 x11 x12 x13 (ix2 p l)
      = val_main_v105 (F := Ideal) x0 x1 x2 x3 x4 x5 x6 x7 x8 x9 x10 x11 x12 x13 (ix2 p l) - SageSpec.rowMax (fun l' : Fin 8 => val_main_v105 (F := Ideal) x0 x1 x2 x3 x4 x5 x6 x7 x8 x9 x10 x11 x12 x13 (ix2 p l')) := by
  rw [val_main_call2_v5_apply, val_main_call2_v4_apply, val_main_call2_v3_apply]
  have e : idx_main_call2_v3 (idx_main_call2_v4 (ix2 p l)) = ix1 p := funext fun a => Fin.ext (by match a with | ⟨0, _⟩ => rfl)
  rw [e, rowmax4]
  rfl

/-- The fourth layer of the reference: the log-softmax of each node's row of eight affine values. -/
theorem layer4 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x1, .f32⟩ : BufTy).Contents (Elt Ideal)) (x9 : (⟨S128x1, .f32⟩ : BufTy).Contents (Elt Ideal)) (x10 : (⟨S1, .f32⟩ : BufTy).Contents (Elt Ideal)) (x11 : (⟨S1x8, .f32⟩ : BufTy).Contents (Elt Ideal)) (x12 : (⟨S1x8, .f32⟩ : BufTy).Contents (Elt Ideal)) (x13 : (⟨S8, .f32⟩ : BufTy).Contents (Elt Ideal)) :
    val_main_v106 (F := Ideal) x0 x1 x2 x3 x4 x5 x6 x7 x8 x9 x10 x11 x12 x13
      = SageSpec.layerLogSoftmax (N := 100000) (K := 1) (D := 8) (val_main_v99 (F := Ideal) x0 x1 x2 x3 x4 x5 x6 x7 x8 x9 x10) (val_main_v80 (F := Ideal) x0 x1 x2 x3 x4 x5 x6 x7 x8 x9 x10) x11 x12 x13 := by
  funext j
  obtain ⟨p, q, rfl⟩ : ∃ (p : Fin 100000) (q : Fin 8), j = ix2 p q := ⟨j 0, j 1, eq_ix2 j⟩
  -- the row of affine values of node p
  have hrow : (fun l : Fin 8 => val_main_v105 (F := Ideal) x0 x1 x2 x3 x4 x5 x6 x7 x8 x9 x10 x11 x12 x13 (ix2 p l)) = fun l : Fin 8 => SageSpec.lin (N := 100000) (K := 1) (D := 8) (val_main_v99 (F := Ideal) x0 x1 x2 x3 x4 x5 x6 x7 x8 x9 x10) (val_main_v80 (F := Ideal) x0 x1 x2 x3 x4 x5 x6 x7 x8 x9 x10) x11 x12 x13 p l :=
    funext fun l => aff4 x0 x1 x2 x3 x4 x5 x6 x7 x8 x9 x10 x11 x12 x13 p l
  -- the shifted values
  have hs : ∀ l : Fin 8, val_main_call2_v5 (F := Ideal) x0 x1 x2 x3 x4 x5 x6 x7 x8 x9 x10 x11 x12 x13 (ix2 p l)
      = SageSpec.lin (N := 100000) (K := 1) (D := 8) (val_main_v99 (F := Ideal) x0 x1 x2 x3 x4 x5 x6 x7 x8 x9 x10) (val_main_v80 (F := Ideal) x0 x1 x2 x3 x4 x5 x6 x7 x8 x9 x10) x11 x12 x13 p l - SageSpec.rowMax (fun l' : Fin 8 => SageSpec.lin (N := 100000) (K := 1) (D := 8) (val_main_v99 (F := Ideal) x0 x1 x2 x3 x4 x5 x6 x7 x8 x9 x10) (val_main_v80 (F := Ideal) x0 x1 x2 x3 x4 x5 x6 x7 x8 x9 x10) x11 x12 x13 p l') := by
    intro l
    rw [shifted4, aff4, hrow]
  -- the logarithm of the row's sum of exponentials, broadcast back
  have e8 : idx_main_call2_v8 (idx_main_call2_v10 (ix2 p q)) = ix1 p := funext fun a => Fin.ext (by match a with | ⟨0, _⟩ => rfl)
  have e7 : ∀ k : Fin 8, idx_main_call2_v7 (ix1 p) k = ix2 p k := fun k => funext fun a => Fin.ext (by match a with | ⟨0, _⟩ => rfl | ⟨1, _⟩ => rfl)
  have h6 : ∀ k : Fin 8, val_main_call2_v6 (F := Ideal) x0 x1 x2 x3 x4 x5 x6 x7 x8 x9 x10 x11 x12 x13 (idx_main_call2_v7 (ix1 p) k)
      = Ideal.exp (SageSpec.lin (N := 100000) (K := 1) (D := 8) (val_main_v99 (F := Ideal) x0 x1 x2 x3 x4 x5 x6 x7 x8 x9 x10) (val_main_v80 (F := Ideal) x0 x1 x2 x3 x4 x5 x6 x7 x8 x9 x10) x11 x12 x13 p k - SageSpec.rowMax (fun l' : Fin 8 => SageSpec.lin (N := 100000) (K := 1) (D := 8) (val_main_v99 (F := Ideal) x0 x1 x2 x3 x4 x5 x6 x7 x8 x9 x10) (val_main_v80 (F := Ideal) x0 x1 x2 x3 x4 x5 x6 x7 x8 x9 x10) x11 x12 x13 p l')) := by
    intro k
    rw [e7 k, val_main_call2_v6_apply, hs k]
    exact Ideal.hostUnary_exp_def _
  have h0 : (val_main_call2_cst_1 (F := Ideal)) (Shape.Idx.first h_S_) = 0 := Ideal.ofBits_zero_f32
  have h10 : val_main_call2_v10 (F := Ideal) x0 x1 x2 x3 x4 x5 x6 x7 x8 x9 x10 x11 x12 x13 (ix2 p q)
      = Ideal.log (∑ k : Fin 8, Ideal.exp (SageSpec.lin (N := 100000) (K := 1) (D := 8) (val_main_v99 (F := Ideal) x0 x1 x2 x3 x4 x5 x6 x7 x8 x9 x10) (val_main_v80 (F := Ideal) x0 x1 x2 x3 x4 x5 x6 x7 x8 x9 x10) x11 x12 x13 p k - SageSpec.rowMax (fun l' : Fin 8 => SageSpec.lin (N := 100000) (K := 1) (D := 8) (val_main_v99 (F := Ideal) x0 x1 x2 x3 x4 x5 x6 x7 x8 x9 x10) (val_main_v80 (F := Ideal) x0 x1 x2 x3 x4 x5 x6 x7 x8 x9 x10) x11 x12 x13 p l'))) := by
    rw [val_main_call2_v10_apply, val_main_call2_v9_apply, val_main_call2_v8_apply, e8, val_main_call2_v7_apply, h0, zero_add,
      Finset.sum_congr rfl (fun k _ => h6 k)]
    exact Ideal.hostUnary_log_def _
  rw [val_main_v106_apply, h10, hs q, SageSpec.layerLogSoftmax_apply]
  exact Ideal.subf_def _ _

end Cert.ReferenceIdeal.Layers

end
-- ==== Proof.KernelValue.lean ====
/-
  The idealized kernel's two results, as the reference's last stages of the same arguments.

  @main's buffer contents are followed through its eight boundaries. A host stretch turns the previous layer's features
  into the averaged neighbourhood array, which is the reference's (the reciprocal against the quotient); a region turns
  that array, the previous features, the layer's two weight matrices and its bias into the layer's result over all 100000
  nodes, which is the reference's layer of the same five arrays (row tiles against whole products). The index vectors, the
  reciprocal and the weights pass through the stretches and regions that do not write them. At the end the two result
  buffers hold the reference's log-softmax stage and its reshaped third-layer stage.
-/
import proofs.«169581_j36447092474036_1_alg».proof.Proof.KernelRun
import proofs.«169581_j36447092474036_1_alg».proof.Proof.KernelWalk
import proofs.«169581_j36447092474036_1_alg».proof.Proof.Region0
import proofs.«169581_j36447092474036_1_alg».proof.Proof.Region1
import proofs.«169581_j36447092474036_1_alg».proof.Proof.Region2
import proofs.«169581_j36447092474036_1_alg».proof.Proof.Region3
import proofs.«169581_j36447092474036_1_alg».proof.Proof.RefLayers

noncomputable section

namespace Cert.KernelIdeal.Final

open Cert.KernelIdeal Cert.KernelIdeal.Gen Cert.KernelIdeal.Walk
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch: the index vectors, the reciprocal, the first averaged neighbourhood -/
theorem W1_v1 : W1 m ρ c (Proc.devRef .tc main_v1) = Cert.ReferenceIdeal.RefRead.val_main_v1 (F := Ideal) (m ((c : Thread nD τ).loc main_arg1)) := readH0_v1 (V := W0 m ρ c) (x1 := (m ((c : Thread nD τ).loc main_arg1))) (h1 := rfl)
theorem W1_v3 : W1 m ρ c (Proc.devRef .tc main_v3) = Cert.ReferenceIdeal.RefRead.val_main_v3 (F := Ideal) (m ((c : Thread nD τ).loc main_arg1)) := readH0_v3 (V := W0 m ρ c) (x1 := (m ((c : Thread nD τ).loc main_arg1))) (h1 := rfl)
theorem W1_v11 : W1 m ρ c (Proc.devRef .tc main_v11) = (Host.divf (F := Ideal) (s := S100000) (φ := .f32) (Cert.ReferenceIdeal.RefRead.val_main_v18 (F := Ideal)) (maximumf (F := Ideal) (s := S100000) (φ := .f32) (Cert.ReferenceIdeal.RefRead.val_main_v17 (F := Ideal) (m ((c : Thread nD τ).loc main_arg1))) (Cert.ReferenceIdeal.RefRead.val_main_v18 (F := Ideal)))) := readH0_v11 (V := W0 m ρ c) (x1 := (m ((c : Thread nD τ).loc main_arg1))) (h1 := rfl)
theorem W1_v24 : W1 m ρ c (Proc.devRef .tc main_v24) = Cert.ReferenceIdeal.RefRead.val_main_v22 (F := Ideal) (m ((c : Thread nD τ).loc main_arg0)) (m ((c : Thread nD τ).loc main_arg1)) := readH0_v24 (V := W0 m ρ c) (x0 := (m ((c : Thread nD τ).loc main_arg0))) (x1 := (m ((c : Thread nD τ).loc main_arg1))) (h0 := rfl) (h1 := rfl)
theorem W1_arg0 : W1 m ρ c (Proc.devRef .tc main_arg0) = (m ((c : Thread nD τ).loc main_arg0)) := keepH0_arg0 (W0 m ρ c)
theorem W1_arg2 : W1 m ρ c (Proc.devRef .tc main_arg2) = (m ((c : Thread nD τ).loc main_arg2)) := keepH0_arg2 (W0 m ρ c)
theorem W1_arg3 : W1 m ρ c (Proc.devRef .tc main_arg3) = (m ((c : Thread nD τ).loc main_arg3)) := keepH0_arg3 (W0 m ρ c)
theorem W1_arg4 : W1 m ρ c (Proc.devRef .tc main_arg4) = (m ((c : Thread nD τ).loc main_arg4)) := keepH0_arg4 (W0 m ρ c)
theorem W1_arg5 : W1 m ρ c (Proc.devRef .tc main_arg5) = (m ((c : Thread nD τ).loc main_arg5)) := keepH0_arg5 (W0 m ρ c)
theorem W1_arg6 : W1 m ρ c (Proc.devRef .tc main_arg6) = (m ((c : Thread nD τ).loc main_arg6)) := keepH0_arg6 (W0 m ρ c)
theorem W1_arg7 : W1 m ρ c (Proc.devRef .tc main_arg7) = (m ((c : Thread nD τ).loc main_arg7)) := keepH0_arg7 (W0 m ρ c)
theorem W1_arg8 : W1 m ρ c (Proc.devRef .tc main_arg8) = (m ((c : Thread nD τ).loc main_arg8)) := keepH0_arg8 (W0 m ρ c)
theorem W1_arg9 : W1 m ρ c (Proc.devRef .tc main_arg9) = (m ((c : Thread nD τ).loc main_arg9)) := keepH0_arg9 (W0 m ρ c)
theorem W1_arg10 : W1 m ρ c (Proc.devRef .tc main_arg10) = (m ((c : Thread nD τ).loc main_arg10)) := keepH0_arg10 (W0 m ρ c)
theorem W1_arg11 : W1 m ρ c (Proc.devRef .tc main_arg11) = (m ((c : Thread nD τ).loc main_arg11)) := keepH0_arg11 (W0 m ρ c)
theorem W1_arg12 : W1 m ρ c (Proc.devRef .tc main_arg12) = (m ((c : Thread nD τ).loc main_arg12)) := keepH0_arg12 (W0 m ρ c)
theorem W1_arg13 : W1 m ρ c (Proc.devRef .tc main_arg13) = (m ((c : Thread nD τ).loc main_arg13)) := keepH0_arg13 (W0 m ρ c)

/-! ## After the first region -/
theorem W2_v25 : W2 m ρ c (Proc.devRef .tc main_v25) = Cert.ReferenceIdeal.RefRead.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  refine (Region0.final (V1 m ρ) c).trans ?_
  show SageSpec.layerRelu (N := 100000) (K := 64) (D := 128) (W1 m ρ c (Proc.devRef .tc main_v24)) (W1 m ρ c (Proc.devRef .tc main_arg0)) (W1 m ρ c (Proc.devRef .tc main_arg2)) (W1 m ρ c (Proc.devRef .tc main_arg3)) (W1 m ρ c (Proc.devRef .tc main_arg4)) = _
  rw [W1_v24 m ρ c, W1_arg0 m ρ c, W1_arg2 m ρ c, W1_arg3 m ρ c, W1_arg4 m ρ c]
  exact (Cert.ReferenceIdeal.Layers.layer1 (m ((c : Thread nD τ).loc main_arg0)) (m ((c : Thread nD τ).loc main_arg1)) (m ((c : Thread nD τ).loc main_arg2)) (m ((c : Thread nD τ).loc main_arg3)) (m ((c : Thread nD τ).loc main_arg4))).symm
theorem W2_v1 : W2 m ρ c (Proc.devRef .tc main_v1) = Cert.ReferenceIdeal.RefRead.val_main_v1 (F := Ideal) (m ((c : Thread nD τ).loc main_arg1)) :=
  (W2_of_ne m ρ c main_v1 (by decide)).trans (W1_v1 m ρ c)
theorem W2_v3 : W2 m ρ c (Proc.devRef .tc main_v3) = Cert.ReferenceIdeal.RefRead.val_main_v3 (F := Ideal) (m ((c : Thread nD τ).loc main_arg1)) :=
  (W2_of_ne m ρ c main_v3 (by decide)).trans (W1_v3 m ρ c)
theorem W2_v11 : W2 m ρ c (Proc.devRef .tc main_v11) = (Host.divf (F := Ideal) (s := S100000) (φ := .f32) (Cert.ReferenceIdeal.RefRead.val_main_v18 (F := Ideal)) (maximumf (F := Ideal) (s := S100000) (φ := .f32) (Cert.ReferenceIdeal.RefRead.val_main_v17 (F := Ideal) (m ((c : Thread nD τ).loc main_arg1))) (Cert.ReferenceIdeal.RefRead.val_main_v18 (F := Ideal)))) :=
  (W2_of_ne m ρ c main_v11 (by decide)).trans (W1_v11 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)
theorem W2_arg11 : W2 m ρ c (Proc.devRef .tc main_arg11) = (m ((c : Thread nD τ).loc main_arg11)) :=
  (W2_of_ne m ρ c main_arg11 (by decide)).trans (W1_arg11 m ρ c)
theorem W2_arg12 : W2 m ρ c (Proc.devRef .tc main_arg12) = (m ((c : Thread nD τ).loc main_arg12)) :=
  (W2_of_ne m ρ c main_arg12 (by decide)).trans (W1_arg12 m ρ c)
theorem W2_arg13 : W2 m ρ c (Proc.devRef .tc main_arg13) = (m ((c : Thread nD τ).loc main_arg13)) :=
  (W2_of_ne m ρ c main_arg13 (by decide)).trans (W1_arg13 m ρ c)

/-! ## After the second stretch -/
theorem W3_v38 : W3 m ρ c (Proc.devRef .tc main_v38) = Cert.ReferenceIdeal.RefRead.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  readH1_v38 (V := W2 m ρ c) (x0 := (m ((c : Thread nD τ).loc main_arg0))) (x1 := (m ((c : Thread nD τ).loc main_arg1))) (x2 := (m ((c : Thread nD τ).loc main_arg2))) (x3 := (m ((c : Thread nD τ).loc main_arg3))) (x4 := (m ((c : Thread nD τ).loc main_arg4))) (hf := W2_v25 m ρ c) (h1 := W2_v1 m ρ c) (h3 := W2_v3 m ρ c) (h11 := W2_v11 m ρ c)
theorem W3_v1 : W3 m ρ c (Proc.devRef .tc main_v1) = Cert.ReferenceIdeal.RefRead.val_main_v1 (F := Ideal) (m ((c : Thread nD τ).loc main_arg1)) :=
  (keepH1_v1 (W2 m ρ c)).trans (W2_v1 m ρ c)
theorem W3_v3 : W3 m ρ c (Proc.devRef .tc main_v3) = Cert.ReferenceIdeal.RefRead.val_main_v3 (F := Ideal) (m ((c : Thread nD τ).loc main_arg1)) :=
  (keepH1_v3 (W2 m ρ c)).trans (W2_v3 m ρ c)
theorem W3_v11 : W3 m ρ c (Proc.devRef .tc main_v11) = (Host.divf (F := Ideal) (s := S100000) (φ := .f32) (Cert.ReferenceIdeal.RefRead.val_main_v18 (F := Ideal)) (maximumf (F := Ideal) (s := S100000) (φ := .f32) (Cert.ReferenceIdeal.RefRead.val_main_v17 (F := Ideal) (m ((c : Thread nD τ).loc main_arg1))) (Cert.ReferenceIdeal.RefRead.val_main_v18 (F := Ideal)))) :=
  (keepH1_v11 (W2 m ρ c)).trans (W2_v11 m ρ c)
theorem W3_v25 : W3 m ρ c (Proc.devRef .tc main_v25) = Cert.ReferenceIdeal.RefRead.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (keepH1_v25 (W2 m ρ c)).trans (W2_v25 m ρ c)
theorem W3_arg5 : W3 m ρ c (Proc.devRef .tc main_arg5) = (m ((c : Thread nD τ).loc main_arg5)) :=
  (keepH1_arg5 (W2 m ρ c)).trans (W2_arg5 m ρ c)
theorem W3_arg6 : W3 m ρ c (Proc.devRef .tc main_arg6) = (m ((c : Thread nD τ).loc main_arg6)) :=
  (keepH1_arg6 (W2 m ρ c)).trans (W2_arg6 m ρ c)
theorem W3_arg7 : W3 m ρ c (Proc.devRef .tc main_arg7) = (m ((c : Thread nD τ).loc main_arg7)) :=
  (keepH1_arg7 (W2 m ρ c)).trans (W2_arg7 m ρ c)
theorem W3_arg8 : W3 m ρ c (Proc.devRef .tc main_arg8) = (m ((c : Thread nD τ).loc main_arg8)) :=
  (keepH1_arg8 (W2 m ρ c)).trans (W2_arg8 m ρ c)
theorem W3_arg9 : W3 m ρ c (Proc.devRef .tc main_arg9) = (m ((c : Thread nD τ).loc main_arg9)) :=
  (keepH1_arg9 (W2 m ρ c)).trans (W2_arg9 m ρ c)
theorem W3_arg10 : W3 m ρ c (Proc.devRef .tc main_arg10) = (m ((c : Thread nD τ).loc main_arg10)) :=
  (keepH1_arg10 (W2 m ρ c)).trans (W2_arg10 m ρ c)
theorem W3_arg11 : W3 m ρ c (Proc.devRef .tc main_arg11) = (m ((c : Thread nD τ).loc main_arg11)) :=
  (keepH1_arg11 (W2 m ρ c)).trans (W2_arg11 m ρ c)
theorem W3_arg12 : W3 m ρ c (Proc.devRef .tc main_arg12) = (m ((c : Thread nD τ).loc main_arg12)) :=
  (keepH1_arg12 (W2 m ρ c)).trans (W2_arg12 m ρ c)
theorem W3_arg13 : W3 m ρ c (Proc.devRef .tc main_arg13) = (m ((c : Thread nD τ).loc main_arg13)) :=
  (keepH1_arg13 (W2 m ρ c)).trans (W2_arg13 m ρ c)

/-! ## After the second region -/
theorem W4_v39 : W4 m ρ c (Proc.devRef .tc main_v39) = Cert.ReferenceIdeal.RefRead.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  refine (Region1.final (V3 m ρ) c).trans ?_
  show SageSpec.layerRelu (N := 100000) (K := 128) (D := 128) (W3 m ρ c (Proc.devRef .tc main_v38)) (W3 m ρ c (Proc.devRef .tc main_v25)) (W3 m ρ c (Proc.devRef .tc main_arg5)) (W3 m ρ c (Proc.devRef .tc main_arg6)) (W3 m ρ c (Proc.devRef .tc main_arg7)) = _
  rw [W3_v38 m ρ c, W3_v25 m ρ c, W3_arg5 m ρ c, W3_arg6 m ρ c, W3_arg7 m ρ c]
  exact (Cert.ReferenceIdeal.Layers.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm
theorem W4_v1 : W4 m ρ c (Proc.devRef .tc main_v1) = Cert.ReferenceIdeal.RefRead.val_main_v1 (F := Ideal) (m ((c : Thread nD τ).loc main_arg1)) :=
  (W4_of_ne m ρ c main_v1 (by decide)).trans (W3_v1 m ρ c)
theorem W4_v3 : W4 m ρ c (Proc.devRef .tc main_v3) = Cert.ReferenceIdeal.RefRead.val_main_v3 (F := Ideal) (m ((c : Thread nD τ).loc main_arg1)) :=
  (W4_of_ne m ρ c main_v3 (by decide)).trans (W3_v3 m ρ c)
theorem W4_v11 : W4 m ρ c (Proc.devRef .tc main_v11) = (Host.divf (F := Ideal) (s := S100000) (φ := .f32) (Cert.ReferenceIdeal.RefRead.val_main_v18 (F := Ideal)) (maximumf (F := Ideal) (s := S100000) (φ := .f32) (Cert.ReferenceIdeal.RefRead.val_main_v17 (F := Ideal) (m ((c : Thread nD τ).loc main_arg1))) (Cert.ReferenceIdeal.RefRead.val_main_v18 (F := Ideal)))) :=
  (W4_of_ne m ρ c main_v11 (by decide)).trans (W3_v11 m ρ c)
theorem W4_arg8 : W4 m ρ c (Proc.devRef .tc main_arg8) = (m ((c : Thread nD τ).loc main_arg8)) :=
  (W4_of_ne m ρ c main_arg8 (by decide)).trans (W3_arg8 m ρ c)
theorem W4_arg9 : W4 m ρ c (Proc.devRef .tc main_arg9) = (m ((c : Thread nD τ).loc main_arg9)) :=
  (W4_of_ne m ρ c main_arg9 (by decide)).trans (W3_arg9 m ρ c)
theorem W4_arg10 : W4 m ρ c (Proc.devRef .tc main_arg10) = (m ((c : Thread nD τ).loc main_arg10)) :=
  (W4_of_ne m ρ c main_arg10 (by decide)).trans (W3_arg10 m ρ c)
theorem W4_arg11 : W4 m ρ c (Proc.devRef .tc main_arg11) = (m ((c : Thread nD τ).loc main_arg11)) :=
  (W4_of_ne m ρ c main_arg11 (by decide)).trans (W3_arg11 m ρ c)
theorem W4_arg12 : W4 m ρ c (Proc.devRef .tc main_arg12) = (m ((c : Thread nD τ).loc main_arg12)) :=
  (W4_of_ne m ρ c main_arg12 (by decide)).trans (W3_arg12 m ρ c)
theorem W4_arg13 : W4 m ρ c (Proc.devRef .tc main_arg13) = (m ((c : Thread nD τ).loc main_arg13)) :=
  (W4_of_ne m ρ c main_arg13 (by decide)).trans (W3_arg13 m ρ c)

/-! ## After the third stretch -/
theorem W5_v52 : W5 m ρ c (Proc.devRef .tc main_v52) = Cert.ReferenceIdeal.RefRead.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  readH2_v52 (V := W4 m ρ c) (x0 := (m ((c : Thread nD τ).loc main_arg0))) (x1 := (m ((c : Thread nD τ).loc main_arg1))) (x2 := (m ((c : Thread nD τ).loc main_arg2))) (x3 := (m ((c : Thread nD τ).loc main_arg3))) (x4 := (m ((c : Thread nD τ).loc main_arg4))) (x5 := (m ((c : Thread nD τ).loc main_arg5))) (x6 := (m ((c : Thread nD τ).loc main_arg6))) (x7 := (m ((c : Thread nD τ).loc main_arg7))) (hf := W4_v39 m ρ c) (h1 := W4_v1 m ρ c) (h3 := W4_v3 m ρ c) (h11 := W4_v11 m ρ c)
theorem W5_v1 : W5 m ρ c (Proc.devRef .tc main_v1) = Cert.ReferenceIdeal.RefRead.val_main_v1 (F := Ideal) (m ((c : Thread nD τ).loc main_arg1)) :=
  (keepH2_v1 (W4 m ρ c)).trans (W4_v1 m ρ c)
theorem W5_v3 : W5 m ρ c (Proc.devRef .tc main_v3) = Cert.ReferenceIdeal.RefRead.val_main_v3 (F := Ideal) (m ((c : Thread nD τ).loc main_arg1)) :=
  (keepH2_v3 (W4 m ρ c)).trans (W4_v3 m ρ c)
theorem W5_v11 : W5 m ρ c (Proc.devRef .tc main_v11) = (Host.divf (F := Ideal) (s := S100000) (φ := .f32) (Cert.ReferenceIdeal.RefRead.val_main_v18 (F := Ideal)) (maximumf (F := Ideal) (s := S100000) (φ := .f32) (Cert.ReferenceIdeal.RefRead.val_main_v17 (F := Ideal) (m ((c : Thread nD τ).loc main_arg1))) (Cert.ReferenceIdeal.RefRead.val_main_v18 (F := Ideal)))) :=
  (keepH2_v11 (W4 m ρ c)).trans (W4_v11 m ρ c)
theorem W5_v39 : W5 m ρ c (Proc.devRef .tc main_v39) = Cert.ReferenceIdeal.RefRead.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (keepH2_v39 (W4 m ρ c)).trans (W4_v39 m ρ c)
theorem W5_arg8 : W5 m ρ c (Proc.devRef .tc main_arg8) = (m ((c : Thread nD τ).loc main_arg8)) :=
  (keepH2_arg8 (W4 m ρ c)).trans (W4_arg8 m ρ c)
theorem W5_arg9 : W5 m ρ c (Proc.devRef .tc main_arg9) = (m ((c : Thread nD τ).loc main_arg9)) :=
  (keepH2_arg9 (W4 m ρ c)).trans (W4_arg9 m ρ c)
theorem W5_arg10 : W5 m ρ c (Proc.devRef .tc main_arg10) = (m ((c : Thread nD τ).loc main_arg10)) :=
  (keepH2_arg10 (W4 m ρ c)).trans (W4_arg10 m ρ c)
theorem W5_arg11 : W5 m ρ c (Proc.devRef .tc main_arg11) = (m ((c : Thread nD τ).loc main_arg11)) :=
  (keepH2_arg11 (W4 m ρ c)).trans (W4_arg11 m ρ c)
theorem W5_arg12 : W5 m ρ c (Proc.devRef .tc main_arg12) = (m ((c : Thread nD τ).loc main_arg12)) :=
  (keepH2_arg12 (W4 m ρ c)).trans (W4_arg12 m ρ c)
theorem W5_arg13 : W5 m ρ c (Proc.devRef .tc main_arg13) = (m ((c : Thread nD τ).loc main_arg13)) :=
  (keepH2_arg13 (W4 m ρ c)).trans (W4_arg13 m ρ c)

/-! ## After the third region -/
theorem W6_v53 : W6 m ρ c (Proc.devRef .tc main_v53) = Cert.ReferenceIdeal.RefRead.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ?_
  refine (Region2.final (V5 m ρ) c).trans ?_
  show SageSpec.layerLin (N := 100000) (K := 128) (D := 1) (W5 m ρ c (Proc.devRef .tc main_v52)) (W5 m ρ c (Proc.devRef .tc main_v39)) (W5 m ρ c (Proc.devRef .tc main_arg8)) (W5 m ρ c (Proc.devRef .tc main_arg9)) (W5 m ρ c (Proc.devRef .tc main_arg10)) = _
  rw [W5_v52 m ρ c, W5_v39 m ρ c, W5_arg8 m ρ c, W5_arg9 m ρ c, W5_arg10 m ρ c]
  exact (Cert.ReferenceIdeal.Layers.layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm
theorem W6_v1 : W6 m ρ c (Proc.devRef .tc main_v1) = Cert.ReferenceIdeal.RefRead.val_main_v1 (F := Ideal) (m ((c : Thread nD τ).loc main_arg1)) :=
  (W6_of_ne m ρ c main_v1 (by decide)).trans (W5_v1 m ρ c)
theorem W6_v3 : W6 m ρ c (Proc.devRef .tc main_v3) = Cert.ReferenceIdeal.RefRead.val_main_v3 (F := Ideal) (m ((c : Thread nD τ).loc main_arg1)) :=
  (W6_of_ne m ρ c main_v3 (by decide)).trans (W5_v3 m ρ c)
theorem W6_v11 : W6 m ρ c (Proc.devRef .tc main_v11) = (Host.divf (F := Ideal) (s := S100000) (φ := .f32) (Cert.ReferenceIdeal.RefRead.val_main_v18 (F := Ideal)) (maximumf (F := Ideal) (s := S100000) (φ := .f32) (Cert.ReferenceIdeal.RefRead.val_main_v17 (F := Ideal) (m ((c : Thread nD τ).loc main_arg1))) (Cert.ReferenceIdeal.RefRead.val_main_v18 (F := Ideal)))) :=
  (W6_of_ne m ρ c main_v11 (by decide)).trans (W5_v11 m ρ c)
theorem W6_arg11 : W6 m ρ c (Proc.devRef .tc main_arg11) = (m ((c : Thread nD τ).loc main_arg11)) :=
  (W6_of_ne m ρ c main_arg11 (by decide)).trans (W5_arg11 m ρ c)
theorem W6_arg12 : W6 m ρ c (Proc.devRef .tc main_arg12) = (m ((c : Thread nD τ).loc main_arg12)) :=
  (W6_of_ne m ρ c main_arg12 (by decide)).trans (W5_arg12 m ρ c)
theorem W6_arg13 : W6 m ρ c (Proc.devRef .tc main_arg13) = (m ((c : Thread nD τ).loc main_arg13)) :=
  (W6_of_ne m ρ c main_arg13 (by decide)).trans (W5_arg13 m ρ c)

/-! ## After the fourth stretch: the second result, and the last averaged neighbourhood -/
theorem W7_v66 : W7 m ρ c (Proc.devRef .tc main_v66) = Cert.ReferenceIdeal.RefRead.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  readH3_v66 (V := W6 m ρ c) (x0 := (m ((c : Thread nD τ).loc main_arg0))) (x1 := (m ((c : Thread nD τ).loc main_arg1))) (x2 := (m ((c : Thread nD τ).loc main_arg2))) (x3 := (m ((c : Thread nD τ).loc main_arg3))) (x4 := (m ((c : Thread nD τ).loc main_arg4))) (x5 := (m ((c : Thread nD τ).loc main_arg5))) (x6 := (m ((c : Thread nD τ).loc main_arg6))) (x7 := (m ((c : Thread nD τ).loc main_arg7))) (x8 := (m ((c : Thread nD τ).loc main_arg8))) (x9 := (m ((c : Thread nD τ).loc main_arg9))) (x10 := (m ((c : Thread nD τ).loc main_arg10))) (hf := W6_v53 m ρ c) (h1 := W6_v1 m ρ c) (h3 := W6_v3 m ρ c) (h11 := W6_v11 m ρ c)
theorem W7_v54 : W7 m ρ c (Proc.devRef .tc main_v54) = Cert.ReferenceIdeal.RefRead.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  readH3_v54 (V := W6 m ρ c) (x0 := (m ((c : Thread nD τ).loc main_arg0))) (x1 := (m ((c : Thread nD τ).loc main_arg1))) (x2 := (m ((c : Thread nD τ).loc main_arg2))) (x3 := (m ((c : Thread nD τ).loc main_arg3))) (x4 := (m ((c : Thread nD τ).loc main_arg4))) (x5 := (m ((c : Thread nD τ).loc main_arg5))) (x6 := (m ((c : Thread nD τ).loc main_arg6))) (x7 := (m ((c : Thread nD τ).loc main_arg7))) (x8 := (m ((c : Thread nD τ).loc main_arg8))) (x9 := (m ((c : Thread nD τ).loc main_arg9))) (x10 := (m ((c : Thread nD τ).loc main_arg10))) (hf := W6_v53 m ρ c)
theorem W7_v53 : W7 m ρ c (Proc.devRef .tc main_v53) = Cert.ReferenceIdeal.RefRead.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (keepH3_v53 (W6 m ρ c)).trans (W6_v53 m ρ c)
theorem W7_arg11 : W7 m ρ c (Proc.devRef .tc main_arg11) = (m ((c : Thread nD τ).loc main_arg11)) :=
  (keepH3_arg11 (W6 m ρ c)).trans (W6_arg11 m ρ c)
theorem W7_arg12 : W7 m ρ c (Proc.devRef .tc main_arg12) = (m ((c : Thread nD τ).loc main_arg12)) :=
  (keepH3_arg12 (W6 m ρ c)).trans (W6_arg12 m ρ c)
theorem W7_arg13 : W7 m ρ c (Proc.devRef .tc main_arg13) = (m ((c : Thread nD τ).loc main_arg13)) :=
  (keepH3_arg13 (W6 m ρ c)).trans (W6_arg13 m ρ c)

/-! ## After the fourth region: the two results -/
theorem W8_v67 : W8 m ρ c (Proc.devRef .tc main_v67) = Cert.ReferenceIdeal.RefRead.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W8_arr m ρ c 5).trans ?_
  refine (Region3.final (V7 m ρ) c).trans ?_
  show SageSpec.layerLogSoftmax (N := 100000) (K := 1) (D := 8) (W7 m ρ c (Proc.devRef .tc main_v66)) (W7 m ρ c (Proc.devRef .tc main_v53)) (W7 m ρ c (Proc.devRef .tc main_arg11)) (W7 m ρ c (Proc.devRef .tc main_arg12)) (W7 m ρ c (Proc.devRef .tc main_arg13)) = _
  rw [W7_v66 m ρ c, W7_v53 m ρ c, W7_arg11 m ρ c, W7_arg12 m ρ c, W7_arg13 m ρ c]
  exact (Cert.ReferenceIdeal.Layers.layer4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).symm
theorem W8_v54 : W8 m ρ c (Proc.devRef .tc main_v54) = Cert.ReferenceIdeal.RefRead.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W8_of_ne m ρ c main_v54 (by decide)).trans (W7_v54 m ρ c)

/-! ## The run -/

/-- Every weakly fair execution of the idealized kernel terminates, nothing faulting, with the first result at the
    reference's log-softmax stage of the arguments, the second at its reshaped third-layer stage, the arguments unchanged. -/
theorem run : θ_run defs (onTc (τ := τ) (main (F := Ideal))) ⟨m, fun _ => 0, ρ⟩ (fun r => ∀ c : Dev nD,
      r.2.mem ((c.tc : Thread nD τ).loc main_v67) = Cert.ReferenceIdeal.RefRead.val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v54) = Cert.ReferenceIdeal.RefRead.val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (W8_v67 m ρ c), (h c).2.1.trans (W8_v54 m ρ c), (h c).2.2⟩)
    (Cert.KernelIdeal.Named.run (F := Ideal) m ρ)

end Cert.KernelIdeal.Final

end
-- ==== Proof.RefChunks.lean ====
/-
  The reference's @main cut into stretches.

  The 149 host operations of the reference, in order, are cut into seven stretches: each layer's affine part, and each
  inlined activation (the two clips at zero, the log-softmax) on its own. The buffer contents after a list of operations
  is a fold, and the fold over a concatenation is the fold over the second list from what the first leaves; so the contents
  after @main are reached through six named intermediate contents, and each stretch is read on its own, from ANY contents
  it may start from.
-/
import proofs.«169581_j36447092474036_1_alg».proof.Proof.RefOps

noncomputable section

namespace Cert.ReferenceIdeal.Chunks

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-- The contents after two lists in a row: the second list's fold from what the first leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The first layer's affine part: operations 1–35 (through main_v28). -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x64 ![0, 1] bcast_S100000x1_S100000x64_0_1 : (⟨S100000x1, .f32⟩ : BufTy).Contents (Elt F) → (⟨S100000x64, .f32⟩ : BufTy).Contents (Elt F)),
    binary main_v13 main_v21 main_v22 (Host.divf : (⟨S100000x64, .f32⟩ : BufTy).Contents (Elt F) → (⟨S100000x64, .f32⟩ : BufTy).Contents (Elt F) → (⟨S100000x64, .f32⟩ : BufTy).Contents (Elt F)),
    binary main_v22 main_arg2 main_v23 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_arg0 main_arg3 main_v24 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_v23 main_v24 main_v25 (addf : (⟨S100000x128, .f32⟩ : BufTy).Contents (Elt F) → (⟨S100000x128, .f32⟩ : BufTy).Contents (Elt F) → (⟨S100000x128, .f32⟩ : BufTy).Contents (Elt F)),
    unary main_arg4 main_v26 (broadcastInDim S1x128 ![1] bcast_S128_S1x128_1 : (⟨S128, .f32⟩ : BufTy).Contents (Elt F) → (⟨S1x128, .f32⟩ : BufTy).Contents (Elt F)),
    unary main_v26 main_v27 (broadcastInDim S100000x128 ![0, 1] bcast_S1x128_S100000x128_0_1 : (⟨S1x128, .f32⟩ : BufTy).Contents (Elt F) → (⟨S100000x128, .f32⟩ : BufTy).Contents (Elt F)),
    binary main_v25 main_v27 main_v28 (addf : (⟨S100000x128, .f32⟩ : BufTy).Contents (Elt F) → (⟨S100000x128, .f32⟩ : BufTy).Contents (Elt F) → (⟨S100000x128, .f32⟩ : BufTy).Contents (Elt F)) ]

/-- The first layer's clip at zero, an inlined call: operations 36–38 (main_v29). -/
abbrev opsAr : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v28) (TRef.of (T := ⟨S100000x128, .f32⟩) main_call0_v0) (TRef.of (T := ⟨S100000x128, .f32⟩) main_v29) maximumf ]

/-- The second layer's affine part: operations 39–69 (through main_v54). -/
abbrev opsB : List (HloOp τ sig (Elt F)) :=
  [ nullary main_c_4 (constantI S_ 32 0#32),
    unary main_c_4 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v37 (broadcastInDim S100000x128 ![] bcast_S_S100000x128 : (⟨S_, .f32⟩ : BufTy).Contents (Elt F) → (⟨S100000x128, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_7 (constant S_ .f32 0x3F800000#32),
    unary main_cst_7 main_v40 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v41 (broadcastInDim S100000 ![] bcast_S_S100000 : (⟨S_, .f32⟩ : BufTy).Contents (Elt F) → (⟨S100000, .f32⟩ : BufTy).Contents (Elt F)),
    unary main_v3 main_v42 (broadcastInDim S1600000x1 ![0] bcast_S1600000_S1600000x1_0 : (⟨S1600000, .i32⟩ : BufTy).Contents (Elt F) → (⟨S1600000x1, .i32⟩ : BufTy).Contents (Elt F)),
    ternary main_v41 main_v42 main_v40 main_v43 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v44 (broadcastInDim S100000 ![] bcast_S_S100000 : (⟨S_, .f32⟩ : BufTy).Contents (Elt F) → (⟨S100000, .f32⟩ : BufTy).Contents (Elt F)),
    binary main_v43 main_v44 main_v45 (maximumf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x128 ![0, 1] bcast_S100000x1_S100000x128_0_1 : (⟨S100000x1, .f32⟩ : BufTy).Contents (Elt F) → (⟨S100000x128, .f32⟩ : BufTy).Contents (Elt F)),
    binary main_v39 main_v47 main_v48 (Host.divf : (⟨S100000x128, .f32⟩ : BufTy).Contents (Elt F) → (⟨S100000x128, .f32⟩ : BufTy).Contents (Elt F) → (⟨S100000x128, .f32⟩ : BufTy).Contents (Elt F)),
    binary main_v48 main_arg5 main_v49 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v29 main_arg6 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v49 main_v50 main_v51 (addf : (⟨S100000x128, .f32⟩ : BufTy).Contents (Elt F) → (⟨S100000x128, .f32⟩ : BufTy).Contents (Elt F) → (⟨S100000x128, .f32⟩ : BufTy).Contents (Elt F)),
    unary main_arg7 main_v52 (broadcastInDim S1x128 ![1] bcast_S128_S1x128_1 : (⟨S128, .f32⟩ : BufTy).Contents (Elt F) → (⟨S1x128, .f32⟩ : BufTy).Contents (Elt F)),
    unary main_v52 main_v53 (broadcastInDim S100000x128 ![0, 1] bcast_S1x128_S100000x128_0_1 : (⟨S1x128, .f32⟩ : BufTy).Contents (Elt F) → (⟨S100000x128, .f32⟩ : BufTy).Contents (Elt F)),
    binary main_v51 main_v53 main_v54 (addf : (⟨S100000x128, .f32⟩ : BufTy).Contents (Elt F) → (⟨S100000x128, .f32⟩ : BufTy).Contents (Elt F) → (⟨S100000x128, .f32⟩ : BufTy).Contents (Elt F)) ]

/-- The second layer's clip at zero, an inlined call: operations 70–72 (main_v55). -/
abbrev opsBr : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v54) (TRef.of (T := ⟨S100000x128, .f32⟩) main_call1_v0) (TRef.of (T := ⟨S100000x128, .f32⟩) main_v55) maximumf ]

/-- The third layer and the reshape that is the second result: operations 73–104 (main_v80, main_v81). -/
abbrev opsC : List (HloOp τ sig (Elt F)) :=
  [ nullary main_c_10 (constantI S_ 32 0#32),
    unary main_c_10 main_v56 (broadcastInDim S1600000 ![] bcast_S_S1600000 : (⟨S_, .i32⟩ : BufTy).Contents (Elt F) → (⟨S1600000, .i32⟩ : BufTy).Contents (Elt F)),
    binary main_v1 main_v56 main_v57 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v58 (broadcastInDim S1600000 ![] bcast_S_S1600000 : (⟨S_, .i32⟩ : BufTy).Contents (Elt F) → (⟨S1600000, .i32⟩ : BufTy).Contents (Elt F)),
    binary main_v1 main_v58 main_v59 (addi : (⟨S1600000, .i32⟩ : BufTy).Contents (Elt F) → (⟨S1600000, .i32⟩ : BufTy).Contents (Elt F) → (⟨S1600000, .i32⟩ : BufTy).Contents (Elt F)),
    ternary main_v57 main_v59 main_v1 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v60 main_v61 (broadcastInDim S1600000x1 ![0] bcast_S1600000_S1600000x1_0 : (⟨S1600000, .i32⟩ : BufTy).Contents (Elt F) → (⟨S1600000x1, .i32⟩ : BufTy).Contents (Elt F)),
    binary main_v55 main_v61 main_v62 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_12 (constant S_ .f32 0x00000000#32),
    unary main_cst_12 main_v63 (broadcastInDim S100000x128 ![] bcast_S_S100000x128 : (⟨S_, .f32⟩ : BufTy).Contents (Elt F) → (⟨S100000x128, .f32⟩ : BufTy).Contents (Elt F)),
    unary main_v3 main_v64 (broadcastInDim S1600000x1 ![0] bcast_S1600000_S1600000x1_0 : (⟨S1600000, .i32⟩ : BufTy).Contents (Elt F) → (⟨S1600000x1, .i32⟩ : BufTy).Contents (Elt F)),
    ternary main_v63 main_v64 main_v62 main_v65 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_13 (constant S_ .f32 0x3F800000#32),
    unary main_cst_13 main_v66 (broadcastInDim S1600000 ![] bcast_S_S1600000 : (⟨S_, .f32⟩ : BufTy).Contents (Elt F) → (⟨S1600000, .f32⟩ : BufTy).Contents (Elt F)),
    nullary main_cst_14 (constant S_ .f32 0x00000000#32),
    unary main_cst_14 main_v67 (broadcastInDim S100000 ![] bcast_S_S100000 : (⟨S_, .f32⟩ : BufTy).Contents (Elt F) → (⟨S100000, .f32⟩ : BufTy).Contents (Elt F)),
    unary main_v3 main_v68 (broadcastInDim S1600000x1 ![0] bcast_S1600000_S1600000x1_0 : (⟨S1600000, .i32⟩ : BufTy).Contents (Elt F) → (⟨S1600000x1, .i32⟩ : BufTy).Contents (Elt F)),
    ternary main_v67 main_v68 main_v66 main_v69 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_15 (constant S_ .f32 0x3F800000#32),
    unary main_cst_15 main_v70 (broadcastInDim S100000 ![] bcast_S_S100000 : (⟨S_, .f32⟩ : BufTy).Contents (Elt F) → (⟨S100000, .f32⟩ : BufTy).Contents (Elt F)),
    binary main_v69 main_v70 main_v71 (maximumf : (⟨S100000, .f32⟩ : BufTy).Contents (Elt F) → (⟨S100000, .f32⟩ : BufTy).Contents (Elt F) → (⟨S100000, .f32⟩ : BufTy).Contents (Elt F)),
    unary main_v71 main_v72 (broadcastInDim S100000x1 ![0] bcast_S100000_S100000x1_0 : (⟨S100000, .f32⟩ : BufTy).Contents (Elt F) → (⟨S100000x1, .f32⟩ : BufTy).Contents (Elt F)),
    unary main_v72 main_v73 (broadcastInDim S100000x128 ![0, 1] bcast_S100000x1_S100000x128_0_1 : (⟨S100000x1, .f32⟩ : BufTy).Contents (Elt F) → (⟨S100000x128, .f32⟩ : BufTy).Contents (Elt F)),
    binary main_v65 main_v73 main_v74 (Host.divf : (⟨S100000x128, .f32⟩ : BufTy).Contents (Elt F) → (⟨S100000x128, .f32⟩ : BufTy).Contents (Elt F) → (⟨S100000x128, .f32⟩ : BufTy).Contents (Elt F)),
    binary main_v74 main_arg8 main_v75 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    binary main_v55 main_arg9 main_v76 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    binary main_v75 main_v76 main_v77 (addf : (⟨S100000x1, .f32⟩ : BufTy).Contents (Elt F) → (⟨S100000x1, .f32⟩ : BufTy).Contents (Elt F) → (⟨S100000x1, .f32⟩ : BufTy).Contents (Elt F)),
    unary main_arg10 main_v78 (broadcastInDim S1x1 ![1] bcast_S1_S1x1_1 : (⟨S1, .f32⟩ : BufTy).Contents (Elt F) → (⟨S1x1, .f32⟩ : BufTy).Contents (Elt F)),
    unary main_v78 main_v79 (broadcastInDim S100000x1 ![0, 1] bcast_S1x1_S100000x1_0_1 : (⟨S1x1, .f32⟩ : BufTy).Contents (Elt F) → (⟨S100000x1, .f32⟩ : BufTy).Contents (Elt F)),
    binary main_v77 main_v79 main_v80 (addf : (⟨S100000x1, .f32⟩ : BufTy).Contents (Elt F) → (⟨S100000x1, .f32⟩ : BufTy).Contents (Elt F) → (⟨S100000x1, .f32⟩ : BufTy).Contents (Elt F)),
    reshape main_v80 main_v81 rfl shapeCasts_S100000x1_S100000 ]

/-- The fourth layer's affine part: operations 105–134 (through main_v105). -/
abbrev opsD : List (HloOp τ sig (Elt F)) :=
  [ nullary main_c_16 (constantI S_ 32 0#32),
    unary main_c_16 main_v82 (broadcastInDim S1600000 ![] bcast_S_S1600000 : (⟨S_, .i32⟩ : BufTy).Contents (Elt F) → (⟨S1600000, .i32⟩ : BufTy).Contents (Elt F)),
    binary main_v1 main_v82 main_v83 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v84 (broadcastInDim S1600000 ![] bcast_S_S1600000 : (⟨S_, .i32⟩ : BufTy).Contents (Elt F) → (⟨S1600000, .i32⟩ : BufTy).Contents (Elt F)),
    binary main_v1 main_v84 main_v85 (addi : (⟨S1600000, .i32⟩ : BufTy).Contents (Elt F) → (⟨S1600000, .i32⟩ : BufTy).Contents (Elt F) → (⟨S1600000, .i32⟩ : BufTy).Contents (Elt F)),
    ternary main_v83 main_v85 main_v1 main_v86 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v86 main_v87 (broadcastInDim S1600000x1 ![0] bcast_S1600000_S1600000x1_0 : (⟨S1600000, .i32⟩ : BufTy).Contents (Elt F) → (⟨S1600000x1, .i32⟩ : BufTy).Contents (Elt F)),
    binary main_v80 main_v87 main_v88 ((fun x i => Host.gather gather_S100000x1_S1600000x1_S1600000x1_1_0_n_n_0_1_11 x i) : (⟨S100000x1, .f32⟩ : BufTy).Contents (Elt F) → (⟨S1600000x1, .i32⟩ : BufTy).Contents (Elt F) → (⟨S1600000x1, .f32⟩ : BufTy).Contents (Elt F)),
    nullary main_cst_18 (constant S_ .f32 0x00000000#32),
    unary main_cst_18 main_v89 (broadcastInDim S100000x1 ![] bcast_S_S100000x1 : (⟨S_, .f32⟩ : BufTy).Contents (Elt F) → (⟨S100000x1, .f32⟩ : BufTy).Contents (Elt F)),
    unary main_v3 main_v90 (broadcastInDim S1600000x1 ![0] bcast_S1600000_S1600000x1_0 : (⟨S1600000, .i32⟩ : BufTy).Contents (Elt F) → (⟨S1600000x1, .i32⟩ : BufTy).Contents (Elt F)),
    ternary main_v89 main_v90 main_v88 main_v91 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_19 (constant S_ .f32 0x3F800000#32),
    unary main_cst_19 main_v92 (broadcastInDim S1600000 ![] bcast_S_S1600000 : (⟨S_, .f32⟩ : BufTy).Contents (Elt F) → (⟨S1600000, .f32⟩ : BufTy).Contents (Elt F)),
    nullary main_cst_20 (constant S_ .f32 0x00000000#32),
    unary main_cst_20 main_v93 (broadcastInDim S100000 ![] bcast_S_S100000 : (⟨S_, .f32⟩ : BufTy).Contents (Elt F) → (⟨S100000, .f32⟩ : BufTy).Contents (Elt F)),
    unary main_v3 main_v94 (broadcastInDim S1600000x1 ![0] bcast_S1600000_S1600000x1_0 : (⟨S1600000, .i32⟩ : BufTy).Contents (Elt F) → (⟨S1600000x1, .i32⟩ : BufTy).Contents (Elt F)),
    ternary main_v93 main_v94 main_v92 main_v95 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_21 (constant S_ .f32 0x3F800000#32),
    unary main_cst_21 main_v96 (broadcastInDim S100000 ![] bcast_S_S100000 : (⟨S_, .f32⟩ : BufTy).Contents (Elt F) → (⟨S100000, .f32⟩ : BufTy).Contents (Elt F)),
    binary main_v95 main_v96 main_v97 (maximumf : (⟨S100000, .f32⟩ : BufTy).Contents (Elt F) → (⟨S100000, .f32⟩ : BufTy).Contents (Elt F) → (⟨S100000, .f32⟩ : BufTy).Contents (Elt F)),
    unary main_v97 main_v98 (broadcastInDim S100000x1 ![0] bcast_S100000_S100000x1_0 : (⟨S100000, .f32⟩ : BufTy).Contents (Elt F) → (⟨S100000x1, .f32⟩ : BufTy).Contents (Elt F)),
    binary main_v91 main_v98 main_v99 (Host.divf : (⟨S100000x1, .f32⟩ : BufTy).Contents (Elt F) → (⟨S100000x1, .f32⟩ : BufTy).Contents (Elt F) → (⟨S100000x1, .f32⟩ : BufTy).Contents (Elt F)),
    binary main_v99 main_arg11 main_v100 ((fun l r => Host.dotGeneral dot_S100000x1_S1x8_S100000x8_1_0_0_1_n_n none l r) : (⟨S100000x1, .f32⟩ : BufTy).Contents (Elt F) → (⟨S1x8, .f32⟩ : BufTy).Contents (Elt F) → (⟨S100000x8, .f32⟩ : BufTy).Contents (Elt F)),
    binary main_v80 main_arg12 main_v101 ((fun l r => Host.dotGeneral dot_S100000x1_S1x8_S100000x8_1_0_0_1_n_n none l r) : (⟨S100000x1, .f32⟩ : BufTy).Contents (Elt F) → (⟨S1x8, .f32⟩ : BufTy).Contents (Elt F) → (⟨S100000x8, .f32⟩ : BufTy).Contents (Elt F)),
    binary main_v100 main_v101 main_v102 (addf : (⟨S100000x8, .f32⟩ : BufTy).Contents (Elt F) → (⟨S100000x8, .f32⟩ : BufTy).Contents (Elt F) → (⟨S100000x8, .f32⟩ : BufTy).Contents (Elt F)),
    unary main_arg13 main_v103 (broadcastInDim S1x8 ![1] bcast_S8_S1x8_1 : (⟨S8, .f32⟩ : BufTy).Contents (Elt F) → (⟨S1x8, .f32⟩ : BufTy).Contents (Elt F)),
    unary main_v103 main_v104 (broadcastInDim S100000x8 ![0, 1] bcast_S1x8_S100000x8_0_1 : (⟨S1x8, .f32⟩ : BufTy).Contents (Elt F) → (⟨S100000x8, .f32⟩ : BufTy).Contents (Elt F)),
    binary main_v102 main_v104 main_v105 (addf : (⟨S100000x8, .f32⟩ : BufTy).Contents (Elt F) → (⟨S100000x8, .f32⟩ : BufTy).Contents (Elt F) → (⟨S100000x8, .f32⟩ : BufTy).Contents (Elt F)) ]

/-- The log-softmax, an inlined call: operations 135–149 (main_v106). -/
abbrev opsDl : List (HloOp τ sig (Elt F)) :=
  [ TRef.nullary (TRef.of (T := ⟨S_, .f32⟩) main_call2_cst) (constant S_ .f32 0xFF800000#32),
    TRef.binary (TRef.of (T := ⟨S100000x8, .f32⟩) main_v105) (TRef.of (T := ⟨S_, .f32⟩) main_call2_cst) (TRef.of (T := ⟨S100000, .f32⟩) main_call2_v0) (fun x v => Host.reduce FloatOps.maximumf x v reducesTo_S100000x8_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x8, .f32⟩) main_call2_v4) (broadcastInDim S100000x8 ![0, 1] bcast_S100000x1_S100000x8_0_1),
    TRef.binary (TRef.of (T := ⟨S100000x8, .f32⟩) main_v105) (TRef.of (T := ⟨S100000x8, .f32⟩) main_call2_v4) (TRef.of (T := ⟨S100000x8, .f32⟩) main_call2_v5) subf,
    TRef.unary (TRef.of (T := ⟨S100000x8, .f32⟩) main_call2_v5) (TRef.of (T := ⟨S100000x8, .f32⟩) main_call2_v6) Host.exp,
    TRef.nullary (TRef.of (T := ⟨S_, .f32⟩) main_call2_cst_1) (constant S_ .f32 0x00000000#32),
    TRef.binary (TRef.of (T := ⟨S100000x8, .f32⟩) main_call2_v6) (TRef.of (T := ⟨S_, .f32⟩) main_call2_cst_1) (TRef.of (T := ⟨S100000, .f32⟩) main_call2_v7) (fun x v => Host.reduceAdd x v reducesTo_S100000x8_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x8, .f32⟩) main_call2_v10) (broadcastInDim S100000x8 ![0, 1] bcast_S100000x1_S100000x8_0_1),
    TRef.binary (TRef.of (T := ⟨S100000x8, .f32⟩) main_call2_v5) (TRef.of (T := ⟨S100000x8, .f32⟩) main_call2_v10) (TRef.of (T := ⟨S100000x8, .f32⟩) main_v106) subf ]

set_option maxRecDepth 8192 in
/-- @main's operations are the seven stretches in a row. -/
theorem ops_split : (ops : List (HloOp τ sig (Elt F))) = opsA ++ (opsAr ++ (opsB ++ (opsBr ++ (opsC ++ (opsD ++ opsDl))))) := rfl

/-- The contents after @main from contents `V`: the seven folds, one after the other. -/
theorem after_ops (V : Valuation τ sig (Elt F)) :
    after (ops : List (HloOp τ sig (Elt F))) V
      = after opsDl (after opsD (after opsC (after opsBr (after opsB (after opsAr (after opsA V)))))) := by
  rw [ops_split, after_append, after_append, after_append, after_append, after_append, after_append]

end Cert.ReferenceIdeal.Chunks

end
-- ==== Proof.RefRun.lean ====
/-
  The reference's run, read stretch by stretch.

  Every weakly fair execution of the reference terminates with each buffer at the fold of its 149 host operations over the
  launch contents. That fold is taken here in seven steps: each stretch of operations is read on its own from ANY contents
  it may start from, given what the few buffers it reads hold; a buffer no operation of a stretch writes keeps its contents
  through it. Chained from the launch contents, the two results hold the staged values of the last stages, and the
  arguments are unchanged. An inlined call moves contents to a buffer's own type and back; those two moves cancel.
-/
import proofs.«169581_j36447092474036_1_alg».proof.Proof.RefChunks
import proofs.«169581_j36447092474036_1_alg».proof.Proof.RefRead

noncomputable section

namespace Cert.ReferenceIdeal.HandRun

open Cert.ReferenceIdeal Cert.ReferenceIdeal.Gen Cert.ReferenceIdeal.Ops Cert.ReferenceIdeal.Chunks Cert.ReferenceIdeal.RefRead
open Idealize.ShloMosaic Idealize.ShloMosaic.TcCoe Idealize.SL.Sem Idealize.ShloMosaic.StableHlo

/-- No operation of the named list writes the buffer at hand: each operation writes its one result buffer, another one. -/
macro "not_written" ops:ident : tactic =>
  `(tactic| (refine List.forall_iff_forall_mem.mp ?_
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- Contents moved to a buffer's own type and back are the contents. -/
theorem ofBuf_toBuf {T : BufTy} (x : TRef sig T) (v : T.Contents (Elt Ideal)) : x.ofBuf (x.toBuf v) = v := by
  obtain ⟨r, h, h2, h3⟩ := x
  subst h
  rfl

variable (V : Valuation τ sig (Elt Ideal))

/-! ## Buffers a stretch does not write -/

theorem keepA_arg5 : after opsA V (Proc.devRef .tc main_arg5) = V (Proc.devRef .tc main_arg5) :=
  after_of_forall_not_mem (b := Proc.devRef .tc main_arg5) _ _ (by not_written opsA)
theorem keepA_arg6 : after opsA V (Proc.devRef .tc main_arg6) = V (Proc.devRef .tc main_arg6) :=
  after_of_forall_not_mem (b := Proc.devRef .tc main_arg6) _ _ (by not_written opsA)
theorem keepA_arg7 : after opsA V (Proc.devRef .tc main_arg7) = V (Proc.devRef .tc main_arg7) :=
  after_of_forall_not_mem (b := Proc.devRef .tc main_arg7) _ _ (by not_written opsA)
theorem keepA_arg8 : after opsA V (Proc.devRef .tc main_arg8) = V (Proc.devRef .tc main_arg8) :=
  after_of_forall_not_mem (b := Proc.devRef .tc main_arg8) _ _ (by not_written opsA)
theorem keepA_arg9 : after opsA V (Proc.devRef .tc main_arg9) = V (Proc.devRef .tc main_arg9) :=
  after_of_forall_not_mem (b := Proc.devRef .tc main_arg9) _ _ (by not_written opsA)
theorem keepA_arg10 : after opsA V (Proc.devRef .tc main_arg10) = V (Proc.devRef .tc main_arg10) :=
  after_of_forall_not_mem (b := Proc.devRef .tc main_arg10) _ _ (by not_written opsA)
theorem keepA_arg11 : after opsA V (Proc.devRef .tc main_arg11) = V (Proc.devRef .tc main_arg11) :=
  after_of_forall_not_mem (b := Proc.devRef .tc main_arg11) _ _ (by not_written opsA)
theorem keepA_arg12 : after opsA V (Proc.devRef .tc main_arg12) = V (Proc.devRef .tc main_arg12) :=
  after_of_forall_not_mem (b := Proc.devRef .tc main_arg12) _ _ (by not_written opsA)
theorem keepA_arg13 : after opsA V (Proc.devRef .tc main_arg13) = V (Proc.devRef .tc main_arg13) :=
  after_of_forall_not_mem (b := Proc.devRef .tc main_arg13) _ _ (by not_written opsA)
theorem keepAr_v1 : after opsAr V (Proc.devRef .tc main_v1) = V (Proc.devRef .tc main_v1) :=
  after_of_forall_not_mem (b := Proc.devRef .tc main_v1) _ _ (by not_written opsAr)
theorem keepAr_v3 : after opsAr V (Proc.devRef .tc main_v3) = V (Proc.devRef .tc main_v3) :=
  after_of_forall_not_mem (b := Proc.devRef .tc main_v3) _ _ (by not_written opsAr)
theorem keepAr_arg5 : after opsAr V (Proc.devRef .tc main_arg5) = V (Proc.devRef .tc main_arg5) :=
  after_of_forall_not_mem (b := Proc.devRef .tc main_arg5) _ _ (by not_written opsAr)
theorem keepAr_arg6 : after opsAr V (Proc.devRef .tc main_arg6) = V (Proc.devRef .tc main_arg6) :=
  after_of_forall_not_mem (b := Proc.devRef .tc main_arg6) _ _ (by not_written opsAr)
theorem keepAr_arg7 : after opsAr V (Proc.devRef .tc main_arg7) = V (Proc.devRef .tc main_arg7) :=
  after_of_forall_not_mem (b := Proc.devRef .tc main_arg7) _ _ (by not_written opsAr)
theorem keepAr_arg8 : after opsAr V (Proc.devRef .tc main_arg8) = V (Proc.devRef .tc main_arg8) :=
  after_of_forall_not_mem (b := Proc.devRef .tc main_arg8) _ _ (by not_written opsAr)
theorem keepAr_arg9 : after opsAr V (Proc.devRef .tc main_arg9) = V (Proc.devRef .tc main_arg9) :=
  after_of_forall_not_mem (b := Proc.devRef .tc main_arg9) _ _ (by not_written opsAr)
theorem keepAr_arg10 : after opsAr V (Proc.devRef .tc main_arg10) = V (Proc.devRef .tc main_arg10) :=
  after_of_forall_not_mem (b := Proc.devRef .tc main_arg10) _ _ (by not_written opsAr)
theorem keepAr_arg11 : after opsAr V (Proc.devRef .tc main_arg11) = V (Proc.devRef .tc main_arg11) :=
  after_of_forall_not_mem (b := Proc.devRef .tc main_arg11) _ _ (by not_written opsAr)
theorem keepAr_arg12 : after opsAr V (Proc.devRef .tc main_arg12) = V (Proc.devRef .tc main_arg12) :=
  after_of_forall_not_mem (b := Proc.devRef .tc main_arg12) _ _ (by not_written opsAr)
theorem keepAr_arg13 : after opsAr V (Proc.devRef .tc main_arg13) = V (Proc.devRef .tc main_arg13) :=
  after_of_forall_not_mem (b := Proc.devRef .tc main_arg13) _ _ (by not_written opsAr)
theorem keepB_v1 : after opsB V (Proc.devRef .tc main_v1) = V (Proc.devRef .tc main_v1) :=
  after_of_forall_not_mem (b := Proc.devRef .tc main_v1) _ _ (by not_written opsB)
theorem keepB_v3 : after opsB V (Proc.devRef .tc main_v3) = V (Proc.devRef .tc main_v3) :=
  after_of_forall_not_mem (b := Proc.devRef .tc main_v3) _ _ (by not_written opsB)
theorem keepB_arg8 : after opsB V (Proc.devRef .tc main_arg8) = V (Proc.devRef .tc main_arg8) :=
  after_of_forall_not_mem (b := Proc.devRef .tc main_arg8) _ _ (by not_written opsB)
theorem keepB_arg9 : after opsB V (Proc.devRef .tc main_arg9) = V (Proc.devRef .tc main_arg9) :=
  after_of_forall_not_mem (b := Proc.devRef .tc main_arg9) _ _ (by not_written opsB)
theorem keepB_arg10 : after opsB V (Proc.devRef .tc main_arg10) = V (Proc.devRef .tc main_arg10) :=
  after_of_forall_not_mem (b := Proc.devRef .tc main_arg10) _ _ (by not_written opsB)
theorem keepB_arg11 : after opsB V (Proc.devRef .tc main_arg11) = V (Proc.devRef .tc main_arg11) :=
  after_of_forall_not_mem (b := Proc.devRef .tc main_arg11) _ _ (by not_written opsB)
theorem keepB_arg12 : after opsB V (Proc.devRef .tc main_arg12) = V (Proc.devRef .tc main_arg12) :=
  after_of_forall_not_mem (b := Proc.devRef .tc main_arg12) _ _ (by not_written opsB)
theorem keepB_arg13 : after opsB V (Proc.devRef .tc main_arg13) = V (Proc.devRef .tc main_arg13) :=
  after_of_forall_not_mem (b := Proc.devRef .tc main_arg13) _ _ (by not_written opsB)
theorem keepBr_v1 : after opsBr V (Proc.devRef .tc main_v1) = V (Proc.devRef .tc main_v1) :=
  after_of_forall_not_mem (b := Proc.devRef .tc main_v1) _ _ (by not_written opsBr)
theorem keepBr_v3 : after opsBr V (Proc.devRef .tc main_v3) = V (Proc.devRef .tc main_v3) :=
  after_of_forall_not_mem (b := Proc.devRef .tc main_v3) _ _ (by not_written opsBr)
theorem keepBr_arg8 : after opsBr V (Proc.devRef .tc main_arg8) = V (Proc.devRef .tc main_arg8) :=
  after_of_forall_not_mem (b := Proc.devRef .tc main_arg8) _ _ (by not_written opsBr)
theorem keepBr_arg9 : after opsBr V (Proc.devRef .tc main_arg9) = V (Proc.devRef .tc main_arg9) :=
  after_of_forall_not_mem (b := Proc.devRef .tc main_arg9) _ _ (by not_written opsBr)
theorem keepBr_arg10 : after opsBr V (Proc.devRef .tc main_arg10) = V (Proc.devRef .tc main_arg10) :=
  after_of_forall_not_mem (b := Proc.devRef .tc main_arg10) _ _ (by not_written opsBr)
theorem keepBr_arg11 : after opsBr V (Proc.devRef .tc main_arg11) = V (Proc.devRef .tc main_arg11) :=
  after_of_forall_not_mem (b := Proc.devRef .tc main_arg11) _ _ (by not_written opsBr)
theorem keepBr_arg12 : after opsBr V (Proc.devRef .tc main_arg12) = V (Proc.devRef .tc main_arg12) :=
  after_of_forall_not_mem (b := Proc.devRef .tc main_arg12) _ _ (by not_written opsBr)
theorem keepBr_arg13 : after opsBr V (Proc.devRef .tc main_arg13) = V (Proc.devRef .tc main_arg13) :=
  after_of_forall_not_mem (b := Proc.devRef .tc main_arg13) _ _ (by not_written opsBr)
theorem keepC_v1 : after opsC V (Proc.devRef .tc main_v1) = V (Proc.devRef .tc main_v1) :=
  after_of_forall_not_mem (b := Proc.devRef .tc main_v1) _ _ (by not_written opsC)
theorem keepC_v3 : after opsC V (Proc.devRef .tc main_v3) = V (Proc.devRef .tc main_v3) :=
  after_of_forall_not_mem (b := Proc.devRef .tc main_v3) _ _ (by not_written opsC)
theorem keepC_arg11 : after opsC V (Proc.devRef .tc main_arg11) = V (Proc.devRef .tc main_arg11) :=
  after_of_forall_not_mem (b := Proc.devRef .tc main_arg11) _ _ (by not_written opsC)
theorem keepC_arg12 : after opsC V (Proc.devRef .tc main_arg12) = V (Proc.devRef .tc main_arg12) :=
  after_of_forall_not_mem (b := Proc.devRef .tc main_arg12) _ _ (by not_written opsC)
theorem keepC_arg13 : after opsC V (Proc.devRef .tc main_arg13) = V (Proc.devRef .tc main_arg13) :=
  after_of_forall_not_mem (b := Proc.devRef .tc main_arg13) _ _ (by not_written opsC)
theorem keepD_v81 : after opsD V (Proc.devRef .tc main_v81) = V (Proc.devRef .tc main_v81) :=
  after_of_forall_not_mem (b := Proc.devRef .tc main_v81) _ _ (by not_written opsD)
theorem keepDl_v81 : after opsDl V (Proc.devRef .tc main_v81) = V (Proc.devRef .tc main_v81) :=
  after_of_forall_not_mem (b := Proc.devRef .tc main_v81) _ _ (by not_written opsDl)

/-! ## The arguments through the whole of @main -/

theorem kept_arg0 : after (ops : List (HloOp τ sig (Elt Ideal))) V (Proc.devRef .tc main_arg0) = V (Proc.devRef .tc main_arg0) :=
  after_of_forall_not_mem (b := Proc.devRef .tc main_arg0) _ _ (by not_written ops)
theorem kept_arg1 : after (ops : List (HloOp τ sig (Elt Ideal))) V (Proc.devRef .tc main_arg1) = V (Proc.devRef .tc main_arg1) :=
  after_of_forall_not_mem (b := Proc.devRef .tc main_arg1) _ _ (by not_written ops)
theorem kept_arg2 : after (ops : List (HloOp τ sig (Elt Ideal))) V (Proc.devRef .tc main_arg2) = V (Proc.devRef .tc main_arg2) :=
  after_of_forall_not_mem (b := Proc.devRef .tc main_arg2) _ _ (by not_written ops)
theorem kept_arg3 : after (ops : List (HloOp τ sig (Elt Ideal))) V (Proc.devRef .tc main_arg3) = V (Proc.devRef .tc main_arg3) :=
  after_of_forall_not_mem (b := Proc.devRef .tc main_arg3) _ _ (by not_written ops)
theorem kept_arg4 : after (ops : List (HloOp τ sig (Elt Ideal))) V (Proc.devRef .tc main_arg4) = V (Proc.devRef .tc main_arg4) :=
  after_of_forall_not_mem (b := Proc.devRef .tc main_arg4) _ _ (by not_written ops)
theorem kept_arg5 : after (ops : List (HloOp τ sig (Elt Ideal))) V (Proc.devRef .tc main_arg5) = V (Proc.devRef .tc main_arg5) :=
  after_of_forall_not_mem (b := Proc.devRef .tc main_arg5) _ _ (by not_written ops)
theorem kept_arg6 : after (ops : List (HloOp τ sig (Elt Ideal))) V (Proc.devRef .tc main_arg6) = V (Proc.devRef .tc main_arg6) :=
  after_of_forall_not_mem (b := Proc.devRef .tc main_arg6) _ _ (by not_written ops)
theorem kept_arg7 : after (ops : List (HloOp τ sig (Elt Ideal))) V (Proc.devRef .tc main_arg7) = V (Proc.devRef .tc main_arg7) :=
  after_of_forall_not_mem (b := Proc.devRef .tc main_arg7) _ _ (by not_written ops)
theorem kept_arg8 : after (ops : List (HloOp τ sig (Elt Ideal))) V (Proc.devRef .tc main_arg8) = V (Proc.devRef .tc main_arg8) :=
  after_of_forall_not_mem (b := Proc.devRef .tc main_arg8) _ _ (by not_written ops)
theorem kept_arg9 : after (ops : List (HloOp τ sig (Elt Ideal))) V (Proc.devRef .tc main_arg9) = V (Proc.devRef .tc main_arg9) :=
  after_of_forall_not_mem (b := Proc.devRef .tc main_arg9) _ _ (by not_written ops)
theorem kept_arg10 : after (ops : List (HloOp τ sig (Elt Ideal))) V (Proc.devRef .tc main_arg10) = V (Proc.devRef .tc main_arg10) :=
  after_of_forall_not_mem (b := Proc.devRef .tc main_arg10) _ _ (by not_written ops)
theorem kept_arg11 : after (ops : List (HloOp τ sig (Elt Ideal))) V (Proc.devRef .tc main_arg11) = V (Proc.devRef .tc main_arg11) :=
  after_of_forall_not_mem (b := Proc.devRef .tc main_arg11) _ _ (by not_written ops)
theorem kept_arg12 : after (ops : List (HloOp τ sig (Elt Ideal))) V (Proc.devRef .tc main_arg12) = V (Proc.devRef .tc main_arg12) :=
  after_of_forall_not_mem (b := Proc.devRef .tc main_arg12) _ _ (by not_written ops)
theorem kept_arg13 : after (ops : List (HloOp τ sig (Elt Ideal))) V (Proc.devRef .tc main_arg13) = V (Proc.devRef .tc main_arg13) :=
  after_of_forall_not_mem (b := Proc.devRef .tc main_arg13) _ _ (by not_written ops)

/-! ## Each stretch read from the contents it starts from -/

section Reads

variable (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x1, .f32⟩ : BufTy).Contents (Elt Ideal)) (x9 : (⟨S128x1, .f32⟩ : BufTy).Contents (Elt Ideal)) (x10 : (⟨S1, .f32⟩ : BufTy).Contents (Elt Ideal)) (x11 : (⟨S1x8, .f32⟩ : BufTy).Contents (Elt Ideal)) (x12 : (⟨S1x8, .f32⟩ : BufTy).Contents (Elt Ideal)) (x13 : (⟨S8, .f32⟩ : BufTy).Contents (Elt Ideal))

set_option maxHeartbeats 2000000 in
theorem readA_v1 (h1 : V (Proc.devRef .tc main_arg1) = x1) : after opsA V (Proc.devRef .tc main_v1) = val_main_v1 (F := Ideal) x1 := by
  after_results_simp
  rw [h1]
  rfl

set_option maxHeartbeats 2000000 in
theorem readA_v3 (h1 : V (Proc.devRef .tc main_arg1) = x1) : after opsA V (Proc.devRef .tc main_v3) = val_main_v3 (F := Ideal) x1 := by
  after_results_simp
  rw [h1]
  rfl

set_option maxHeartbeats 4000000 in
theorem readA_v28 (h0 : V (Proc.devRef .tc main_arg0) = x0) (h1 : V (Proc.devRef .tc main_arg1) = x1) (h2 : V (Proc.devRef .tc main_arg2) = x2) (h3 : V (Proc.devRef .tc main_arg3) = x3) (h4 : V (Proc.devRef .tc main_arg4) = x4) : after opsA V (Proc.devRef .tc main_v28) = val_main_v28 (F := Ideal) x0 x1 x2 x3 x4 := by
  after_results_simp
  rw [h0, h1, h2, h3, h4]
  rfl

set_option maxHeartbeats 1000000 in
theorem readAr : after opsAr V (Proc.devRef .tc main_v29)
    = maximumf (F := Ideal) (s := S100000x128) (φ := .f32) (V (Proc.devRef .tc main_v28)) (val_main_call0_v0 (F := Ideal)) := by
  after_results
  rfl

set_option maxHeartbeats 4000000 in
theorem readB_v54 (h29 : V (Proc.devRef .tc main_v29) = val_main_v29 (F := Ideal) x0 x1 x2 x3 x4) (h1 : V (Proc.devRef .tc main_v1) = val_main_v1 (F := Ideal) x1) (h3 : V (Proc.devRef .tc main_v3) = val_main_v3 (F := Ideal) x1)
    (h5 : V (Proc.devRef .tc main_arg5) = x5) (h6 : V (Proc.devRef .tc main_arg6) = x6) (h7 : V (Proc.devRef .tc main_arg7) = x7) : after opsB V (Proc.devRef .tc main_v54) = val_main_v54 (F := Ideal) x0 x1 x2 x3 x4 x5 x6 x7 := by
  after_results_simp
  rw [h29, h1, h3, h5, h6, h7]
  rfl

set_option maxHeartbeats 1000000 in
theorem readBr : after opsBr V (Proc.devRef .tc main_v55)
    = maximumf (F := Ideal) (s := S100000x128) (φ := .f32) (V (Proc.devRef .tc main_v54)) (val_main_call1_v0 (F := Ideal)) := by
  after_results
  rfl

set_option maxHeartbeats 4000000 in
theorem readC_v80 (h55 : V (Proc.devRef .tc main_v55) = val_main_v55 (F := Ideal) x0 x1 x2 x3 x4 x5 x6 x7) (h1 : V (Proc.devRef .tc main_v1) = val_main_v1 (F := Ideal) x1) (h3 : V (Proc.devRef .tc main_v3) = val_main_v3 (F := Ideal) x1)
    (h8 : V (Proc.devRef .tc main_arg8) = x8) (h9 : V (Proc.devRef .tc main_arg9) = x9) (h10 : V (Proc.devRef .tc main_arg10) = x10) : after opsC V (Proc.devRef .tc main_v80) = val_main_v80 (F := Ideal) x0 x1 x2 x3 x4 x5 x6 x7 x8 x9 x10 := by
  after_results_simp
  rw [h55, h1, h3, h8, h9, h10]
  rfl

set_option maxHeartbeats 4000000 in
theorem readC_v81 (h55 : V (Proc.devRef .tc main_v55) = val_main_v55 (F := Ideal) x0 x1 x2 x3 x4 x5 x6 x7) (h1 : V (Proc.devRef .tc main_v1) = val_main_v1 (F := Ideal) x1) (h3 : V (Proc.devRef .tc main_v3) = val_main_v3 (F := Ideal) x1)
    (h8 : V (Proc.devRef .tc main_arg8) = x8) (h9 : V (Proc.devRef .tc main_arg9) = x9) (h10 : V (Proc.devRef .tc main_arg10) = x10) : after opsC V (Proc.devRef .tc main_v81) = val_main_v81 (F := Ideal) x0 x1 x2 x3 x4 x5 x6 x7 x8 x9 x10 := by
  after_results_simp
  rw [h55, h1, h3, h8, h9, h10]
  rfl

set_option maxHeartbeats 4000000 in
theorem readD_v105 (h80 : V (Proc.devRef .tc main_v80) = val_main_v80 (F := Ideal) x0 x1 x2 x3 x4 x5 x6 x7 x8 x9 x10) (h1 : V (Proc.devRef .tc main_v1) = val_main_v1 (F := Ideal) x1) (h3 : V (Proc.devRef .tc main_v3) = val_main_v3 (F := Ideal) x1)
    (h11 : V (Proc.devRef .tc main_arg11) = x11) (h12 : V (Proc.devRef .tc main_arg12) = x12) (h13 : V (Proc.devRef .tc main_arg13) = x13) : after opsD V (Proc.devRef .tc main_v105) = val_main_v105 (F := Ideal) x0 x1 x2 x3 x4 x5 x6 x7 x8 x9 x10 x11 x12 x13 := by
  after_results_simp
  rw [h80, h1, h3, h11, h12, h13]
  rfl

set_option maxRecDepth 65536 in
set_option maxHeartbeats 2000000 in
theorem readDl (h105 : V (Proc.devRef .tc main_v105) = val_main_v105 (F := Ideal) x0 x1 x2 x3 x4 x5 x6 x7 x8 x9 x10 x11 x12 x13) : after opsDl V (Proc.devRef .tc main_v106) = val_main_v106 (F := Ideal) x0 x1 x2 x3 x4 x5 x6 x7 x8 x9 x10 x11 x12 x13 := by
  after_results_simp
  simp only [ofBuf_toBuf]
  rw [h105]
  unfold val_main_v106 val_main_call2_v10 val_main_call2_v9 val_main_call2_v8 val_main_call2_v7 val_main_call2_cst_1 val_main_call2_v6 val_main_call2_v5 val_main_call2_v4 val_main_call2_v3 val_main_call2_v2 val_main_call2_v1 val_main_call2_cst_0 val_main_call2_v0 val_main_call2_cst
  rfl

end Reads

/-! ## The chain from the launch contents -/

section Chain

variable (m : (ℓ : Loc nD τ sig) → Buf (Elt Ideal) ℓ) (c : Dev nD)

/-- The buffer contents at launch and after each of the seven stretches. -/
abbrev U0 : Valuation τ sig (Elt Ideal) := launchContents m c
abbrev UA : Valuation τ sig (Elt Ideal) := after opsA (U0 m c)
abbrev UAr : Valuation τ sig (Elt Ideal) := after opsAr (UA m c)
abbrev UB : Valuation τ sig (Elt Ideal) := after opsB (UAr m c)
abbrev UBr : Valuation τ sig (Elt Ideal) := after opsBr (UB m c)
abbrev UC : Valuation τ sig (Elt Ideal) := after opsC (UBr m c)
abbrev UD : Valuation τ sig (Elt Ideal) := after opsD (UC m c)
abbrev UDl : Valuation τ sig (Elt Ideal) := after opsDl (UD m c)

/-! ### After the first layer's affine part -/
theorem UA_v1 : UA m c (Proc.devRef .tc main_v1) = val_main_v1 (F := Ideal) (m ((c.tc : Thread nD τ).loc main_arg1)) :=
  readA_v1 (V := U0 m c) (x1 := (m ((c.tc : Thread nD τ).loc main_arg1))) (h1 := rfl)
theorem UA_v3 : UA m c (Proc.devRef .tc main_v3) = val_main_v3 (F := Ideal) (m ((c.tc : Thread nD τ).loc main_arg1)) :=
  readA_v3 (V := U0 m c) (x1 := (m ((c.tc : Thread nD τ).loc main_arg1))) (h1 := rfl)
theorem UA_v28 : UA m c (Proc.devRef .tc main_v28) = val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  readA_v28 (V := U0 m c) (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (h0 := rfl) (h1 := rfl) (h2 := rfl) (h3 := rfl) (h4 := rfl)
theorem UA_arg5 : UA m c (Proc.devRef .tc main_arg5) = (m ((c.tc : Thread nD τ).loc main_arg5)) :=
  keepA_arg5 (U0 m c)
theorem UA_arg6 : UA m c (Proc.devRef .tc main_arg6) = (m ((c.tc : Thread nD τ).loc main_arg6)) :=
  keepA_arg6 (U0 m c)
theorem UA_arg7 : UA m c (Proc.devRef .tc main_arg7) = (m ((c.tc : Thread nD τ).loc main_arg7)) :=
  keepA_arg7 (U0 m c)
theorem UA_arg8 : UA m c (Proc.devRef .tc main_arg8) = (m ((c.tc : Thread nD τ).loc main_arg8)) :=
  keepA_arg8 (U0 m c)
theorem UA_arg9 : UA m c (Proc.devRef .tc main_arg9) = (m ((c.tc : Thread nD τ).loc main_arg9)) :=
  keepA_arg9 (U0 m c)
theorem UA_arg10 : UA m c (Proc.devRef .tc main_arg10) = (m ((c.tc : Thread nD τ).loc main_arg10)) :=
  keepA_arg10 (U0 m c)
theorem UA_arg11 : UA m c (Proc.devRef .tc main_arg11) = (m ((c.tc : Thread nD τ).loc main_arg11)) :=
  keepA_arg11 (U0 m c)
theorem UA_arg12 : UA m c (Proc.devRef .tc main_arg12) = (m ((c.tc : Thread nD τ).loc main_arg12)) :=
  keepA_arg12 (U0 m c)
theorem UA_arg13 : UA m c (Proc.devRef .tc main_arg13) = (m ((c.tc : Thread nD τ).loc main_arg13)) :=
  keepA_arg13 (U0 m c)

/-! ### After the first layer's clip -/
theorem UAr_v29 : UAr m c (Proc.devRef .tc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (readAr (UA m c)).trans (by rw [UA_v28 m c]; rfl)
theorem UAr_v1 : UAr m c (Proc.devRef .tc main_v1) = val_main_v1 (F := Ideal) (m ((c.tc : Thread nD τ).loc main_arg1)) := (keepAr_v1 (UA m c)).trans (UA_v1 m c)
theorem UAr_v3 : UAr m c (Proc.devRef .tc main_v3) = val_main_v3 (F := Ideal) (m ((c.tc : Thread nD τ).loc main_arg1)) := (keepAr_v3 (UA m c)).trans (UA_v3 m c)
theorem UAr_arg5 : UAr m c (Proc.devRef .tc main_arg5) = (m ((c.tc : Thread nD τ).loc main_arg5)) :=
  (keepAr_arg5 (UA m c)).trans (UA_arg5 m c)
theorem UAr_arg6 : UAr m c (Proc.devRef .tc main_arg6) = (m ((c.tc : Thread nD τ).loc main_arg6)) :=
  (keepAr_arg6 (UA m c)).trans (UA_arg6 m c)
theorem UAr_arg7 : UAr m c (Proc.devRef .tc main_arg7) = (m ((c.tc : Thread nD τ).loc main_arg7)) :=
  (keepAr_arg7 (UA m c)).trans (UA_arg7 m c)
theorem UAr_arg8 : UAr m c (Proc.devRef .tc main_arg8) = (m ((c.tc : Thread nD τ).loc main_arg8)) :=
  (keepAr_arg8 (UA m c)).trans (UA_arg8 m c)
theorem UAr_arg9 : UAr m c (Proc.devRef .tc main_arg9) = (m ((c.tc : Thread nD τ).loc main_arg9)) :=
  (keepAr_arg9 (UA m c)).trans (UA_arg9 m c)
theorem UAr_arg10 : UAr m c (Proc.devRef .tc main_arg10) = (m ((c.tc : Thread nD τ).loc main_arg10)) :=
  (keepAr_arg10 (UA m c)).trans (UA_arg10 m c)
theorem UAr_arg11 : UAr m c (Proc.devRef .tc main_arg11) = (m ((c.tc : Thread nD τ).loc main_arg11)) :=
  (keepAr_arg11 (UA m c)).trans (UA_arg11 m c)
theorem UAr_arg12 : UAr m c (Proc.devRef .tc main_arg12) = (m ((c.tc : Thread nD τ).loc main_arg12)) :=
  (keepAr_arg12 (UA m c)).trans (UA_arg12 m c)
theorem UAr_arg13 : UAr m c (Proc.devRef .tc main_arg13) = (m ((c.tc : Thread nD τ).loc main_arg13)) :=
  (keepAr_arg13 (UA m c)).trans (UA_arg13 m c)

/-! ### After the second layer's affine part -/
theorem UB_v54 : UB m c (Proc.devRef .tc main_v54) = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  readB_v54 (V := UAr m c) (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (h29 := UAr_v29 m c) (h1 := UAr_v1 m c) (h3 := UAr_v3 m c)
    (h5 := UAr_arg5 m c) (h6 := UAr_arg6 m c) (h7 := UAr_arg7 m c)
theorem UB_v1 : UB m c (Proc.devRef .tc main_v1) = val_main_v1 (F := Ideal) (m ((c.tc : Thread nD τ).loc main_arg1)) :=
  (keepB_v1 (UAr m c)).trans (UAr_v1 m c)
theorem UB_v3 : UB m c (Proc.devRef .tc main_v3) = val_main_v3 (F := Ideal) (m ((c.tc : Thread nD τ).loc main_arg1)) :=
  (keepB_v3 (UAr m c)).trans (UAr_v3 m c)
theorem UB_arg8 : UB m c (Proc.devRef .tc main_arg8) = (m ((c.tc : Thread nD τ).loc main_arg8)) :=
  (keepB_arg8 (UAr m c)).trans (UAr_arg8 m c)
theorem UB_arg9 : UB m c (Proc.devRef .tc main_arg9) = (m ((c.tc : Thread nD τ).loc main_arg9)) :=
  (keepB_arg9 (UAr m c)).trans (UAr_arg9 m c)
theorem UB_arg10 : UB m c (Proc.devRef .tc main_arg10) = (m ((c.tc : Thread nD τ).loc main_arg10)) :=
  (keepB_arg10 (UAr m c)).trans (UAr_arg10 m c)
theorem UB_arg11 : UB m c (Proc.devRef .tc main_arg11) = (m ((c.tc : Thread nD τ).loc main_arg11)) :=
  (keepB_arg11 (UAr m c)).trans (UAr_arg11 m c)
theorem UB_arg12 : UB m c (Proc.devRef .tc main_arg12) = (m ((c.tc : Thread nD τ).loc main_arg12)) :=
  (keepB_arg12 (UAr m c)).trans (UAr_arg12 m c)
theorem UB_arg13 : UB m c (Proc.devRef .tc main_arg13) = (m ((c.tc : Thread nD τ).loc main_arg13)) :=
  (keepB_arg13 (UAr m c)).trans (UAr_arg13 m c)

/-! ### After the second layer's clip -/
theorem UBr_v55 : UBr m c (Proc.devRef .tc main_v55) = val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (readBr (UB m c)).trans (by rw [UB_v54 m c]; rfl)
theorem UBr_v1 : UBr m c (Proc.devRef .tc main_v1) = val_main_v1 (F := Ideal) (m ((c.tc : Thread nD τ).loc main_arg1)) :=
  (keepBr_v1 (UB m c)).trans (UB_v1 m c)
theorem UBr_v3 : UBr m c (Proc.devRef .tc main_v3) = val_main_v3 (F := Ideal) (m ((c.tc : Thread nD τ).loc main_arg1)) :=
  (keepBr_v3 (UB m c)).trans (UB_v3 m c)
theorem UBr_arg8 : UBr m c (Proc.devRef .tc main_arg8) = (m ((c.tc : Thread nD τ).loc main_arg8)) :=
  (keepBr_arg8 (UB m c)).trans (UB_arg8 m c)
theorem UBr_arg9 : UBr m c (Proc.devRef .tc main_arg9) = (m ((c.tc : Thread nD τ).loc main_arg9)) :=
  (keepBr_arg9 (UB m c)).trans (UB_arg9 m c)
theorem UBr_arg10 : UBr m c (Proc.devRef .tc main_arg10) = (m ((c.tc : Thread nD τ).loc main_arg10)) :=
  (keepBr_arg10 (UB m c)).trans (UB_arg10 m c)
theorem UBr_arg11 : UBr m c (Proc.devRef .tc main_arg11) = (m ((c.tc : Thread nD τ).loc main_arg11)) :=
  (keepBr_arg11 (UB m c)).trans (UB_arg11 m c)
theorem UBr_arg12 : UBr m c (Proc.devRef .tc main_arg12) = (m ((c.tc : Thread nD τ).loc main_arg12)) :=
  (keepBr_arg12 (UB m c)).trans (UB_arg12 m c)
theorem UBr_arg13 : UBr m c (Proc.devRef .tc main_arg13) = (m ((c.tc : Thread nD τ).loc main_arg13)) :=
  (keepBr_arg13 (UB m c)).trans (UB_arg13 m c)

/-! ### After the third layer -/
theorem UC_v80 : UC m c (Proc.devRef .tc main_v80) = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  readC_v80 (V := UBr m c) (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x9 := (m ((c.tc : Thread nD τ).loc main_arg9))) (x10 := (m ((c.tc : Thread nD τ).loc main_arg10))) (h55 := UBr_v55 m c) (h1 := UBr_v1 m c) (h3 := UBr_v3 m c)
    (h8 := UBr_arg8 m c) (h9 := UBr_arg9 m c) (h10 := UBr_arg10 m c)
theorem UC_v81 : UC m c (Proc.devRef .tc main_v81) = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  readC_v81 (V := UBr m c) (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x9 := (m ((c.tc : Thread nD τ).loc main_arg9))) (x10 := (m ((c.tc : Thread nD τ).loc main_arg10))) (h55 := UBr_v55 m c) (h1 := UBr_v1 m c) (h3 := UBr_v3 m c)
    (h8 := UBr_arg8 m c) (h9 := UBr_arg9 m c) (h10 := UBr_arg10 m c)
theorem UC_v1 : UC m c (Proc.devRef .tc main_v1) = val_main_v1 (F := Ideal) (m ((c.tc : Thread nD τ).loc main_arg1)) :=
  (keepC_v1 (UBr m c)).trans (UBr_v1 m c)
theorem UC_v3 : UC m c (Proc.devRef .tc main_v3) = val_main_v3 (F := Ideal) (m ((c.tc : Thread nD τ).loc main_arg1)) :=
  (keepC_v3 (UBr m c)).trans (UBr_v3 m c)
theorem UC_arg11 : UC m c (Proc.devRef .tc main_arg11) = (m ((c.tc : Thread nD τ).loc main_arg11)) :=
  (keepC_arg11 (UBr m c)).trans (UBr_arg11 m c)
theorem UC_arg12 : UC m c (Proc.devRef .tc main_arg12) = (m ((c.tc : Thread nD τ).loc main_arg12)) :=
  (keepC_arg12 (UBr m c)).trans (UBr_arg12 m c)
theorem UC_arg13 : UC m c (Proc.devRef .tc main_arg13) = (m ((c.tc : Thread nD τ).loc main_arg13)) :=
  (keepC_arg13 (UBr m c)).trans (UBr_arg13 m c)

/-! ### After the fourth layer's affine part, and after the log-softmax -/
theorem UD_v105 : UD m c (Proc.devRef .tc main_v105) = val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  readD_v105 (V := UC m c) (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x9 := (m ((c.tc : Thread nD τ).loc main_arg9))) (x10 := (m ((c.tc : Thread nD τ).loc main_arg10))) (x11 := (m ((c.tc : Thread nD τ).loc main_arg11))) (x12 := (m ((c.tc : Thread nD τ).loc main_arg12))) (x13 := (m ((c.tc : Thread nD τ).loc main_arg13))) (h80 := UC_v80 m c) (h1 := UC_v1 m c) (h3 := UC_v3 m c)
    (h11 := UC_arg11 m c) (h12 := UC_arg12 m c) (h13 := UC_arg13 m c)
theorem UD_v81 : UD m c (Proc.devRef .tc main_v81) = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := (keepD_v81 (UC m c)).trans (UC_v81 m c)
theorem UDl_v106 : UDl m c (Proc.devRef .tc main_v106) = val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  readDl (V := UD m c) (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x9 := (m ((c.tc : Thread nD τ).loc main_arg9))) (x10 := (m ((c.tc : Thread nD τ).loc main_arg10))) (x11 := (m ((c.tc : Thread nD τ).loc main_arg11))) (x12 := (m ((c.tc : Thread nD τ).loc main_arg12))) (x13 := (m ((c.tc : Thread nD τ).loc main_arg13))) (h105 := UD_v105 m c)
theorem UDl_v81 : UDl m c (Proc.devRef .tc main_v81) = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := (keepDl_v81 (UD m c)).trans (UD_v81 m c)

/-- The two results after the whole of @main. -/
theorem fin_v106 : after (ops : List (HloOp τ sig (Elt Ideal))) (launchContents m c) (Proc.devRef .tc main_v106) = val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_ops]; exact UDl_v106 m c
theorem fin_v81 : after (ops : List (HloOp τ sig (Elt Ideal))) (launchContents m c) (Proc.devRef .tc main_v81) = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [after_ops]; exact UDl_v81 m c

end Chain

/-! ## The run -/

set_option maxRecDepth 8192 in
set_option maxHeartbeats 4000000 in
/-- From any memory with zero counters every weakly fair execution of the reference terminates, nothing faulting, with the
    two results at the last stages' values of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v106) = val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v81) = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v106).trans (fin_v106 m c), (h c main_v81).trans (fin_v81 m c),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c)),
      (h c main_arg11).trans (kept_arg11 (launchContents m c)),
      (h c main_arg12).trans (kept_arg12 (launchContents m c)),
      (h c main_arg13).trans (kept_arg13 (launchContents m c))⟩)
    (run_seq scopedRefs_eq scopedSems_eq defs main (fun _ => ops) main_eq (fun _ => ops_sub) m ρ)

end Cert.ReferenceIdeal.HandRun

end
-- ==== Proof.lean ====
/-
  GraphSAGE on 100000 nodes and 1600000 edges, four stacked layers, the kernel against its reference.

  Both programs compute, layer by layer, for every node p and output feature q,
      a[p,q] = Σ_k mean[p,k] · Wl[k,q] + Σ_k feat[p,k] · Wr[k,q] + b[q],
  where feat is the previous layer's result (the input features for the first layer) and mean[p,·] is the average of
  feat[s,·] over the edges s → p: the segment sum over destinations of the rows gathered by source, averaged by
  max(in-degree(p), 1). The first two layers clip a at zero, the third keeps it (its single feature is also the second
  result), the fourth takes the log-softmax of each node's eight values (the first result).

  The two programs differ in three ways, none of which changes an extended-real value:
    * the kernel forms each layer's affine part in 25 row tiles of 4000 nodes, the reference with two whole matrix
      products; entry (p, q) is the same sum over k either way, and the tiles cover every node exactly;
    * the kernel rounds the matrix operands to bf16 on the way into its products, which is the identity on exact values;
    * the kernel multiplies the segment sum by the reciprocal 1 / max(in-degree, 1), computed once, where the reference
      divides by max(in-degree, 1), recomputed per layer; off zero a · (1/d) = a/d on every extended real, the
      infinities included, and a count clamped below at 1 is never zero. Finiteness of the inputs is not used.
  The reference's log-softmax takes one more maximum with −∞'s value, which changes nothing.

  Both runs are read at the reference's staged values of the argument arrays: the reference's by following its 149 host
  operations, the kernel's by following its four host stretches and four regions; so from memories that agree on the
  arguments the two programs end with equal results. The ideal pass rewrote no operation, so there is nothing to
  preserve; the three frames are the runs with the results forgotten.
-/
import proofs.«169581_j36447092474036_1_alg».proof.Defs
import proofs.«169581_j36447092474036_1_alg».proof.Proof.Gen.Kernel
import proofs.«169581_j36447092474036_1_alg».proof.Proof.Gen.Kernel.Frame
import proofs.«169581_j36447092474036_1_alg».proof.Proof.Gen.KernelIdeal
import proofs.«169581_j36447092474036_1_alg».proof.Proof.Gen.KernelIdeal.Frame
import proofs.«169581_j36447092474036_1_alg».proof.Proof.Gen.ReferenceIdeal
import proofs.«169581_j36447092474036_1_alg».proof.Proof.Gen.Pre_finite_inputs
import proofs.«169581_j36447092474036_1_alg».proof.Proof.KernelValue
import proofs.«169581_j36447092474036_1_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the two results forgotten. -/
theorem frame_referenceIdeal : Cert.frame_ReferenceIdeal := fun m ρ _ =>
  (θ_run Cert.ReferenceIdeal.defs _ _).mono (fun _ h c => (h c).2.2) (Cert.ReferenceIdeal.HandRun.run m ρ)

/-- The ideal pass rewrote no operation. -/
theorem preserves : Cert.preserves_Kernel_KernelIdeal := trivial

/-- From memories that agree on the fourteen arguments, both idealized programs run and end with equal results: each
    result is the reference's last stage of the arguments, and equal arguments give equal stages. -/
theorem algebraic : Cert.algebraic_KernelIdeal_ReferenceIdeal := by
  intro m ρ m' ρ' _ hagree
  refine ⟨_, _, Cert.KernelIdeal.Final.run m ρ, ?_⟩
  refine (θ_run Cert.ReferenceIdeal.defs _ _).mono (fun _ h c => ⟨(h c).1.trans ?_, (h c).2.1.trans ?_, (h c).2.2⟩)
    (Cert.ReferenceIdeal.HandRun.run m' ρ')
  · obtain ⟨e0, e1, e2, e3, e4, e5, e6, e7, e8, e9, e10, e11, e12, e13⟩ := hagree c
    rw [e0, e1, e2, e3, e4, e5, e6, e7, e8, e9, e10, e11, e12, e13]
  · obtain ⟨e0, e1, e2, e3, e4, e5, e6, e7, e8, e9, e10, e11, e12, e13⟩ := hagree c
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
